-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v5_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v5_3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x256 : Shape := ⟨3, ![64, 2048, 256]⟩
abbrev S256x256 : Shape := ⟨2, ![256, 256]⟩
abbrev S1x512 : Shape := ⟨2, ![1, 512]⟩
abbrev S_ : Shape := ⟨0, ![]⟩

class Facts : Prop where
  bcast_S_S64x2048x256 : S_.BroadcastsInDim S64x2048x256 (![] : Fin 0 → Fin S64x2048x256.rank)
  reducesTo_S64x2048x256_S_d0_1_2 : S64x2048x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_v13 : IVec S_ 1) (main_v16 : IVec S1x512 1) : IVec S_ 1 :=
  let main_c_5 : IVec S_ 1 := constantI S_ 1 1#1
  let main_v17 : IVec S_ 1 := (fun x v => Host.reduce IntOp.andi x v reducesTo_S1x512_S_d0_1 h_S_) main_v16 main_c_5
  let main_v18 : IVec S_ 1 := andi main_v13 main_v17
  main_v18

def fn {F : FTy → Type} [FloatOps F] (main_arg0 : FVec F S64x2048x256 .f32) (main_arg1 : FVec F S64x2048x256 .f32) (main_arg2 : FVec F S256x256 .f32) (main_arg3 : FVec F S1x512 .f32) : IVec S_ 1 :=
  let main_v0 : FVec F S64x2048x256 .f32 := Host.absf main_arg0
  let main_cst : FVec F S_ .f32 := constant S_ .f32 0x7F800000#32
  let main_v1 : FVec F S64x2048x256 .f32 := broadcastInDim S64x2048x256 ![] bcast_S_S64x2048x256 main_cst
  let main_v2 : IVec S64x2048x256 1 := cmpf .olt main_v0 main_v1
  let main_c : IVec S_ 1 := constantI S_ 1 1#1
  let main_v3 : IVec S_ 1 := (fun x v => Host.reduce IntOp.andi x v reducesTo_S64x2048x256_S_d0_1_2 h_S_) main_v2 main_c
  let main_v4 : FVec F S64x2048x256 .f32 := Host.absf main_arg1
  let main_cst_0 : FVec F S_ .f32 := constant S_ .f32 0x7F800000#32
  let main_v5 : FVec F S64x2048x256 .f32 := broadcastInDim S64x2048x256 ![] bcast_S_S64x2048x256 main_cst_0
  let main_v6 : IVec S64x2048x256 1 := cmpf .olt main_v4 main_v5
  let main_c_1 : IVec S_ 1 := constantI S_ 1 1#1
  let main_v7 : IVec S_ 1 := (fun x v => Host.reduce IntOp.andi x v reducesTo_S64x2048x256_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S1x512 .f32 := Host.absf main_arg3
  let main_cst_4 : FVec F S_ .f32 := constant S_ .f32 0x7F800000#32
  let main_v15 : FVec F S1x512 .f32 := broadcastInDim S1x512 ![] bcast_S_S1x512 main_cst_4
  let main_v16 : IVec S1x512 1 := cmpf .olt main_v14 main_v15
  fn_part1 (F := F) main_v13 main_v16
-- ==== Kernel.lean ====
abbrev S64x2048x256 : Shape := ⟨3, ![64, 2048, 256]⟩
abbrev S256x256 : Shape := ⟨2, ![256, 256]⟩
abbrev S1x512 : Shape := ⟨2, ![1, 512]⟩
abbrev S1x256 : Shape := ⟨2, ![1, 256]⟩
abbrev S1x1x256 : Shape := ⟨3, ![1, 1, 256]⟩
abbrev S64x1x2048 : Shape := ⟨3, ![64, 1, 2048]⟩
abbrev S64x1x1 : Shape := ⟨3, ![64, 1, 1]⟩
abbrev S64x1x256 : Shape := ⟨3, ![64, 1, 256]⟩
abbrev S4x512x256 : Shape := ⟨3, ![4, 512, 256]⟩
abbrev S4x1x512 : Shape := ⟨3, ![4, 1, 512]⟩
abbrev S4x1x1 : Shape := ⟨3, ![4, 1, 1]⟩
abbrev S4x1x256 : Shape := ⟨3, ![4, 1, 256]⟩
abbrev S2048x256 : Shape := ⟨2, ![2048, 256]⟩
abbrev S4x512 : Shape := ⟨2, ![4, 512]⟩
abbrev S4x512x1 : Shape := ⟨3, ![4, 512, 1]⟩
abbrev S4x1 : Shape := ⟨2, ![4, 1]⟩
abbrev S4x256 : Shape := ⟨2, ![4, 256]⟩
abbrev S16x1x2048 : Shape := ⟨3, ![16, 1, 2048]⟩
abbrev S16x1x1 : Shape := ⟨3, ![16, 1, 1]⟩

abbrev nBuf : Space → Nat
  | .hbm => 14
  | .vmem => 26
  | .smem => 0
  | _ => 0

abbrev bufTy : (tb : Table) → Fin (tcTables nBuf tb) → BufTy
  | .hbm, ⟨0, _⟩ => ⟨S64x2048x256, .f32⟩
  | .hbm, ⟨1, _⟩ => ⟨S64x2048x256, .f32⟩
  | .hbm, ⟨2, _⟩ => ⟨S256x256, .f32⟩
  | .hbm, ⟨3, _⟩ => ⟨S1x512, .f32⟩
  | .hbm, ⟨4, _⟩ => ⟨S256x256, .f32⟩
  | .hbm, ⟨5, _⟩ => ⟨S1x256, .f32⟩
  | .hbm, ⟨6, _⟩ => ⟨S1x1x256, .f32⟩
  | .hbm, ⟨7, _⟩ => ⟨S1x256, .f32⟩
  | .hbm, ⟨8, _⟩ => ⟨S1x1x256, .f32⟩
  | .hbm, ⟨9, _⟩ => ⟨S64x1x2048, .f32⟩
  | .hbm, ⟨10, _⟩ => ⟨S64x1x1, .f32⟩
  | .hbm, ⟨11, _⟩ => ⟨S64x1x1, .f32⟩
  | .hbm, ⟨12, _⟩ => ⟨S64x1x256, .f32⟩
  | .hbm, ⟨13, _⟩ => ⟨S64x1x2048, .f32⟩
  | .local _ .vmem, ⟨0, _⟩ => ⟨S4x512x256, .f32⟩
  | .local _ .vmem, ⟨1, _⟩ => ⟨S4x512x256, .f32⟩
  | .local _ .vmem, ⟨2, _⟩ => ⟨S4x512x256, .f32⟩
  | .local _ .vmem, ⟨3, _⟩ => ⟨S4x512x256, .f32⟩
  | .local _ .vmem, ⟨4, _⟩ => ⟨S256x256, .f32⟩
  | .local _ .vmem, ⟨5, _⟩ => ⟨S1x1x256, .f32⟩
  | .local _ .vmem, ⟨6, _⟩ => ⟨S1x1x256, .f32⟩
  | .local _ .vmem, ⟨7, _⟩ => ⟨S4x1x512, .f32⟩
  | .local _ .vmem, ⟨8, _⟩ => ⟨S4x1x512, .f32⟩
  | .local _ .vmem, ⟨9, _⟩ => ⟨S4x1x1, .f32⟩
  | .local _ .vmem, ⟨10, _⟩ => ⟨S4x1x1, .f32⟩
  | .local _ .vmem, ⟨11, _⟩ => ⟨S4x1x1, .f32⟩
  | .local _ .vmem, ⟨12, _⟩ => ⟨S4x1x1, .f32⟩
  | .local _ .vmem, ⟨13, _⟩ => ⟨S4x1x256, .f32⟩
  | .local _ .vmem, ⟨14, _⟩ => ⟨S4x1x256, .f32⟩
  | .local _ .vmem, ⟨15, _⟩ => ⟨S4x1x1, .f32⟩
  | .local _ .vmem, ⟨16, _⟩ => ⟨S4x1x1, .f32⟩
  | .local _ .vmem, ⟨17, _⟩ => ⟨S4x1x256, .f32⟩
  | .local _ .vmem, ⟨18, _⟩ => ⟨S16x1x2048, .f32⟩
  | .local _ .vmem, ⟨19, _⟩ => ⟨S16x1x2048, .f32⟩
  | .local _ .vmem, ⟨20, _⟩ => ⟨S16x1x1, .f32⟩
  | .local _ .vmem, ⟨21, _⟩ => ⟨S16x1x1, .f32⟩
  | .local _ .vmem, ⟨22, _⟩ => ⟨S16x1x1, .f32⟩
  | .local _ .vmem, ⟨23, _⟩ => ⟨S16x1x1, .f32⟩
  | .local _ .vmem, ⟨24, _⟩ => ⟨S16x1x2048, .f32⟩
  | .local _ .vmem, ⟨25, _⟩ => ⟨S16x1x2048, .f32⟩
  | _, _ => ⟨S64x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v64 : BitVec 1 := Scalar.cmpi .eq arg1 c3_i32
  let v65 : BitVec 32 := Scalar.extui v64
  let c0_i32_41 : BitVec 32 := 0#32
  let v66 : BitVec 1 := Scalar.cmpi .ne v65 c0_i32_41
  v66

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S4x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4x1x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16x1x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x1x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x1x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S16x1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S256x256_S256x256_1_0 : S256x256.Transposes [1, 0] S256x256
  slices_S1x512_S1x256_0_0 : S1x512.Slices ![0, 0] S1x256
  shapeCasts_S1x256_S1x1x256 : S1x256.ShapeCasts S1x1x256
  slices_S1x512_S1x256_0_256 : S1x512.Slices ![0, 256] S1x256
  inb_S4x1x1_S4x1x1_0_0_0 : ∀ a, (![0, 0, 0] : Fin 3 → Nat) a + S4x1x1.size a ≤ S4x1x1.size a
  h_S4x1x1 : 0 < S4x1x1.numel
  shapeCasts_S4x1x1_S4x1x1 : S4x1x1.ShapeCasts S4x1x1
  inb_S4x1x256_S4x1x256_0_0_0 : ∀ a, (![0, 0, 0] : Fin 3 → Nat) a + S4x1x256.size a ≤ S4x1x256.size a
  h_S4x1x256 : 0 < S4x1x256.numel
  shapeCasts_S4x1x256_S4x1x256 : S4x1x256.ShapeCasts S4x1x256
  inb_S4x512x256_S4x512x256_0_0_0 : ∀ a, (![0, 0, 0] : Fin 3 → Nat) a + S4x512x256.size a ≤ S4x512x256.size a
  h_S4x512x256 : 0 < S4x512x256.numel
  shapeCasts_S4x512x256_S2048x256 : S4x512x256.ShapeCasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bitsLt_bf16_f32 : FTy.bits .bf16 < FTy.bits .f32
  shapeCasts_S2048x256_S4x512x256 : S2048x256.ShapeCasts S4x512x256
  inb_S1x1x256_S1x1x256_0_0_0 : ∀ a, (![0, 0, 0] : Fin 3 → Nat) a + S1x1x256.size a ≤ S1x1x256.size a
  h_S1x1x256 : 0 < S1x1x256.numel
  shapeCasts_S1x1x256_S1x1x256 : S1x1x256.ShapeCasts S1x1x256
  broadcasts_S1x1x256_S4x512x256 : S1x1x256.Broadcasts S4x512x256
  reduces_S4x512x256_S4x512 : S4x512x256.Reduces [2] S4x512
  shapeCasts_S4x512_S4x512x1 : S4x512.ShapeCasts S4x512x1
  transposes_S4x512x1_p0_2_1_S4x1x512 : S4x512x1.Transposes [0, 2, 1] S4x1x512
  inb_S4x1x512_S4x1x512_0_0_0 : ∀ a, (![0, 0, 0] : Fin 3 → Nat) a + S4x1x512.size a ≤ S4x1x512.size a
  h_S4x1x512 : 0 < S4x1x512.numel
  reduces_S4x512x1_S4x1 : S4x512x1.Reduces [1] S4x1
  shapeCasts_S4x1_S4x1x1 : S4x1.ShapeCasts S4x1x1
  broadcasts_S4x1x1_S4x512x1 : S4x1x1.Broadcasts S4x512x1
  broadcasts_S4x512x1_S4x512x256 : S4x512x1.Broadcasts S4x512x256
  reduces_S4x512x256_S4x256 : S4x512x256.Reduces [1] S4x256
  shapeCasts_S4x256_S4x1x256 : S4x256.ShapeCasts S4x1x256
  broadcasts_S4x1x1_S4x1x256 : S4x1x1.Broadcasts S4x1x256
  inb_S16x1x2048_S16x1x2048_0_0_0 : ∀ a, (![0, 0, 0] : Fin 3 → Nat) a + S16x1x2048.size a ≤ S16x1x2048.size a
  h_S16x1x2048 : 0 < S16x1x2048.numel
  shapeCasts_S16x1x2048_S16x1x2048 : S16x1x2048.ShapeCasts S16x1x2048
  inb_S16x1x1_S16x1x1_0_0_0 : ∀ a, (![0, 0, 0] : Fin 3 → Nat) a + S16x1x1.size a ≤ S16x1x1.size a
  h_S16x1x1 : 0 < S16x1x1.numel
  shapeCasts_S16x1x1_S16x1x1 : S16x1x1.ShapeCasts S16x1x1
  broadcasts_S16x1x1_S16x1x2048 : S16x1x1.Broadcasts S16x1x2048
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x256.size a ≤ S64x2048x256.size a
  hwx0_0 : ∀ i : grid0.Coords, EltTy.bits .f32 = 32 ∨ (Rect.block (s := S64x2048x256) S4x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x256.size a ≤ S64x2048x256.size a
  hwx0_1 : ∀ i : grid0.Coords, EltTy.bits .f32 = 32 ∨ (Rect.block (s := S64x2048x256) S4x512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S1x1x256.size a
  hwx0_3 : ∀ i : grid0.Coords, EltTy.bits .f32 = 32 ∨ (Rect.block (s := S1x1x256) S1x1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1x256.size a ≤ S1x1x256.size a
  hwx0_4 : ∀ i : grid0.Coords, EltTy.bits .f32 = 32 ∨ (Rect.block (s := S1x1x256) S1x1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x1x512.size a ≤ S64x1x2048.size a
  hwx0_5 : ∀ i : grid0.Coords, EltTy.bits .f32 = 32 ∨ (Rect.block (s := S64x1x2048) S4x1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x1x1.size a ≤ S64x1x1.size a
  hwx0_6 : ∀ i : grid0.Coords, EltTy.bits .f32 = 32 ∨ (Rect.block (s := S64x1x1) S4x1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4x1x1.size a ≤ S64x1x1.size a
  hwx0_7 : ∀ i : grid0.Coords, EltTy.bits .f32 = 32 ∨ (Rect.block (s := S64x1x1) S4x1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4x1x256.size a ≤ S64x1x256.size a
  hwx0_8 : ∀ i : grid0.Coords, EltTy.bits .f32 = 32 ∨ (Rect.block (s := S64x1x256) S4x1x256.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x1x2048.size a ≤ S64x1x2048.size a
  hwx1_0 : ∀ i : grid1.Coords, EltTy.bits .f32 = 32 ∨ (Rect.block (s := S64x1x2048) S16x1x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x1x1.size a ≤ S64x1x1.size a
  hwx1_1 : ∀ i : grid1.Coords, EltTy.bits .f32 = 32 ∨ (Rect.block (s := S64x1x1) S16x1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x1x1.size a ≤ S64x1x1.size a
  hwx1_2 : ∀ i : grid1.Coords, EltTy.bits .f32 = 32 ∨ (Rect.block (s := S64x1x1) S16x1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16x1x2048.size a ≤ S64x1x2048.size a
  hwx1_3 : ∀ i : grid1.Coords, EltTy.bits .f32 = 32 ∨ (Rect.block (s := S64x1x2048) S16x1x2048.size (cc1_transform_3 i) (hinb1_3 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S4x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5_0) S4x1x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_1) S4x1x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_2) S4x1x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v5_3) S4x1x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | 8 => fun i => !(k0_cond2 i == 1#1) | ⟨_ + 9, h⟩ => absurd h (Nat.not_lt.2 (Nat.le_add_left _ _))

abbrev win1_0 : Pipeline.Window sig grid1 :=
  Pipeline.Window.ofSpec (Memref.whole main_v5_0) S16x1x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5_1) S16x1x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5_2) S16x1x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S16x1x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S64x2048x256 : Shape := ⟨3, ![64, 2048, 256]⟩
abbrev S256x256 : Shape := ⟨2, ![256, 256]⟩
abbrev S1x512 : Shape := ⟨2, ![1, 512]⟩
abbrev S64x2048x512 : Shape := ⟨3, ![64, 2048, 512]⟩
abbrev S64x2048x1 : Shape := ⟨3, ![64, 2048, 1]⟩
abbrev S_ : Shape := ⟨0, ![]⟩
abbrev S64x1 : Shape := ⟨2, ![64, 1]⟩
abbrev S64x1x1 : Shape := ⟨3, ![64, 1, 1]⟩
abbrev S64x1x2048 : Shape := ⟨3, ![64, 1, 2048]⟩
abbrev S64x1x256 : Shape := ⟨3, ![64, 1, 256]⟩

abbrev nBuf : Space → Nat
  | .hbm => 25
  | .vmem => 0
  | .smem => 0
  | _ => 0

abbrev bufTy : (tb : Table) → Fin (tcTables nBuf tb) → BufTy
  | .hbm, ⟨0, _⟩ => ⟨S64x2048x256, .f32⟩
  | .hbm, ⟨1, _⟩ => ⟨S64x2048x256, .f32⟩
  | .hbm, ⟨2, _⟩ => ⟨S256x256, .f32⟩
  | .hbm, ⟨3, _⟩ => ⟨S1x512, .f32⟩
  | .hbm, ⟨4, _⟩ => ⟨S64x2048x256, .f32⟩
  | .hbm, ⟨5, _⟩ => ⟨S64x2048x256, .f32⟩
  | .hbm, ⟨6, _⟩ => ⟨S64x2048x512, .f32⟩
  | .hbm, ⟨7, _⟩ => ⟨S64x2048x512, .f32⟩
  | .hbm, ⟨8, _⟩ => ⟨S64x2048x1, .f32⟩
  | .hbm, ⟨9, _⟩ => ⟨S_, .f32⟩
  | .hbm, ⟨10, _⟩ => ⟨S64x1, .f32⟩
  | .hbm, ⟨11, _⟩ => ⟨S_, .f32⟩
  | .hbm, ⟨12, _⟩ => ⟨S64x1, .f32⟩
  | .hbm, ⟨13, _⟩ => ⟨S64x1, .f32⟩
  | .hbm, ⟨14, _⟩ => ⟨S64x1x1, .f32⟩
  | .hbm, ⟨15, _⟩ => ⟨S64x2048x1, .f32⟩
  | .hbm, ⟨16, _⟩ => ⟨S64x2048x1, .f32⟩
  | .hbm, ⟨17, _⟩ => ⟨S64x2048x1, .f32⟩
  | .hbm, ⟨18, _⟩ => ⟨S_, .f32⟩
  | .hbm, ⟨19, _⟩ => ⟨S64x1, .f32⟩
  | .hbm, ⟨20, _⟩ => ⟨S64x1x1, .f32⟩
  | .hbm, ⟨21, _⟩ => ⟨S64x2048x1, .f32⟩
  | .hbm, ⟨22, _⟩ => ⟨S64x2048x1, .f32⟩
  | .hbm, ⟨23, _⟩ => ⟨S64x1x2048, .f32⟩
  | .hbm, ⟨24, _⟩ => ⟨S64x1x256, .f32⟩
  | _, _ => ⟨S64x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  concatenates_S64x2048x256_S64x2048x256_S64x2048x512_d2 : Shape.Concatenates [S64x2048x256, S64x2048x256] S64x2048x512 2
  reducesTo_S64x2048x1_S64x1_d1 : S64x2048x1.ReducesTo [1] S64x1
  h_S_ : 0 < S_.numel
  bcast_S_S64x1 : S_.BroadcastsInDim S64x1 (![] : Fin 0 → Fin S64x1.rank)
  bcast_S64x1_S64x1x1_0_2 : S64x1.BroadcastsInDim S64x1x1 (![0, 2] : Fin 2 → Fin S64x1x1.rank)
  bcast_S64x1x1_S64x2048x1_0_1_2 : S64x1x1.BroadcastsInDim S64x2048x1 (![0, 1, 2] : Fin 3 → Fin S64x2048x1.rank)
  transposes_S64x2048x1_S64x1x2048_0_2_1 : S64x2048x1.Transposes [0, 2, 1] S64x1x2048
  dot_S64x2048x256_S256x256_S64x2048x256_2_1_01_0_n_n_wf : DotDims.WF S64x2048x256 S256x256 S64x2048x256 [2] [1] [0, 1] [0] [] []
  dot_S64x2048x512_S1x512_S64x2048x1_2_1_01_0_n_n_wf : DotDims.WF S64x2048x512 S1x512 S64x2048x1 [2] [1] [0, 1] [0] [] []
  dot_S64x1x2048_S64x2048x256_S64x1x256_2_1_1_2_0_0_wf : DotDims.WF S64x1x2048 S64x2048x256 S64x1x256 [2] [1] [1] [2] [0] [0]

variable [Facts₀]

def dot_S64x2048x256_S256x256_S64x2048x256_2_1_01_0_n_n : DotDims S64x2048x256 S256x256 S64x2048x256 where
  lhsContracting := [2]
  rhsContracting := [1]
  lhsNonContracting := [0, 1]
  rhsNonContracting := [0]
  lhsBatch := []
  rhsBatch := []
  wf := dot_S64x2048x256_S256x256_S64x2048x256_2_1_01_0_n_n_wf
def dot_S64x2048x512_S1x512_S64x2048x1_2_1_01_0_n_n : DotDims S64x2048x512 S1x512 S64x2048x1 where
  lhsContracting := [2]
  rhsContracting := [1]
  lhsNonContracting := [0, 1]
  rhsNonContracting := [0]
  lhsBatch := []
  rhsBatch := []
  wf := dot_S64x2048x512_S1x512_S64x2048x1_2_1_01_0_n_n_wf
def dot_S64x1x2048_S64x2048x256_S64x1x256_2_1_1_2_0_0 : DotDims S64x1x2048 S64x2048x256 S64x1x256 where
  lhsContracting := [2]
  rhsContracting := [1]
  lhsNonContracting := [1]
  rhsNonContracting := [2]
  lhsBatch := [0]
  rhsBatch := [0]
  wf := dot_S64x1x2048_S64x2048x256_S64x1x256_2_1_1_2_0_0_wf

class Facts : Prop extends Facts₀ where

variable [Facts]
-- ==== Proof.KB.R0Base.lean ====
/-
  Region 0 (the streaming kernel) on one core: what its runs share.  A point of its 16 x 4 grid is a block of 4
  sequences and a tile of 512 rows.  The body starts the three running numbers afresh at a sequence block's first
  tile, updates them at every tile, and writes them out at the last tile; the two conditions are decided over the
  grid in closed form.  The three result windows that are written only at the last tile are idle elsewhere.
-/
import proofs.«116815_j65094524338925_2_alg».proof.Proof.Gen.Kernel.Launch
import proofs.«116815_j65094524338925_2_alg».proof.Proof.Gen.Kernel.Skeleton
import proofs.«116815_j65094524338925_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body is at the first tile of its block of sequences. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- The body is at the last tile. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem idleAt0_6 : ∀ t : Fin cfg0.N, ¬cond0_1 (grid0.coords t) → cfg0.idle 6 (grid0.coords t) = true := by decide +kernel
theorem idleAt0_7 : ∀ t : Fin cfg0.N, ¬cond0_1 (grid0.coords t) → cfg0.idle 7 (grid0.coords t) = true := by decide +kernel
theorem idleAt0_8 : ∀ t : Fin cfg0.N, ¬cond0_1 (grid0.coords t) → cfg0.idle 8 (grid0.coords t) = true := by decide +kernel
theorem noFlush0_6 : ∀ t : Fin cfg0.N, ¬cond0_1 (grid0.coords t) → (cfg0.win 6).flush t = false := by decide +kernel
theorem noFlush0_7 : ∀ t : Fin cfg0.N, ¬cond0_1 (grid0.coords t) → (cfg0.win 7).flush t = false := by decide +kernel
theorem noFlush0_8 : ∀ t : Fin cfg0.N, ¬cond0_1 (grid0.coords t) → (cfg0.win 8).flush t = false := by decide +kernel
theorem liveAt0_6 : ∀ t : Fin cfg0.N, cond0_1 (grid0.coords t) → cfg0.idle 6 (grid0.coords t) = false := by decide +kernel
theorem liveAt0_7 : ∀ t : Fin cfg0.N, cond0_1 (grid0.coords t) → cfg0.idle 7 (grid0.coords t) = false := by decide +kernel
theorem liveAt0_8 : ∀ t : Fin cfg0.N, cond0_1 (grid0.coords t) → cfg0.idle 8 (grid0.coords t) = false := by decide +kernel

/-! The memrefs the pipeline passes the body at a point -/
abbrev ms0_0 (t : Fin cfg0.N) : Memref sig .tc .vmem S4x512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x1x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x1x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4x1x256 .f32 := win0_8.stage (cfg0.slots t 8)
abbrev hs0_8 (t : Fin cfg0.N) : (ms0_8 t).IsWhole := hstage0_8 ((cfg0.slots t 8).cast nbuf0_8)
/-- The three scratch buffers: the running maximum, the running denominator, the running weighted sum. -/
abbrev scM0_0 : Memref sig .tc .vmem S4x1x1 .f32 := Memref.whole cc0_scratch0
abbrev scM0_1 : Memref sig .tc .vmem S4x1x1 .f32 := Memref.whole cc0_scratch1
abbrev scM0_2 : Memref sig .tc .vmem S4x1x256 .f32 := Memref.whole cc0_scratch2
abbrev VS0_0 : View sig .tc .vmem S4x1x1 .f32 := scM0_0.view
abbrev VS0_1 : View sig .tc .vmem S4x1x1 .f32 := scM0_1.view
abbrev VS0_2 : View sig .tc .vmem S4x1x256 .f32 := scM0_2.view
/-- One staging buffer of each result window, through which its contents are stated. -/
abbrev VO0_5 : View sig .tc .vmem S4x1x512 .f32 := (Memref.whole cc0_stg5_0 : Memref sig .tc .vmem S4x1x512 .f32).view
abbrev VO0_6 : View sig .tc .vmem S4x1x1 .f32 := (Memref.whole cc0_stg6_0 : Memref sig .tc .vmem S4x1x1 .f32).view
abbrev VO0_7 : View sig .tc .vmem S4x1x1 .f32 := (Memref.whole cc0_stg7_0 : Memref sig .tc .vmem S4x1x1 .f32).view
abbrev VO0_8 : View sig .tc .vmem S4x1x256 .f32 := (Memref.whole cc0_stg8_0 : Memref sig .tc .vmem S4x1x256 .f32).view

end Cert.Kernel.Hand

end
-- ==== Proof.KB.R0RunB.lean ====
/-
  The body's run at a middle tile (neither the first nor the last of its block of sequences): it stores the tile's
  scores and updates the three running numbers from what the tile before left in them; the three windows written at
  the last tile are handed back untouched.  The pieces each buffer ends with are found by running the body.
-/
import proofs.«116815_j65094524338925_2_alg».proof.Proof.KB.R0Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : ¬cond0_1 i)
    (x0 x1 : Vec F S4x512x256 .f32) (x2 : Vec F S256x256 .f32) (x3 x4 : Vec F S1x1x256 .f32)
    (xs0 xs1 : Vec F S4x1x1 .f32) (xs2 : Vec F S4x1x256 .f32) :
    Σ' (L5 : List (View.Piece (Elt F) S4x1x512 .f32)) (LS0 : List (View.Piece (Elt F) S4x1x1 .f32)) (LS1 : List (View.Piece (Elt F) S4x1x1 .f32)), { LS2 : List (View.Piece (Elt F) S4x1x256 .f32) //
      ∀ (xi6 xi7 : Vec F S4x1x1 .f32) (xi8 : Vec F S4x1x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare xi6 ∗ owns (c : Thread nD τ) arg9 fullShare xi7 ∗ owns (c : Thread nD τ) arg10 fullShare xi8
            ∗ owns (c : Thread nD τ) arg11 fullShare xs0 ∗ owns (c : Thread nD τ) arg12 fullShare xs1 ∗ owns (c : Thread nD τ) arg13 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5) ∗ owns (c : Thread nD τ) arg8 fullShare xi6 ∗ owns (c : Thread nD τ) arg9 fullShare xi7 ∗ owns (c : Thread nD τ) arg10 fullShare xi8
                ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc0__score_acc_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun xi6 xi7 xi8 E K => ?run⟩
  case run =>
    simp only [cc0__score_acc_kernel_eq_skeleton]; unfold cc0__score_acc_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg8.eq_unread hf6; obtain rfl := harg9.eq_unread hf7; obtain rfl := harg10.eq_unread hf8
    obtain rfl := harg11.eq_unread hfs0; obtain rfl := harg12.eq_unread hfs1; obtain rfl := harg13.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    isplitl [HS1]; · iexists _; iexact HS1
    iexists _; iexact HS2

end Cert.Kernel.Hand

end
-- ==== Proof.KB.R0RunA.lean ====
/-
  The body's run at the first tile of a block of sequences: it starts the three running numbers afresh (whatever
  the scratch held), stores the tile's scores and makes the first update; the three windows written at the last tile
  are handed back untouched.
-/
import proofs.«116815_j65094524338925_2_alg».proof.Proof.KB.R0RunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : cond0_0 i) (hc1 : ¬cond0_1 i)
    (x0 x1 : Vec F S4x512x256 .f32) (x2 : Vec F S256x256 .f32) (x3 x4 : Vec F S1x1x256 .f32) :
    Σ' (L5 : List (View.Piece (Elt F) S4x1x512 .f32)) (LS0 : List (View.Piece (Elt F) S4x1x1 .f32)) (LS1 : List (View.Piece (Elt F) S4x1x1 .f32)), { LS2 : List (View.Piece (Elt F) S4x1x256 .f32) //
      ∀ (xi6 xi7 : Vec F S4x1x1 .f32) (xi8 : Vec F S4x1x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare xi6 ∗ owns (c : Thread nD τ) arg9 fullShare xi7 ∗ owns (c : Thread nD τ) arg10 fullShare xi8
            ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5) ∗ owns (c : Thread nD τ) arg8 fullShare xi6 ∗ owns (c : Thread nD τ) arg9 fullShare xi7 ∗ owns (c : Thread nD τ) arg10 fullShare xi8
                ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc0__score_acc_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun xi6 xi7 xi8 E K => ?run⟩
  case run =>
    simp only [cc0__score_acc_kernel_eq_skeleton]; unfold cc0__score_acc_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    isplitl [HS1]; · iexists _; iexact HS1
    iexists _; iexact HS2

end Cert.Kernel.Hand

end
-- ==== Proof.KB.R0RunC.lean ====
/-
  The body's run at the last tile of a block of sequences: it stores the tile's scores, makes the last update of the
  three running numbers from what the tile before left, and writes out the maximum, the reciprocal of the
  denominator and the normalised weighted sum.
-/
import proofs.«116815_j65094524338925_2_alg».proof.Proof.KB.R0RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : cond0_1 i)
    (x0 x1 : Vec F S4x512x256 .f32) (x2 : Vec F S256x256 .f32) (x3 x4 : Vec F S1x1x256 .f32)
    (xs0 xs1 : Vec F S4x1x1 .f32) (xs2 : Vec F S4x1x256 .f32) :
    Σ' (L5 : List (View.Piece (Elt F) S4x1x512 .f32)) (L6 : List (View.Piece (Elt F) S4x1x1 .f32)) (L7 : List (View.Piece (Elt F) S4x1x1 .f32)) (L8 : List (View.Piece (Elt F) S4x1x256 .f32))
       (LS0 : List (View.Piece (Elt F) S4x1x1 .f32)) (LS1 : List (View.Piece (Elt F) S4x1x1 .f32)), { LS2 : List (View.Piece (Elt F) S4x1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ owns (c : Thread nD τ) arg11 fullShare xs0 ∗ owns (c : Thread nD τ) arg12 fullShare xs1 ∗ owns (c : Thread nD τ) arg13 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8)
                ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc0__score_acc_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, ?_, fun E K => ?run⟩
  case run =>
    simp only [cc0__score_acc_kernel_eq_skeleton]; unfold cc0__score_acc_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg11.eq_unread hfs0; obtain rfl := harg12.eq_unread hfs1; obtain rfl := harg13.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [H8]; · iexists _; iexact H8
    isplitl [HS0]; · iexists _; iexact HS0
    isplitl [HS1]; · iexists _; iexact HS1
    iexists _; iexact HS2

end Cert.Kernel.Hand

end
-- ==== Proof.KB.R0Outs.lean ====
/-
  Region 0 on one core, at the buffer contents `V` the region is entered with: what each result window's staging
  buffer and each of the three scratch buffers holds after the body, case by case (the pieces the runs found, read
  back) and point by point (a recursion on the point: a first tile starts afresh, a later tile continues from what
  the tile before left in the scratch buffers).
-/
import proofs.«116815_j65094524338925_2_alg».proof.Proof.KB.R0RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! What each case leaves in each buffer -/

theorem cover0_A_5 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : cond0_0 i) (hc1 : ¬cond0_1 i)
    (x0 x1 : Vec F S4x512x256 .f32) (x2 : Vec F S256x256 .f32) (x3 x4 : Vec F S1x1x256 .f32) (y : S4x1x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).1 S4x1x512.size (by sl_kernel_rfl) y

def out0_A_5 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : cond0_0 i) (hc1 : ¬cond0_1 i)
    (x0 x1 : Vec F S4x512x256 .f32) (x2 : Vec F S256x256 .f32) (x3 x4 : Vec F S1x1x256 .f32) : Vec F S4x1x512 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).1)

theorem scover0_A_0 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : cond0_0 i) (hc1 : ¬cond0_1 i)
    (x0 x1 : Vec F S4x512x256 .f32) (x2 : Vec F S256x256 .f32) (x3 x4 : Vec F S1x1x256 .f32) (y : S4x1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.1 S4x1x1.size (by sl_kernel_rfl) y

def sout0_A_0 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : cond0_0 i) (hc1 : ¬cond0_1 i)
    (x0 x1 : Vec F S4x512x256 .f32) (x2 : Vec F S256x256 .f32) (x3 x4 : Vec F S1x1x256 .f32) : Vec F S4x1x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.1)

theorem scover0_A_1 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : cond0_0 i) (hc1 : ¬cond0_1 i)
    (x0 x1 : Vec F S4x512x256 .f32) (x2 : Vec F S256x256 .f32) (x3 x4 : Vec F S1x1x256 .f32) (y : S4x1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.1 S4x1x1.size (by sl_kernel_rfl) y

def sout0_A_1 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : cond0_0 i) (hc1 : ¬cond0_1 i)
    (x0 x1 : Vec F S4x512x256 .f32) (x2 : Vec F S256x256 .f32) (x3 x4 : Vec F S1x1x256 .f32) : Vec F S4x1x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.1)

theorem scover0_A_2 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : cond0_0 i) (hc1 : ¬cond0_1 i)
    (x0 x1 : Vec F S4x512x256 .f32) (x2 : Vec F S256x256 .f32) (x3 x4 : Vec F S1x1x256 .f32) (y : S4x1x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.1 S4x1x256.size (by sl_kernel_rfl) y

def sout0_A_2 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : cond0_0 i) (hc1 : ¬cond0_1 i)
    (x0 x1 : Vec F S4x512x256 .f32) (x2 : Vec F S256x256 .f32) (x3 x4 : Vec F S1x1x256 .f32) : Vec F S4x1x256 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.1)

theorem cover0_B_5 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : ¬cond0_1 i)
    (x0 x1 : Vec F S4x512x256 .f32) (x2 : Vec F S256x256 .f32) (x3 x4 : Vec F S1x1x256 .f32) (xs0 xs1 : Vec F S4x1x1 .f32) (xs2 : Vec F S4x1x256 .f32) (y : S4x1x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).1 S4x1x512.size (by sl_kernel_rfl) y

def out0_B_5 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : ¬cond0_1 i)
    (x0 x1 : Vec F S4x512x256 .f32) (x2 : Vec F S256x256 .f32) (x3 x4 : Vec F S1x1x256 .f32) (xs0 xs1 : Vec F S4x1x1 .f32) (xs2 : Vec F S4x1x256 .f32) : Vec F S4x1x512 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).1)

theorem scover0_B_0 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : ¬cond0_1 i)
    (x0 x1 : Vec F S4x512x256 .f32) (x2 : Vec F S256x256 .f32) (x3 x4 : Vec F S1x1x256 .f32) (xs0 xs1 : Vec F S4x1x1 .f32) (xs2 : Vec F S4x1x256 .f32) (y : S4x1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.1 S4x1x1.size (by sl_kernel_rfl) y

def sout0_B_0 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : ¬cond0_1 i)
    (x0 x1 : Vec F S4x512x256 .f32) (x2 : Vec F S256x256 .f32) (x3 x4 : Vec F S1x1x256 .f32) (xs0 xs1 : Vec F S4x1x1 .f32) (xs2 : Vec F S4x1x256 .f32) : Vec F S4x1x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.1)

theorem scover0_B_1 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : ¬cond0_1 i)
    (x0 x1 : Vec F S4x512x256 .f32) (x2 : Vec F S256x256 .f32) (x3 x4 : Vec F S1x1x256 .f32) (xs0 xs1 : Vec F S4x1x1 .f32) (xs2 : Vec F S4x1x256 .f32) (y : S4x1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.2.1 S4x1x1.size (by sl_kernel_rfl) y

def sout0_B_1 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : ¬cond0_1 i)
    (x0 x1 : Vec F S4x512x256 .f32) (x2 : Vec F S256x256 .f32) (x3 x4 : Vec F S1x1x256 .f32) (xs0 xs1 : Vec F S4x1x1 .f32) (xs2 : Vec F S4x1x256 .f32) : Vec F S4x1x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.2.1)

theorem scover0_B_2 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : ¬cond0_1 i)
    (x0 x1 : Vec F S4x512x256 .f32) (x2 : Vec F S256x256 .f32) (x3 x4 : Vec F S1x1x256 .f32) (xs0 xs1 : Vec F S4x1x1 .f32) (xs2 : Vec F S4x1x256 .f32) (y : S4x1x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.2.2.1 S4x1x256.size (by sl_kernel_rfl) y

def sout0_B_2 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : ¬cond0_1 i)
    (x0 x1 : Vec F S4x512x256 .f32) (x2 : Vec F S256x256 .f32) (x3 x4 : Vec F S1x1x256 .f32) (xs0 xs1 : Vec F S4x1x1 .f32) (xs2 : Vec F S4x1x256 .f32) : Vec F S4x1x256 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.2.2.1)

theorem cover0_C_5 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : cond0_1 i)
    (x0 x1 : Vec F S4x512x256 .f32) (x2 : Vec F S256x256 .f32) (x3 x4 : Vec F S1x1x256 .f32) (xs0 xs1 : Vec F S4x1x1 .f32) (xs2 : Vec F S4x1x256 .f32) (y : S4x1x512.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).1 S4x1x512.size (by sl_kernel_rfl) y

def out0_C_5 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : cond0_1 i)
    (x0 x1 : Vec F S4x512x256 .f32) (x2 : Vec F S256x256 .f32) (x3 x4 : Vec F S1x1x256 .f32) (xs0 xs1 : Vec F S4x1x1 .f32) (xs2 : Vec F S4x1x256 .f32) : Vec F S4x1x512 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).1)

theorem cover0_C_6 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : cond0_1 i)
    (x0 x1 : Vec F S4x512x256 .f32) (x2 : Vec F S256x256 .f32) (x3 x4 : Vec F S1x1x256 .f32) (xs0 xs1 : Vec F S4x1x1 .f32) (xs2 : Vec F S4x1x256 .f32) (y : S4x1x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.1 S4x1x1.size (by sl_kernel_rfl) y

def out0_C_6 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : cond0_1 i)
    (x0 x1 : Vec F S4x512x256 .f32) (x2 : Vec F S256x256 .f32) (x3 x4 : Vec F S1x1x256 .f32) (xs0 xs1 : Vec F S4x1x1 .f32) (xs2 : Vec F S4x1x256 .f32) : Vec F S4x1x1 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.1)

theorem cover0_C_7 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : cond0_1 i)
    (x0 x1 : Vec F S4x512x256 .f32) (x2 : Vec F S256x256 .f32) (x3 x4 : Vec F S1x1x256 .f32) (xs0 xs1 : Vec F S4x1x1 .f32) (xs2 : Vec F S4x1x256 .f32) (y : S4x1x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.2.1 S4x1x1.size (by sl_kernel_rfl) y

def out0_C_7 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : cond0_1 i)
    (x0 x1 : Vec F S4x512x256 .f32) (x2 : Vec F S256x256 .f32) (x3 x4 : Vec F S1x1x256 .f32) (xs0 xs1 : Vec F S4x1x1 .f32) (xs2 : Vec F S4x1x256 .f32) : Vec F S4x1x1 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.2.1)

theorem cover0_C_8 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : cond0_1 i)
    (x0 x1 : Vec F S4x512x256 .f32) (x2 : Vec F S256x256 .f32) (x3 x4 : Vec F S1x1x256 .f32) (xs0 xs1 : Vec F S4x1x1 .f32) (xs2 : Vec F S4x1x256 .f32) (y : S4x1x256.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.2.2.1 S4x1x256.size (by sl_kernel_rfl) y

def out0_C_8 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : cond0_1 i)
    (x0 x1 : Vec F S4x512x256 .f32) (x2 : Vec F S256x256 .f32) (x3 x4 : Vec F S1x1x256 .f32) (xs0 xs1 : Vec F S4x1x1 .f32) (xs2 : Vec F S4x1x256 .f32) : Vec F S4x1x256 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.2.2.1)

theorem scover0_C_0 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : cond0_1 i)
    (x0 x1 : Vec F S4x512x256 .f32) (x2 : Vec F S256x256 .f32) (x3 x4 : Vec F S1x1x256 .f32) (xs0 xs1 : Vec F S4x1x1 .f32) (xs2 : Vec F S4x1x256 .f32) (y : S4x1x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.2.2.2.1 S4x1x1.size (by sl_kernel_rfl) y

def sout0_C_0 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : cond0_1 i)
    (x0 x1 : Vec F S4x512x256 .f32) (x2 : Vec F S256x256 .f32) (x3 x4 : Vec F S1x1x256 .f32) (xs0 xs1 : Vec F S4x1x1 .f32) (xs2 : Vec F S4x1x256 .f32) : Vec F S4x1x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.2.2.2.1)

theorem scover0_C_1 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : cond0_1 i)
    (x0 x1 : Vec F S4x512x256 .f32) (x2 : Vec F S256x256 .f32) (x3 x4 : Vec F S1x1x256 .f32) (xs0 xs1 : Vec F S4x1x1 .f32) (xs2 : Vec F S4x1x256 .f32) (y : S4x1x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.2.2.2.2.1 S4x1x1.size (by sl_kernel_rfl) y

def sout0_C_1 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : cond0_1 i)
    (x0 x1 : Vec F S4x512x256 .f32) (x2 : Vec F S256x256 .f32) (x3 x4 : Vec F S1x1x256 .f32) (xs0 xs1 : Vec F S4x1x1 .f32) (xs2 : Vec F S4x1x256 .f32) : Vec F S4x1x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.2.2.2.2.1)

theorem scover0_C_2 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : cond0_1 i)
    (x0 x1 : Vec F S4x512x256 .f32) (x2 : Vec F S256x256 .f32) (x3 x4 : Vec F S1x1x256 .f32) (xs0 xs1 : Vec F S4x1x1 .f32) (xs2 : Vec F S4x1x256 .f32) (y : S4x1x256.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.2.2.2.2.2.1 S4x1x256.size (by sl_kernel_rfl) y

def sout0_C_2 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : cond0_1 i)
    (x0 x1 : Vec F S4x512x256 .f32) (x2 : Vec F S256x256 .f32) (x3 x4 : Vec F S1x1x256 .f32) (xs0 xs1 : Vec F S4x1x1 .f32) (xs2 : Vec F S4x1x256 .f32) : Vec F S4x1x256 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.2.2.2.2.2.1)

/-- A result window the case does not store into: a placeholder nothing consults. -/
def idle6 : Vec F S4x1x1 .f32 := VO0_6.read (Elt F) VO0_6.junk
def idle7 : Vec F S4x1x1 .f32 := VO0_7.read (Elt F) VO0_7.junk
def idle8 : Vec F S4x1x256 .f32 := VO0_8.read (Elt F) VO0_8.junk

/-- The four result buffers and the three scratch buffers after a point. -/
abbrev Outs0 (F : FTy → Type) [FloatOps F] : Type :=
  Vec F S4x1x512 .f32 × Vec F S4x1x1 .f32 × Vec F S4x1x1 .f32 × Vec F S4x1x256 .f32 × Vec F S4x1x1 .f32 × Vec F S4x1x1 .f32 × Vec F S4x1x256 .f32

/-- A first tile: the scratch starts afresh. -/
def caseA (c : Dev nD) (t : Fin cfg0.N) (h0 : t.val % 4 = 0) : Outs0 F :=
  (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => by have := (hcond0_1 t).mp h; omega) (iblk0 V c 0 t) (iblk0 V c 1 t) (iblk0 V c 2 t) (iblk0 V c 3 t) (iblk0 V c 4 t),
   idle6, idle7, idle8,
   sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => by have := (hcond0_1 t).mp h; omega) (iblk0 V c 0 t) (iblk0 V c 1 t) (iblk0 V c 2 t) (iblk0 V c 3 t) (iblk0 V c 4 t),
   sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => by have := (hcond0_1 t).mp h; omega) (iblk0 V c 0 t) (iblk0 V c 1 t) (iblk0 V c 2 t) (iblk0 V c 3 t) (iblk0 V c 4 t),
   sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => by have := (hcond0_1 t).mp h; omega) (iblk0 V c 0 t) (iblk0 V c 1 t) (iblk0 V c 2 t) (iblk0 V c 3 t) (iblk0 V c 4 t))

/-- A middle tile, from the scratch contents `s` the tile before left. -/
def caseB (c : Dev nD) (t : Fin cfg0.N) (h0 : ¬t.val % 4 = 0) (h1 : ¬t.val % 4 = 3)
    (s : Vec F S4x1x1 .f32 × Vec F S4x1x1 .f32 × Vec F S4x1x256 .f32) : Outs0 F :=
  (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) s.1 s.2.1 s.2.2,
   idle6, idle7, idle8,
   sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) s.1 s.2.1 s.2.2,
   sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) s.1 s.2.1 s.2.2,
   sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) s.1 s.2.1 s.2.2)

/-- A last tile, from the scratch contents `s` the tile before left. -/
def caseC (c : Dev nD) (t : Fin cfg0.N) (h0 : ¬t.val % 4 = 0) (h1 : t.val % 4 = 3)
    (s : Vec F S4x1x1 .f32 × Vec F S4x1x1 .f32 × Vec F S4x1x256 .f32) : Outs0 F :=
  (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) s.1 s.2.1 s.2.2,
   out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) s.1 s.2.1 s.2.2,
   out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) s.1 s.2.1 s.2.2,
   out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) s.1 s.2.1 s.2.2,
   sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) s.1 s.2.1 s.2.2,
   sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) s.1 s.2.1 s.2.2,
   sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) s.1 s.2.1 s.2.2)

/-- The scratch components of what a point leaves. -/
abbrev scr (o : Outs0 F) : Vec F S4x1x1 .f32 × Vec F S4x1x1 .f32 × Vec F S4x1x256 .f32 := o.2.2.2.2

/-- What the buffers hold after the body at position `n`: by recursion on the point. -/
def outsAt0 (c : Dev nD) : (n : ℕ) → n < cfg0.N → Outs0 F
  | 0, hn => caseA V c ⟨0, hn⟩ (Nat.zero_mod _)
  | n + 1, hn =>
    if h0 : (n + 1) % 4 = 0 then caseA V c ⟨n + 1, hn⟩ h0
    else if h1 : (n + 1) % 4 = 3 then caseC V c ⟨n + 1, hn⟩ h0 h1 (scr (outsAt0 c n (Nat.lt_of_succ_lt hn)))
    else caseB V c ⟨n + 1, hn⟩ h0 h1 (scr (outsAt0 c n (Nat.lt_of_succ_lt hn)))

theorem outsAt0_A (c : Dev nD) (t : Fin cfg0.N) (h0 : t.val % 4 = 0) :
    outsAt0 V c t.val t.isLt = caseA V c t h0 := by
  obtain ⟨n, hn⟩ := t
  cases n with
  | zero => rfl
  | succ n => exact dif_pos h0

theorem outsAt0_B (c : Dev nD) (t : Fin cfg0.N) (h0 : ¬t.val % 4 = 0) (h1 : ¬t.val % 4 = 3) :
    outsAt0 V c t.val t.isLt = caseB V c t h0 h1 (scr (outsAt0 V c (t.val - 1) (Nat.lt_of_le_of_lt (Nat.sub_le _ _) t.isLt))) := by
  obtain ⟨n, hn⟩ := t
  cases n with
  | zero => exact absurd (Nat.zero_mod _) h0
  | succ n => exact (dif_neg h0).trans (dif_neg h1)

theorem outsAt0_C (c : Dev nD) (t : Fin cfg0.N) (h0 : ¬t.val % 4 = 0) (h1 : t.val % 4 = 3) :
    outsAt0 V c t.val t.isLt = caseC V c t h0 h1 (scr (outsAt0 V c (t.val - 1) (Nat.lt_of_le_of_lt (Nat.sub_le _ _) t.isLt))) := by
  obtain ⟨n, hn⟩ := t
  cases n with
  | zero => exact absurd (Nat.zero_mod _) h0
  | succ n => exact (dif_neg h0).trans (dif_pos h1)

end Cert.Kernel.Hand

end
-- ==== Proof.KB.R0Dat.lean ====
/-
  Region 0 on one core: the region invariant (before the first point, whatever the scratch holds; afterwards the
  three scratch buffers at what the point before left), the proof data of the pipeline, and the body obligation —
  at every point the case its tile index selects.
-/
import proofs.«116815_j65094524338925_2_alg».proof.Proof.KB.R0Outs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The core's scoped buffers that region 0 never touches (the other region's staging buffers), each at some contents. -/
def rest8 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant with the three scratch buffers spelled as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ rest8 c) ∗ (∃ r, prngReg c r)) := by
  unfold Pipeline.ΦA rest8; rw [scopedRest0_eq]; simp only [scM0_0, scM0_1, scM0_2, owns_whole]; try rfl

/-- The region invariant before position `n`. -/
def PhiS (c : Dev nD) : (n : ℕ) → n ≤ cfg0.N → sProp 𝕄
  | 0, _ => Pipeline.ΦA spec0 c
  | n + 1, hn => iprop(iprop(owns (c : Thread nD τ) scM0_0 fullShare (scr (outsAt0 V c n hn)).1 ∗ owns (c : Thread nD τ) scM0_1 fullShare (scr (outsAt0 V c n hn)).2.1 ∗ owns (c : Thread nD τ) scM0_2 fullShare (scr (outsAt0 V c n hn)).2.2 ∗ rest8 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare (scr (outsAt0 V c n hn)).1 ∗ owns (c : Thread nD τ) scM0_1 fullShare (scr (outsAt0 V c n hn)).2.1 ∗ owns (c : Thread nD τ) scM0_2 fullShare (scr (outsAt0 V c n hn)).2.2 ∗ rest8 c) ∗ (∃ r, prngReg c r)) := rfl

theorem PhiS_pos (c : Dev nD) (n : ℕ) (h : n ≤ cfg0.N) (hz : n ≠ 0) :
    PhiS V c n h = iprop(iprop(owns (c : Thread nD τ) scM0_0 fullShare (scr (outsAt0 V c (n - 1) (by omega))).1 ∗ owns (c : Thread nD τ) scM0_1 fullShare (scr (outsAt0 V c (n - 1) (by omega))).2.1 ∗ owns (c : Thread nD τ) scM0_2 fullShare (scr (outsAt0 V c (n - 1) (by omega))).2.2 ∗ rest8 c) ∗ (∃ r, prngReg c r)) := by
  cases n with
  | zero => exact absurd rfl hz
  | succ n => rfl

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
    | ⟨7, _⟩ => (outsAt0 V c t.val t.isLt).2.2.1
    | ⟨8, _⟩ => (outsAt0 V c t.val t.isLt).2.2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2.1 := by dsimp only [dat0]
theorem after0_7 (c : Dev nD) (t : Fin cfg0.N) : (dat0 V c).after 7 t = (outsAt0 V c t.val t.isLt).2.2.1 := by dsimp only [dat0]
theorem after0_8 (c : Dev nD) (t : Fin cfg0.N) : (dat0 V c).after 8 t = (outsAt0 V c t.val t.isLt).2.2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t
    ∗ (dat0 V c).leavesExact 4 t ∗ (dat0 V c).leavesExact 5 t ∗ (dat0 V c).leavesExact 6 t ∗ (dat0 V c).leavesExact 7 t
    ∗ (dat0 V c).leavesExact 8 t)

theorem leaves0_in (c : Dev nD) (t : Fin cfg0.N) :
    (dat0 V c).leavesExact 0 t = owns (c : Thread nD τ) (ms0_0 t) fullShare (iblk0 V c 0 t)
    ∧ (dat0 V c).leavesExact 1 t = owns (c : Thread nD τ) (ms0_1 t) fullShare (iblk0 V c 1 t)
    ∧ (dat0 V c).leavesExact 2 t = owns (c : Thread nD τ) (ms0_2 t) fullShare (iblk0 V c 2 t)
    ∧ (dat0 V c).leavesExact 3 t = owns (c : Thread nD τ) (ms0_3 t) fullShare (iblk0 V c 3 t)
    ∧ (dat0 V c).leavesExact 4 t = owns (c : Thread nD τ) (ms0_4 t) fullShare (iblk0 V c 4 t)
    ∧ (dat0 V c).leavesExact 5 t = owns (c : Thread nD τ) (ms0_5 t) fullShare (outsAt0 V c t.val t.isLt).1 := by
  refine ⟨?_, ?_, ?_, ?_, ?_, ?_⟩
  · unfold Dat.leavesExact; rw [liveAt0_0 t, after0_0]
  · unfold Dat.leavesExact; rw [liveAt0_1 t, after0_1]
  · unfold Dat.leavesExact; rw [liveAt0_2 t, after0_2]
  · unfold Dat.leavesExact; rw [liveAt0_3 t, after0_3]
  · unfold Dat.leavesExact; rw [liveAt0_4 t, after0_4]
  · unfold Dat.leavesExact; rw [liveAt0_5 t, after0_5]

end Cert.Kernel.Hand

end
-- ==== Proof.KB.R0Body.lean ====
/-
  Region 0 on one core: the body obligation.  At every point the inputs' buffers hold their blocks; the tile index
  selects the case; the region invariant hands the body the scratch buffers at what the point before left (at
  anything before the first point, and a first tile overwrites them whatever they hold) and takes them back at this
  point's contents.
-/
import proofs.«116815_j65094524338925_2_alg».proof.Proof.KB.R0Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  obtain ⟨l0, l1, l2, l3, l4, l5⟩ := leaves0_in V c t
  rw [l0, l1, l2, l3, l4, l5]
  by_cases h0 : t.val % 4 = 0
  · have hc0 : cond0_0 (grid0.coords t) := (hcond0_0 t).mpr h0
    have hc1 : ¬cond0_1 (grid0.coords t) := fun h => by have := (hcond0_1 t).mp h; omega
    rw [Dat.leavesExact_idle (dat0 V c) 6 t (idleAt0_6 t hc1) (noFlush0_6 t hc1),
      Dat.leavesExact_idle (dat0 V c) 7 t (idleAt0_7 t hc1) (noFlush0_7 t hc1),
      Dat.leavesExact_idle (dat0 V c) 8 t (idleAt0_8 t hc1) (noFlush0_8 t hc1)]
    rw [outsAt0_A V c t h0]
    unfold caseA out0_A_5 sout0_A_0 sout0_A_1 sout0_A_2; dsimp only
    by_cases hz : t.val = 0
    · rw [PhiS_castSucc V c t, PhiS_zero V c _ _ hz, PhiA0_eq]
      iintro ⟨⟨⟨HS0, HS1, HS2, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ _ _ hc0 hc1 (iblk0 V c 0 t) (iblk0 V c 1 t) (iblk0 V c 2 t) (iblk0 V c 3 t) (iblk0 V c 4 t)).2.2.2.2 _ _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [H8]; · iexact H8
      isplitl [HS0]; · iexact HS0
      isplitl [HS1]; · iexact HS1
      isplitl [HS2]; · iexact HS2
      iintro ⟨H0, H1, H2, H3, H4, ⟨%e5, H5⟩, H6, H7, H8, ⟨%es0, HS0⟩, ⟨%es1, HS1⟩, ⟨%es2, HS2⟩⟩
      isplitl [HS0 HS1 HS2 Hr Hg]
      · isplitl [HS0 HS1 HS2 Hr]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _ _ _ _ _ _ _)
      isplitl [H6]; · iexists _; iexact H6
      isplitl [H7]; · iexists _; iexact H7
      iexists _; iexact H8
    · rw [PhiS_castSucc V c t, PhiS_pos V c _ _ hz]
      iintro ⟨⟨⟨HS0, HS1, HS2, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ _ _ hc0 hc1 (iblk0 V c 0 t) (iblk0 V c 1 t) (iblk0 V c 2 t) (iblk0 V c 3 t) (iblk0 V c 4 t)).2.2.2.2 _ _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [H8]; · iexact H8
      isplitl [HS0]; · iexists _; iexact HS0
      isplitl [HS1]; · iexists _; iexact HS1
      isplitl [HS2]; · iexists _; iexact HS2
      iintro ⟨H0, H1, H2, H3, H4, ⟨%e5, H5⟩, H6, H7, H8, ⟨%es0, HS0⟩, ⟨%es1, HS1⟩, ⟨%es2, HS2⟩⟩
      isplitl [HS0 HS1 HS2 Hr Hg]
      · isplitl [HS0 HS1 HS2 Hr]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _ _ _ _ _ _ _)
      isplitl [H6]; · iexists _; iexact H6
      isplitl [H7]; · iexists _; iexact H7
      iexists _; iexact H8
  · have hz : t.val ≠ 0 := fun e => h0 (by rw [e])
    have hc0 : ¬cond0_0 (grid0.coords t) := fun h => h0 ((hcond0_0 t).mp h)
    by_cases h1 : t.val % 4 = 3
    · have hc1 : cond0_1 (grid0.coords t) := (hcond0_1 t).mpr h1
      rw [show (dat0 V c).leavesExact 6 t = owns (c : Thread nD τ) (ms0_6 t) fullShare ((dat0 V c).after 6 t) from by
            unfold Dat.leavesExact; rw [liveAt0_6 t hc1], after0_6,
          show (dat0 V c).leavesExact 7 t = owns (c : Thread nD τ) (ms0_7 t) fullShare ((dat0 V c).after 7 t) from by
            unfold Dat.leavesExact; rw [liveAt0_7 t hc1], after0_7,
          show (dat0 V c).leavesExact 8 t = owns (c : Thread nD τ) (ms0_8 t) fullShare ((dat0 V c).after 8 t) from by
            unfold Dat.leavesExact; rw [liveAt0_8 t hc1], after0_8]
      rw [outsAt0_C V c t h0 h1]
      unfold caseC out0_C_5 out0_C_6 out0_C_7 out0_C_8 sout0_C_0 sout0_C_1 sout0_C_2; dsimp only
      rw [PhiS_castSucc V c t, PhiS_pos V c _ _ hz]
      iintro ⟨⟨⟨HS0, HS1, HS2, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) _ _ _ _ _ _ _ _ _ _ _ _ _ _ _ _ _ _ _ _ _ _ _ _ hc0 hc1 (iblk0 V c 0 t) (iblk0 V c 1 t) (iblk0 V c 2 t) (iblk0 V c 3 t) (iblk0 V c 4 t) _ _ _).2.2.2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [HS0]; · iexact HS0
      isplitl [HS1]; · iexact HS1
      isplitl [HS2]; · iexact HS2
      iintro ⟨H0, H1, H2, H3, H4, ⟨%e5, H5⟩, ⟨%e6, H6⟩, ⟨%e7, H7⟩, ⟨%e8, H8⟩, ⟨%es0, HS0⟩, ⟨%es1, HS1⟩, ⟨%es2, HS2⟩⟩
      isplitl [HS0 HS1 HS2 Hr Hg]
      · isplitl [HS0 HS1 HS2 Hr]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_C_2 c _ _ _ _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover0_C_8 c _ _ _ _ _ _ _ _ _ _ _ _ _ _ _ _ _ _ _ _ _ _ _ _ _ _ _ _ _ _ _ _ _ _ _)
    · have hc1 : ¬cond0_1 (grid0.coords t) := fun h => h1 ((hcond0_1 t).mp h)
      rw [Dat.leavesExact_idle (dat0 V c) 6 t (idleAt0_6 t hc1) (noFlush0_6 t hc1),
        Dat.leavesExact_idle (dat0 V c) 7 t (idleAt0_7 t hc1) (noFlush0_7 t hc1),
        Dat.leavesExact_idle (dat0 V c) 8 t (idleAt0_8 t hc1) (noFlush0_8 t hc1)]
      rw [outsAt0_B V c t h0 h1]
      unfold caseB out0_B_5 sout0_B_0 sout0_B_1 sout0_B_2; dsimp only
      rw [PhiS_castSucc V c t, PhiS_pos V c _ _ hz]
      iintro ⟨⟨⟨HS0, HS1, HS2, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ _ _ hc0 hc1 (iblk0 V c 0 t) (iblk0 V c 1 t) (iblk0 V c 2 t) (iblk0 V c 3 t) (iblk0 V c 4 t) _ _ _).2.2.2.2 _ _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [H8]; · iexact H8
      isplitl [HS0]; · iexact HS0
      isplitl [HS1]; · iexact HS1
      isplitl [HS2]; · iexact HS2
      iintro ⟨H0, H1, H2, H3, H4, ⟨%e5, H5⟩, H6, H7, H8, ⟨%es0, HS0⟩, ⟨%es1, HS1⟩, ⟨%es2, HS2⟩⟩
      isplitl [HS0 HS1 HS2 Hr Hg]
      · isplitl [HS0 HS1 HS2 Hr]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _ _ _ _ _ _ _)
      isplitl [H6]; · iexists _; iexact H6
      isplitl [H7]; · iexists _; iexact H7
      iexists _; iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class invariant back: the scratch contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA0_eq]
  iintro ⟨⟨HS0, HS1, HS2, Hr⟩, Hg⟩
  isplitl [HS0 HS1 HS2 Hr]
  · isplitl [HS0]; · iexists _; iexact HS0
    isplitl [HS1]; · iexists _; iexact HS1
    isplitl [HS2]; · iexists _; iexact HS2
    iexact Hr
  iexact Hg

end Cert.Kernel.Hand

end
-- ==== Proof.KB.R1.lean ====
/-
  Region 1 (the normalising kernel) on one core, at the buffer contents `V` the region is entered with: each of its
  four points reads a block of 16 sequences of raw scores, their maxima and reciprocal denominators, and stores the
  block of weights.  What the output's staging buffer holds after the body is one store of the whole block; the body's
  triple; the proof data of the pipeline; the body obligation.
-/
import proofs.«116815_j65094524338925_2_alg».proof.Proof.Gen.Kernel.Launch
import proofs.«116815_j65094524338925_2_alg».proof.Proof.Gen.Kernel.Skeleton
import proofs.«116815_j65094524338925_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data over `V`'s arrays
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole block of scores / weights, and the whole column of per-sequence numbers. -/
abbrev rW : Rect S16x1x2048 := Rect.unit (s := S16x1x2048) ![0, 0, 0] S16x1x2048.size inb_S16x1x2048_S16x1x2048_0_0_0
abbrev rC : Rect S16x1x1 := Rect.unit (s := S16x1x1) ![0, 0, 0] S16x1x1.size inb_S16x1x1_S16x1x1_0_0_0

/-- The output block after the body: one store of the weights computed from the three input blocks. -/
def out1_3 (x0 : Vec F S16x1x2048 .f32) (x1 x2 : Vec F S16x1x1 .f32) : Vec F S16x1x2048 .f32 :=
  View.canon [⟨rW, k1_pay1 (View.ld x0 rW) (View.ld x1 rC) (View.ld x2 rC)⟩]

theorem cover1_3 (p0 : Vec F S16x1x2048 .f32) (y : S16x1x2048.Idx) :
    ∃ pc ∈ ([⟨rW, p0⟩] : List (View.Piece (Elt F) S16x1x2048 .f32)), y ∈ pc.1.set :=
  View.cover_of_tiled [⟨rW, p0⟩] S16x1x2048.size (by rfl) y

set_option maxHeartbeats 1000000 in
/-- The body on whole staging memrefs: the inputs are handed back as they were, the output holds `out1_3`. -/
theorem sound_kernel1 (c : Dev nD) (E : Set ℕ) (i : grid1.Coords)
    (arg1 : Memref sig .tc .vmem S16x1x2048 .f32) (harg1 : arg1.IsWhole) (arg2 : Memref sig .tc .vmem S16x1x1 .f32) (harg2 : arg2.IsWhole)
    (arg3 : Memref sig .tc .vmem S16x1x1 .f32) (harg3 : arg3.IsWhole) (arg4 : Memref sig .tc .vmem S16x1x2048 .f32) (harg4 : arg4.IsWhole)
    (x0 : Vec F S16x1x2048 .f32) (x1 x2 : Vec F S16x1x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__weight_kernel i arg1 harg1 arg2 harg2 arg3 harg3 arg4 harg4) K := by
  simp only [cc1__weight_kernel_eq_skeleton]; unfold cc1__weight_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core `c`: the arrays as the region finds them; after the body each input's
    buffer at its block and the output's at `out1_3` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Run.lean ====
/-
  The whole program on the cores: the host operations that prepare the transposed weight matrix and the two halves
  of the combining row, then the streaming region, then the normalising region.  The buffer contents at each
  boundary are a fold from the launch memory; each region is entered from every unscoped buffer at the boundary's
  contents and left at the next boundary's; the run ends with every unscoped buffer at the last boundary's contents.
-/
import proofs.«116815_j65094524338925_2_alg».proof.Proof.KB.R0Body
import proofs.«116815_j65094524338925_2_alg».proof.Proof.KB.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host operations (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- At region 1's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! The arguments end as launched -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! What the host operations leave of the arguments, and where the results are read -/
theorem W1_main_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W1_main_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W1_main_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W1_main_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W3_main_v6 (c : Dev nD) : W3 m ρ c (Proc.devRef .tc main_v6) = (dat1 (V2 m ρ) c).arrAt 3 cfg1.N := W3_arr m ρ c 3
theorem W3_main_v5_3 (c : Dev nD) : W3 m ρ c (Proc.devRef .tc main_v5_3) = (dat0 (V1 m ρ) c).arrAt 8 cfg0.N :=
  (W3_of_ne m ρ c main_v5_3 (by decide)).trans (W2_arr m ρ c 8)
theorem V2_main_v5_0 (c : Dev nD) : V2 m ρ c main_v5_0 = (dat0 (V1 m ρ) c).arrAt 5 cfg0.N := W2_arr m ρ c 5
theorem V2_main_v5_1 (c : Dev nD) : V2 m ρ c main_v5_1 = (dat0 (V1 m ρ) c).arrAt 6 cfg0.N := W2_arr m ρ c 6
theorem V2_main_v5_2 (c : Dev nD) : V2 m ρ c main_v5_2 = (dat0 (V1 m ρ) c).arrAt 7 cfg0.N := W2_arr m ρ c 7

/-! The proof data family and the thread state -/
abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final memory holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun s h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run m ρ)

end Cert.Kernel.Hand

end
-- ==== Proof.KI.R0Base.lean ====
/-
  Region 0 (the streaming kernel) on one core: what its runs share.  A point of its 16 x 4 grid is a block of 4
  sequences and a tile of 512 rows.  The body starts the three running numbers afresh at a sequence block's first
  tile, updates them at every tile, and writes them out at the last tile; the two conditions are decided over the
  grid in closed form.  The three result windows that are written only at the last tile are idle elsewhere.
-/
import proofs.«116815_j65094524338925_2_alg».proof.Proof.Gen.KernelIdeal.Launch
import proofs.«116815_j65094524338925_2_alg».proof.Proof.Gen.KernelIdeal.Skeleton
import proofs.«116815_j65094524338925_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body is at the first tile of its block of sequences. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- The body is at the last tile. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem idleAt0_6 : ∀ t : Fin cfg0.N, ¬cond0_1 (grid0.coords t) → cfg0.idle 6 (grid0.coords t) = true := by decide +kernel
theorem idleAt0_7 : ∀ t : Fin cfg0.N, ¬cond0_1 (grid0.coords t) → cfg0.idle 7 (grid0.coords t) = true := by decide +kernel
theorem idleAt0_8 : ∀ t : Fin cfg0.N, ¬cond0_1 (grid0.coords t) → cfg0.idle 8 (grid0.coords t) = true := by decide +kernel
theorem noFlush0_6 : ∀ t : Fin cfg0.N, ¬cond0_1 (grid0.coords t) → (cfg0.win 6).flush t = false := by decide +kernel
theorem noFlush0_7 : ∀ t : Fin cfg0.N, ¬cond0_1 (grid0.coords t) → (cfg0.win 7).flush t = false := by decide +kernel
theorem noFlush0_8 : ∀ t : Fin cfg0.N, ¬cond0_1 (grid0.coords t) → (cfg0.win 8).flush t = false := by decide +kernel
theorem liveAt0_6 : ∀ t : Fin cfg0.N, cond0_1 (grid0.coords t) → cfg0.idle 6 (grid0.coords t) = false := by decide +kernel
theorem liveAt0_7 : ∀ t : Fin cfg0.N, cond0_1 (grid0.coords t) → cfg0.idle 7 (grid0.coords t) = false := by decide +kernel
theorem liveAt0_8 : ∀ t : Fin cfg0.N, cond0_1 (grid0.coords t) → cfg0.idle 8 (grid0.coords t) = false := by decide +kernel

/-! The memrefs the pipeline passes the body at a point -/
abbrev ms0_0 (t : Fin cfg0.N) : Memref sig .tc .vmem S4x512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x1x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x1x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4x1x256 .f32 := win0_8.stage (cfg0.slots t 8)
abbrev hs0_8 (t : Fin cfg0.N) : (ms0_8 t).IsWhole := hstage0_8 ((cfg0.slots t 8).cast nbuf0_8)
/-- The three scratch buffers: the running maximum, the running denominator, the running weighted sum. -/
abbrev scM0_0 : Memref sig .tc .vmem S4x1x1 .f32 := Memref.whole cc0_scratch0
abbrev scM0_1 : Memref sig .tc .vmem S4x1x1 .f32 := Memref.whole cc0_scratch1
abbrev scM0_2 : Memref sig .tc .vmem S4x1x256 .f32 := Memref.whole cc0_scratch2
abbrev VS0_0 : View sig .tc .vmem S4x1x1 .f32 := scM0_0.view
abbrev VS0_1 : View sig .tc .vmem S4x1x1 .f32 := scM0_1.view
abbrev VS0_2 : View sig .tc .vmem S4x1x256 .f32 := scM0_2.view
/-- One staging buffer of each result window, through which its contents are stated. -/
abbrev VO0_5 : View sig .tc .vmem S4x1x512 .f32 := (Memref.whole cc0_stg5_0 : Memref sig .tc .vmem S4x1x512 .f32).view
abbrev VO0_6 : View sig .tc .vmem S4x1x1 .f32 := (Memref.whole cc0_stg6_0 : Memref sig .tc .vmem S4x1x1 .f32).view
abbrev VO0_7 : View sig .tc .vmem S4x1x1 .f32 := (Memref.whole cc0_stg7_0 : Memref sig .tc .vmem S4x1x1 .f32).view
abbrev VO0_8 : View sig .tc .vmem S4x1x256 .f32 := (Memref.whole cc0_stg8_0 : Memref sig .tc .vmem S4x1x256 .f32).view

end Cert.KernelIdeal.Hand

end
-- ==== Proof.KI.R0RunB.lean ====
/-
  The body's run at a middle tile (neither the first nor the last of its block of sequences): it stores the tile's
  scores and updates the three running numbers from what the tile before left in them; the three windows written at
  the last tile are handed back untouched.  The pieces each buffer ends with are found by running the body.
-/
import proofs.«116815_j65094524338925_2_alg».proof.Proof.KI.R0Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : ¬cond0_1 i)
    (x0 x1 : Vec F S4x512x256 .f32) (x2 : Vec F S256x256 .f32) (x3 x4 : Vec F S1x1x256 .f32)
    (xs0 xs1 : Vec F S4x1x1 .f32) (xs2 : Vec F S4x1x256 .f32) :
    Σ' (L5 : List (View.Piece (Elt F) S4x1x512 .f32)) (LS0 : List (View.Piece (Elt F) S4x1x1 .f32)) (LS1 : List (View.Piece (Elt F) S4x1x1 .f32)), { LS2 : List (View.Piece (Elt F) S4x1x256 .f32) //
      ∀ (xi6 xi7 : Vec F S4x1x1 .f32) (xi8 : Vec F S4x1x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare xi6 ∗ owns (c : Thread nD τ) arg9 fullShare xi7 ∗ owns (c : Thread nD τ) arg10 fullShare xi8
            ∗ owns (c : Thread nD τ) arg11 fullShare xs0 ∗ owns (c : Thread nD τ) arg12 fullShare xs1 ∗ owns (c : Thread nD τ) arg13 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5) ∗ owns (c : Thread nD τ) arg8 fullShare xi6 ∗ owns (c : Thread nD τ) arg9 fullShare xi7 ∗ owns (c : Thread nD τ) arg10 fullShare xi8
                ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc0__score_acc_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun xi6 xi7 xi8 E K => ?run⟩
  case run =>
    simp only [cc0__score_acc_kernel_eq_skeleton]; unfold cc0__score_acc_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg8.eq_unread hf6; obtain rfl := harg9.eq_unread hf7; obtain rfl := harg10.eq_unread hf8
    obtain rfl := harg11.eq_unread hfs0; obtain rfl := harg12.eq_unread hfs1; obtain rfl := harg13.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    isplitl [HS1]; · iexists _; iexact HS1
    iexists _; iexact HS2

end Cert.KernelIdeal.Hand

end
-- ==== Proof.KI.R0RunA.lean ====
/-
  The body's run at the first tile of a block of sequences: it starts the three running numbers afresh (whatever
  the scratch held), stores the tile's scores and makes the first update; the three windows written at the last tile
  are handed back untouched.
-/
import proofs.«116815_j65094524338925_2_alg».proof.Proof.KI.R0RunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : cond0_0 i) (hc1 : ¬cond0_1 i)
    (x0 x1 : Vec F S4x512x256 .f32) (x2 : Vec F S256x256 .f32) (x3 x4 : Vec F S1x1x256 .f32) :
    Σ' (L5 : List (View.Piece (Elt F) S4x1x512 .f32)) (LS0 : List (View.Piece (Elt F) S4x1x1 .f32)) (LS1 : List (View.Piece (Elt F) S4x1x1 .f32)), { LS2 : List (View.Piece (Elt F) S4x1x256 .f32) //
      ∀ (xi6 xi7 : Vec F S4x1x1 .f32) (xi8 : Vec F S4x1x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare xi6 ∗ owns (c : Thread nD τ) arg9 fullShare xi7 ∗ owns (c : Thread nD τ) arg10 fullShare xi8
            ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5) ∗ owns (c : Thread nD τ) arg8 fullShare xi6 ∗ owns (c : Thread nD τ) arg9 fullShare xi7 ∗ owns (c : Thread nD τ) arg10 fullShare xi8
                ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc0__score_acc_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun xi6 xi7 xi8 E K => ?run⟩
  case run =>
    simp only [cc0__score_acc_kernel_eq_skeleton]; unfold cc0__score_acc_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    isplitl [HS1]; · iexists _; iexact HS1
    iexists _; iexact HS2

end Cert.KernelIdeal.Hand

end
-- ==== Proof.KI.R0RunC.lean ====
/-
  The body's run at the last tile of a block of sequences: it stores the tile's scores, makes the last update of the
  three running numbers from what the tile before left, and writes out the maximum, the reciprocal of the
  denominator and the normalised weighted sum.
-/
import proofs.«116815_j65094524338925_2_alg».proof.Proof.KI.R0RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : cond0_1 i)
    (x0 x1 : Vec F S4x512x256 .f32) (x2 : Vec F S256x256 .f32) (x3 x4 : Vec F S1x1x256 .f32)
    (xs0 xs1 : Vec F S4x1x1 .f32) (xs2 : Vec F S4x1x256 .f32) :
    Σ' (L5 : List (View.Piece (Elt F) S4x1x512 .f32)) (L6 : List (View.Piece (Elt F) S4x1x1 .f32)) (L7 : List (View.Piece (Elt F) S4x1x1 .f32)) (L8 : List (View.Piece (Elt F) S4x1x256 .f32))
       (LS0 : List (View.Piece (Elt F) S4x1x1 .f32)) (LS1 : List (View.Piece (Elt F) S4x1x1 .f32)), { LS2 : List (View.Piece (Elt F) S4x1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ owns (c : Thread nD τ) arg11 fullShare xs0 ∗ owns (c : Thread nD τ) arg12 fullShare xs1 ∗ owns (c : Thread nD τ) arg13 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8)
                ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc0__score_acc_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, ?_, fun E K => ?run⟩
  case run =>
    simp only [cc0__score_acc_kernel_eq_skeleton]; unfold cc0__score_acc_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg11.eq_unread hfs0; obtain rfl := harg12.eq_unread hfs1; obtain rfl := harg13.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [H8]; · iexists _; iexact H8
    isplitl [HS0]; · iexists _; iexact HS0
    isplitl [HS1]; · iexists _; iexact HS1
    iexists _; iexact HS2

end Cert.KernelIdeal.Hand

end
-- ==== Proof.KI.R0Outs.lean ====
/-
  Region 0 on one core, at the buffer contents `V` the region is entered with: what each result window's staging
  buffer and each of the three scratch buffers holds after the body, case by case (the pieces the runs found, read
  back) and point by point (a recursion on the point: a first tile starts afresh, a later tile continues from what
  the tile before left in the scratch buffers).
-/
import proofs.«116815_j65094524338925_2_alg».proof.Proof.KI.R0RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! What each case leaves in each buffer -/

theorem cover0_A_5 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : cond0_0 i) (hc1 : ¬cond0_1 i)
    (x0 x1 : Vec F S4x512x256 .f32) (x2 : Vec F S256x256 .f32) (x3 x4 : Vec F S1x1x256 .f32) (y : S4x1x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).1 S4x1x512.size (by sl_kernel_rfl) y

def out0_A_5 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : cond0_0 i) (hc1 : ¬cond0_1 i)
    (x0 x1 : Vec F S4x512x256 .f32) (x2 : Vec F S256x256 .f32) (x3 x4 : Vec F S1x1x256 .f32) : Vec F S4x1x512 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).1)

theorem scover0_A_0 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : cond0_0 i) (hc1 : ¬cond0_1 i)
    (x0 x1 : Vec F S4x512x256 .f32) (x2 : Vec F S256x256 .f32) (x3 x4 : Vec F S1x1x256 .f32) (y : S4x1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.1 S4x1x1.size (by sl_kernel_rfl) y

def sout0_A_0 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : cond0_0 i) (hc1 : ¬cond0_1 i)
    (x0 x1 : Vec F S4x512x256 .f32) (x2 : Vec F S256x256 .f32) (x3 x4 : Vec F S1x1x256 .f32) : Vec F S4x1x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.1)

theorem scover0_A_1 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : cond0_0 i) (hc1 : ¬cond0_1 i)
    (x0 x1 : Vec F S4x512x256 .f32) (x2 : Vec F S256x256 .f32) (x3 x4 : Vec F S1x1x256 .f32) (y : S4x1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.1 S4x1x1.size (by sl_kernel_rfl) y

def sout0_A_1 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : cond0_0 i) (hc1 : ¬cond0_1 i)
    (x0 x1 : Vec F S4x512x256 .f32) (x2 : Vec F S256x256 .f32) (x3 x4 : Vec F S1x1x256 .f32) : Vec F S4x1x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.1)

theorem scover0_A_2 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : cond0_0 i) (hc1 : ¬cond0_1 i)
    (x0 x1 : Vec F S4x512x256 .f32) (x2 : Vec F S256x256 .f32) (x3 x4 : Vec F S1x1x256 .f32) (y : S4x1x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.1 S4x1x256.size (by sl_kernel_rfl) y

def sout0_A_2 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : cond0_0 i) (hc1 : ¬cond0_1 i)
    (x0 x1 : Vec F S4x512x256 .f32) (x2 : Vec F S256x256 .f32) (x3 x4 : Vec F S1x1x256 .f32) : Vec F S4x1x256 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.1)

theorem cover0_B_5 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : ¬cond0_1 i)
    (x0 x1 : Vec F S4x512x256 .f32) (x2 : Vec F S256x256 .f32) (x3 x4 : Vec F S1x1x256 .f32) (xs0 xs1 : Vec F S4x1x1 .f32) (xs2 : Vec F S4x1x256 .f32) (y : S4x1x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).1 S4x1x512.size (by sl_kernel_rfl) y

def out0_B_5 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : ¬cond0_1 i)
    (x0 x1 : Vec F S4x512x256 .f32) (x2 : Vec F S256x256 .f32) (x3 x4 : Vec F S1x1x256 .f32) (xs0 xs1 : Vec F S4x1x1 .f32) (xs2 : Vec F S4x1x256 .f32) : Vec F S4x1x512 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).1)

theorem scover0_B_0 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : ¬cond0_1 i)
    (x0 x1 : Vec F S4x512x256 .f32) (x2 : Vec F S256x256 .f32) (x3 x4 : Vec F S1x1x256 .f32) (xs0 xs1 : Vec F S4x1x1 .f32) (xs2 : Vec F S4x1x256 .f32) (y : S4x1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.1 S4x1x1.size (by sl_kernel_rfl) y

def sout0_B_0 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : ¬cond0_1 i)
    (x0 x1 : Vec F S4x512x256 .f32) (x2 : Vec F S256x256 .f32) (x3 x4 : Vec F S1x1x256 .f32) (xs0 xs1 : Vec F S4x1x1 .f32) (xs2 : Vec F S4x1x256 .f32) : Vec F S4x1x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.1)

theorem scover0_B_1 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : ¬cond0_1 i)
    (x0 x1 : Vec F S4x512x256 .f32) (x2 : Vec F S256x256 .f32) (x3 x4 : Vec F S1x1x256 .f32) (xs0 xs1 : Vec F S4x1x1 .f32) (xs2 : Vec F S4x1x256 .f32) (y : S4x1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.2.1 S4x1x1.size (by sl_kernel_rfl) y

def sout0_B_1 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : ¬cond0_1 i)
    (x0 x1 : Vec F S4x512x256 .f32) (x2 : Vec F S256x256 .f32) (x3 x4 : Vec F S1x1x256 .f32) (xs0 xs1 : Vec F S4x1x1 .f32) (xs2 : Vec F S4x1x256 .f32) : Vec F S4x1x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.2.1)

theorem scover0_B_2 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : ¬cond0_1 i)
    (x0 x1 : Vec F S4x512x256 .f32) (x2 : Vec F S256x256 .f32) (x3 x4 : Vec F S1x1x256 .f32) (xs0 xs1 : Vec F S4x1x1 .f32) (xs2 : Vec F S4x1x256 .f32) (y : S4x1x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.2.2.1 S4x1x256.size (by sl_kernel_rfl) y

def sout0_B_2 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : ¬cond0_1 i)
    (x0 x1 : Vec F S4x512x256 .f32) (x2 : Vec F S256x256 .f32) (x3 x4 : Vec F S1x1x256 .f32) (xs0 xs1 : Vec F S4x1x1 .f32) (xs2 : Vec F S4x1x256 .f32) : Vec F S4x1x256 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.2.2.1)

theorem cover0_C_5 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : cond0_1 i)
    (x0 x1 : Vec F S4x512x256 .f32) (x2 : Vec F S256x256 .f32) (x3 x4 : Vec F S1x1x256 .f32) (xs0 xs1 : Vec F S4x1x1 .f32) (xs2 : Vec F S4x1x256 .f32) (y : S4x1x512.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).1 S4x1x512.size (by sl_kernel_rfl) y

def out0_C_5 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : cond0_1 i)
    (x0 x1 : Vec F S4x512x256 .f32) (x2 : Vec F S256x256 .f32) (x3 x4 : Vec F S1x1x256 .f32) (xs0 xs1 : Vec F S4x1x1 .f32) (xs2 : Vec F S4x1x256 .f32) : Vec F S4x1x512 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).1)

theorem cover0_C_6 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : cond0_1 i)
    (x0 x1 : Vec F S4x512x256 .f32) (x2 : Vec F S256x256 .f32) (x3 x4 : Vec F S1x1x256 .f32) (xs0 xs1 : Vec F S4x1x1 .f32) (xs2 : Vec F S4x1x256 .f32) (y : S4x1x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.1 S4x1x1.size (by sl_kernel_rfl) y

def out0_C_6 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : cond0_1 i)
    (x0 x1 : Vec F S4x512x256 .f32) (x2 : Vec F S256x256 .f32) (x3 x4 : Vec F S1x1x256 .f32) (xs0 xs1 : Vec F S4x1x1 .f32) (xs2 : Vec F S4x1x256 .f32) : Vec F S4x1x1 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.1)

theorem cover0_C_7 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : cond0_1 i)
    (x0 x1 : Vec F S4x512x256 .f32) (x2 : Vec F S256x256 .f32) (x3 x4 : Vec F S1x1x256 .f32) (xs0 xs1 : Vec F S4x1x1 .f32) (xs2 : Vec F S4x1x256 .f32) (y : S4x1x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.2.1 S4x1x1.size (by sl_kernel_rfl) y

def out0_C_7 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : cond0_1 i)
    (x0 x1 : Vec F S4x512x256 .f32) (x2 : Vec F S256x256 .f32) (x3 x4 : Vec F S1x1x256 .f32) (xs0 xs1 : Vec F S4x1x1 .f32) (xs2 : Vec F S4x1x256 .f32) : Vec F S4x1x1 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.2.1)

theorem cover0_C_8 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : cond0_1 i)
    (x0 x1 : Vec F S4x512x256 .f32) (x2 : Vec F S256x256 .f32) (x3 x4 : Vec F S1x1x256 .f32) (xs0 xs1 : Vec F S4x1x1 .f32) (xs2 : Vec F S4x1x256 .f32) (y : S4x1x256.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.2.2.1 S4x1x256.size (by sl_kernel_rfl) y

def out0_C_8 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : cond0_1 i)
    (x0 x1 : Vec F S4x512x256 .f32) (x2 : Vec F S256x256 .f32) (x3 x4 : Vec F S1x1x256 .f32) (xs0 xs1 : Vec F S4x1x1 .f32) (xs2 : Vec F S4x1x256 .f32) : Vec F S4x1x256 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.2.2.1)

theorem scover0_C_0 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : cond0_1 i)
    (x0 x1 : Vec F S4x512x256 .f32) (x2 : Vec F S256x256 .f32) (x3 x4 : Vec F S1x1x256 .f32) (xs0 xs1 : Vec F S4x1x1 .f32) (xs2 : Vec F S4x1x256 .f32) (y : S4x1x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.2.2.2.1 S4x1x1.size (by sl_kernel_rfl) y

def sout0_C_0 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : cond0_1 i)
    (x0 x1 : Vec F S4x512x256 .f32) (x2 : Vec F S256x256 .f32) (x3 x4 : Vec F S1x1x256 .f32) (xs0 xs1 : Vec F S4x1x1 .f32) (xs2 : Vec F S4x1x256 .f32) : Vec F S4x1x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.2.2.2.1)

theorem scover0_C_1 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : cond0_1 i)
    (x0 x1 : Vec F S4x512x256 .f32) (x2 : Vec F S256x256 .f32) (x3 x4 : Vec F S1x1x256 .f32) (xs0 xs1 : Vec F S4x1x1 .f32) (xs2 : Vec F S4x1x256 .f32) (y : S4x1x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.2.2.2.2.1 S4x1x1.size (by sl_kernel_rfl) y

def sout0_C_1 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : cond0_1 i)
    (x0 x1 : Vec F S4x512x256 .f32) (x2 : Vec F S256x256 .f32) (x3 x4 : Vec F S1x1x256 .f32) (xs0 xs1 : Vec F S4x1x1 .f32) (xs2 : Vec F S4x1x256 .f32) : Vec F S4x1x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.2.2.2.2.1)

theorem scover0_C_2 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : cond0_1 i)
    (x0 x1 : Vec F S4x512x256 .f32) (x2 : Vec F S256x256 .f32) (x3 x4 : Vec F S1x1x256 .f32) (xs0 xs1 : Vec F S4x1x1 .f32) (xs2 : Vec F S4x1x256 .f32) (y : S4x1x256.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.2.2.2.2.2.1 S4x1x256.size (by sl_kernel_rfl) y

def sout0_C_2 (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : cond0_1 i)
    (x0 x1 : Vec F S4x512x256 .f32) (x2 : Vec F S256x256 .f32) (x3 x4 : Vec F S1x1x256 .f32) (xs0 xs1 : Vec F S4x1x1 .f32) (xs2 : Vec F S4x1x256 .f32) : Vec F S4x1x256 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2).2.2.2.2.2.2.1)

/-- A result window the case does not store into: a placeholder nothing consults. -/
def idle6 : Vec F S4x1x1 .f32 := VO0_6.read (Elt F) VO0_6.junk
def idle7 : Vec F S4x1x1 .f32 := VO0_7.read (Elt F) VO0_7.junk
def idle8 : Vec F S4x1x256 .f32 := VO0_8.read (Elt F) VO0_8.junk

/-- The four result buffers and the three scratch buffers after a point. -/
abbrev Outs0 (F : FTy → Type) [FloatOps F] : Type :=
  Vec F S4x1x512 .f32 × Vec F S4x1x1 .f32 × Vec F S4x1x1 .f32 × Vec F S4x1x256 .f32 × Vec F S4x1x1 .f32 × Vec F S4x1x1 .f32 × Vec F S4x1x256 .f32

/-- A first tile: the scratch starts afresh. -/
def caseA (c : Dev nD) (t : Fin cfg0.N) (h0 : t.val % 4 = 0) : Outs0 F :=
  (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => by have := (hcond0_1 t).mp h; omega) (iblk0 V c 0 t) (iblk0 V c 1 t) (iblk0 V c 2 t) (iblk0 V c 3 t) (iblk0 V c 4 t),
   idle6, idle7, idle8,
   sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => by have := (hcond0_1 t).mp h; omega) (iblk0 V c 0 t) (iblk0 V c 1 t) (iblk0 V c 2 t) (iblk0 V c 3 t) (iblk0 V c 4 t),
   sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => by have := (hcond0_1 t).mp h; omega) (iblk0 V c 0 t) (iblk0 V c 1 t) (iblk0 V c 2 t) (iblk0 V c 3 t) (iblk0 V c 4 t),
   sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => by have := (hcond0_1 t).mp h; omega) (iblk0 V c 0 t) (iblk0 V c 1 t) (iblk0 V c 2 t) (iblk0 V c 3 t) (iblk0 V c 4 t))

/-- A middle tile, from the scratch contents `s` the tile before left. -/
def caseB (c : Dev nD) (t : Fin cfg0.N) (h0 : ¬t.val % 4 = 0) (h1 : ¬t.val % 4 = 3)
    (s : Vec F S4x1x1 .f32 × Vec F S4x1x1 .f32 × Vec F S4x1x256 .f32) : Outs0 F :=
  (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) s.1 s.2.1 s.2.2,
   idle6, idle7, idle8,
   sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) s.1 s.2.1 s.2.2,
   sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) s.1 s.2.1 s.2.2,
   sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) s.1 s.2.1 s.2.2)

/-- A last tile, from the scratch contents `s` the tile before left. -/
def caseC (c : Dev nD) (t : Fin cfg0.N) (h0 : ¬t.val % 4 = 0) (h1 : t.val % 4 = 3)
    (s : Vec F S4x1x1 .f32 × Vec F S4x1x1 .f32 × Vec F S4x1x256 .f32) : Outs0 F :=
  (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) s.1 s.2.1 s.2.2,
   out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) s.1 s.2.1 s.2.2,
   out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) s.1 s.2.1 s.2.2,
   out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) s.1 s.2.1 s.2.2,
   sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) s.1 s.2.1 s.2.2,
   sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) s.1 s.2.1 s.2.2,
   sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) s.1 s.2.1 s.2.2)

/-- The scratch components of what a point leaves. -/
abbrev scr (o : Outs0 F) : Vec F S4x1x1 .f32 × Vec F S4x1x1 .f32 × Vec F S4x1x256 .f32 := o.2.2.2.2

/-- What the buffers hold after the body at position `n`: by recursion on the point. -/
def outsAt0 (c : Dev nD) : (n : ℕ) → n < cfg0.N → Outs0 F
  | 0, hn => caseA V c ⟨0, hn⟩ (Nat.zero_mod _)
  | n + 1, hn =>
    if h0 : (n + 1) % 4 = 0 then caseA V c ⟨n + 1, hn⟩ h0
    else if h1 : (n + 1) % 4 = 3 then caseC V c ⟨n + 1, hn⟩ h0 h1 (scr (outsAt0 c n (Nat.lt_of_succ_lt hn)))
    else caseB V c ⟨n + 1, hn⟩ h0 h1 (scr (outsAt0 c n (Nat.lt_of_succ_lt hn)))

theorem outsAt0_A (c : Dev nD) (t : Fin cfg0.N) (h0 : t.val % 4 = 0) :
    outsAt0 V c t.val t.isLt = caseA V c t h0 := by
  obtain ⟨n, hn⟩ := t
  cases n with
  | zero => rfl
  | succ n => exact dif_pos h0

theorem outsAt0_B (c : Dev nD) (t : Fin cfg0.N) (h0 : ¬t.val % 4 = 0) (h1 : ¬t.val % 4 = 3) :
    outsAt0 V c t.val t.isLt = caseB V c t h0 h1 (scr (outsAt0 V c (t.val - 1) (Nat.lt_of_le_of_lt (Nat.sub_le _ _) t.isLt))) := by
  obtain ⟨n, hn⟩ := t
  cases n with
  | zero => exact absurd (Nat.zero_mod _) h0
  | succ n => exact (dif_neg h0).trans (dif_neg h1)

theorem outsAt0_C (c : Dev nD) (t : Fin cfg0.N) (h0 : ¬t.val % 4 = 0) (h1 : t.val % 4 = 3) :
    outsAt0 V c t.val t.isLt = caseC V c t h0 h1 (scr (outsAt0 V c (t.val - 1) (Nat.lt_of_le_of_lt (Nat.sub_le _ _) t.isLt))) := by
  obtain ⟨n, hn⟩ := t
  cases n with
  | zero => exact absurd (Nat.zero_mod _) h0
  | succ n => exact (dif_neg h0).trans (dif_pos h1)

end Cert.KernelIdeal.Hand

end
-- ==== Proof.KI.R0Dat.lean ====
/-
  Region 0 on one core: the region invariant (before the first point, whatever the scratch holds; afterwards the
  three scratch buffers at what the point before left), the proof data of the pipeline, and the body obligation —
  at every point the case its tile index selects.
-/
import proofs.«116815_j65094524338925_2_alg».proof.Proof.KI.R0Outs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The core's scoped buffers that region 0 never touches (the other region's staging buffers), each at some contents. -/
def rest8 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant with the three scratch buffers spelled as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ rest8 c) ∗ (∃ r, prngReg c r)) := by
  unfold Pipeline.ΦA rest8; rw [scopedRest0_eq]; simp only [scM0_0, scM0_1, scM0_2, owns_whole]; try rfl

/-- The region invariant before position `n`. -/
def PhiS (c : Dev nD) : (n : ℕ) → n ≤ cfg0.N → sProp 𝕄
  | 0, _ => Pipeline.ΦA spec0 c
  | n + 1, hn => iprop(iprop(owns (c : Thread nD τ) scM0_0 fullShare (scr (outsAt0 V c n hn)).1 ∗ owns (c : Thread nD τ) scM0_1 fullShare (scr (outsAt0 V c n hn)).2.1 ∗ owns (c : Thread nD τ) scM0_2 fullShare (scr (outsAt0 V c n hn)).2.2 ∗ rest8 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare (scr (outsAt0 V c n hn)).1 ∗ owns (c : Thread nD τ) scM0_1 fullShare (scr (outsAt0 V c n hn)).2.1 ∗ owns (c : Thread nD τ) scM0_2 fullShare (scr (outsAt0 V c n hn)).2.2 ∗ rest8 c) ∗ (∃ r, prngReg c r)) := rfl

theorem PhiS_pos (c : Dev nD) (n : ℕ) (h : n ≤ cfg0.N) (hz : n ≠ 0) :
    PhiS V c n h = iprop(iprop(owns (c : Thread nD τ) scM0_0 fullShare (scr (outsAt0 V c (n - 1) (by omega))).1 ∗ owns (c : Thread nD τ) scM0_1 fullShare (scr (outsAt0 V c (n - 1) (by omega))).2.1 ∗ owns (c : Thread nD τ) scM0_2 fullShare (scr (outsAt0 V c (n - 1) (by omega))).2.2 ∗ rest8 c) ∗ (∃ r, prngReg c r)) := by
  cases n with
  | zero => exact absurd rfl hz
  | succ n => rfl

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
    | ⟨7, _⟩ => (outsAt0 V c t.val t.isLt).2.2.1
    | ⟨8, _⟩ => (outsAt0 V c t.val t.isLt).2.2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2.1 := by dsimp only [dat0]
theorem after0_7 (c : Dev nD) (t : Fin cfg0.N) : (dat0 V c).after 7 t = (outsAt0 V c t.val t.isLt).2.2.1 := by dsimp only [dat0]
theorem after0_8 (c : Dev nD) (t : Fin cfg0.N) : (dat0 V c).after 8 t = (outsAt0 V c t.val t.isLt).2.2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t
    ∗ (dat0 V c).leavesExact 4 t ∗ (dat0 V c).leavesExact 5 t ∗ (dat0 V c).leavesExact 6 t ∗ (dat0 V c).leavesExact 7 t
    ∗ (dat0 V c).leavesExact 8 t)

theorem leaves0_in (c : Dev nD) (t : Fin cfg0.N) :
    (dat0 V c).leavesExact 0 t = owns (c : Thread nD τ) (ms0_0 t) fullShare (iblk0 V c 0 t)
    ∧ (dat0 V c).leavesExact 1 t = owns (c : Thread nD τ) (ms0_1 t) fullShare (iblk0 V c 1 t)
    ∧ (dat0 V c).leavesExact 2 t = owns (c : Thread nD τ) (ms0_2 t) fullShare (iblk0 V c 2 t)
    ∧ (dat0 V c).leavesExact 3 t = owns (c : Thread nD τ) (ms0_3 t) fullShare (iblk0 V c 3 t)
    ∧ (dat0 V c).leavesExact 4 t = owns (c : Thread nD τ) (ms0_4 t) fullShare (iblk0 V c 4 t)
    ∧ (dat0 V c).leavesExact 5 t = owns (c : Thread nD τ) (ms0_5 t) fullShare (outsAt0 V c t.val t.isLt).1 := by
  refine ⟨?_, ?_, ?_, ?_, ?_, ?_⟩
  · unfold Dat.leavesExact; rw [liveAt0_0 t, after0_0]
  · unfold Dat.leavesExact; rw [liveAt0_1 t, after0_1]
  · unfold Dat.leavesExact; rw [liveAt0_2 t, after0_2]
  · unfold Dat.leavesExact; rw [liveAt0_3 t, after0_3]
  · unfold Dat.leavesExact; rw [liveAt0_4 t, after0_4]
  · unfold Dat.leavesExact; rw [liveAt0_5 t, after0_5]

end Cert.KernelIdeal.Hand

end
-- ==== Proof.KI.R0Body.lean ====
/-
  Region 0 on one core: the body obligation.  At every point the inputs' buffers hold their blocks; the tile index
  selects the case; the region invariant hands the body the scratch buffers at what the point before left (at
  anything before the first point, and a first tile overwrites them whatever they hold) and takes them back at this
  point's contents.
-/
import proofs.«116815_j65094524338925_2_alg».proof.Proof.KI.R0Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  obtain ⟨l0, l1, l2, l3, l4, l5⟩ := leaves0_in V c t
  rw [l0, l1, l2, l3, l4, l5]
  by_cases h0 : t.val % 4 = 0
  · have hc0 : cond0_0 (grid0.coords t) := (hcond0_0 t).mpr h0
    have hc1 : ¬cond0_1 (grid0.coords t) := fun h => by have := (hcond0_1 t).mp h; omega
    rw [Dat.leavesExact_idle (dat0 V c) 6 t (idleAt0_6 t hc1) (noFlush0_6 t hc1),
      Dat.leavesExact_idle (dat0 V c) 7 t (idleAt0_7 t hc1) (noFlush0_7 t hc1),
      Dat.leavesExact_idle (dat0 V c) 8 t (idleAt0_8 t hc1) (noFlush0_8 t hc1)]
    rw [outsAt0_A V c t h0]
    unfold caseA out0_A_5 sout0_A_0 sout0_A_1 sout0_A_2; dsimp only
    by_cases hz : t.val = 0
    · rw [PhiS_castSucc V c t, PhiS_zero V c _ _ hz, PhiA0_eq]
      iintro ⟨⟨⟨HS0, HS1, HS2, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ _ _ hc0 hc1 (iblk0 V c 0 t) (iblk0 V c 1 t) (iblk0 V c 2 t) (iblk0 V c 3 t) (iblk0 V c 4 t)).2.2.2.2 _ _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [H8]; · iexact H8
      isplitl [HS0]; · iexact HS0
      isplitl [HS1]; · iexact HS1
      isplitl [HS2]; · iexact HS2
      iintro ⟨H0, H1, H2, H3, H4, ⟨%e5, H5⟩, H6, H7, H8, ⟨%es0, HS0⟩, ⟨%es1, HS1⟩, ⟨%es2, HS2⟩⟩
      isplitl [HS0 HS1 HS2 Hr Hg]
      · isplitl [HS0 HS1 HS2 Hr]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _ _ _ _ _ _ _)
      isplitl [H6]; · iexists _; iexact H6
      isplitl [H7]; · iexists _; iexact H7
      iexists _; iexact H8
    · rw [PhiS_castSucc V c t, PhiS_pos V c _ _ hz]
      iintro ⟨⟨⟨HS0, HS1, HS2, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ _ _ hc0 hc1 (iblk0 V c 0 t) (iblk0 V c 1 t) (iblk0 V c 2 t) (iblk0 V c 3 t) (iblk0 V c 4 t)).2.2.2.2 _ _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [H8]; · iexact H8
      isplitl [HS0]; · iexists _; iexact HS0
      isplitl [HS1]; · iexists _; iexact HS1
      isplitl [HS2]; · iexists _; iexact HS2
      iintro ⟨H0, H1, H2, H3, H4, ⟨%e5, H5⟩, H6, H7, H8, ⟨%es0, HS0⟩, ⟨%es1, HS1⟩, ⟨%es2, HS2⟩⟩
      isplitl [HS0 HS1 HS2 Hr Hg]
      · isplitl [HS0 HS1 HS2 Hr]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _ _ _ _ _ _ _)
      isplitl [H6]; · iexists _; iexact H6
      isplitl [H7]; · iexists _; iexact H7
      iexists _; iexact H8
  · have hz : t.val ≠ 0 := fun e => h0 (by rw [e])
    have hc0 : ¬cond0_0 (grid0.coords t) := fun h => h0 ((hcond0_0 t).mp h)
    by_cases h1 : t.val % 4 = 3
    · have hc1 : cond0_1 (grid0.coords t) := (hcond0_1 t).mpr h1
      rw [show (dat0 V c).leavesExact 6 t = owns (c : Thread nD τ) (ms0_6 t) fullShare ((dat0 V c).after 6 t) from by
            unfold Dat.leavesExact; rw [liveAt0_6 t hc1], after0_6,
          show (dat0 V c).leavesExact 7 t = owns (c : Thread nD τ) (ms0_7 t) fullShare ((dat0 V c).after 7 t) from by
            unfold Dat.leavesExact; rw [liveAt0_7 t hc1], after0_7,
          show (dat0 V c).leavesExact 8 t = owns (c : Thread nD τ) (ms0_8 t) fullShare ((dat0 V c).after 8 t) from by
            unfold Dat.leavesExact; rw [liveAt0_8 t hc1], after0_8]
      rw [outsAt0_C V c t h0 h1]
      unfold caseC out0_C_5 out0_C_6 out0_C_7 out0_C_8 sout0_C_0 sout0_C_1 sout0_C_2; dsimp only
      rw [PhiS_castSucc V c t, PhiS_pos V c _ _ hz]
      iintro ⟨⟨⟨HS0, HS1, HS2, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) _ _ _ _ _ _ _ _ _ _ _ _ _ _ _ _ _ _ _ _ _ _ _ _ hc0 hc1 (iblk0 V c 0 t) (iblk0 V c 1 t) (iblk0 V c 2 t) (iblk0 V c 3 t) (iblk0 V c 4 t) _ _ _).2.2.2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [HS0]; · iexact HS0
      isplitl [HS1]; · iexact HS1
      isplitl [HS2]; · iexact HS2
      iintro ⟨H0, H1, H2, H3, H4, ⟨%e5, H5⟩, ⟨%e6, H6⟩, ⟨%e7, H7⟩, ⟨%e8, H8⟩, ⟨%es0, HS0⟩, ⟨%es1, HS1⟩, ⟨%es2, HS2⟩⟩
      isplitl [HS0 HS1 HS2 Hr Hg]
      · isplitl [HS0 HS1 HS2 Hr]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_C_2 c _ _ _ _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover0_C_8 c _ _ _ _ _ _ _ _ _ _ _ _ _ _ _ _ _ _ _ _ _ _ _ _ _ _ _ _ _ _ _ _ _ _ _)
    · have hc1 : ¬cond0_1 (grid0.coords t) := fun h => h1 ((hcond0_1 t).mp h)
      rw [Dat.leavesExact_idle (dat0 V c) 6 t (idleAt0_6 t hc1) (noFlush0_6 t hc1),
        Dat.leavesExact_idle (dat0 V c) 7 t (idleAt0_7 t hc1) (noFlush0_7 t hc1),
        Dat.leavesExact_idle (dat0 V c) 8 t (idleAt0_8 t hc1) (noFlush0_8 t hc1)]
      rw [outsAt0_B V c t h0 h1]
      unfold caseB out0_B_5 sout0_B_0 sout0_B_1 sout0_B_2; dsimp only
      rw [PhiS_castSucc V c t, PhiS_pos V c _ _ hz]
      iintro ⟨⟨⟨HS0, HS1, HS2, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ _ _ hc0 hc1 (iblk0 V c 0 t) (iblk0 V c 1 t) (iblk0 V c 2 t) (iblk0 V c 3 t) (iblk0 V c 4 t) _ _ _).2.2.2.2 _ _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [H8]; · iexact H8
      isplitl [HS0]; · iexact HS0
      isplitl [HS1]; · iexact HS1
      isplitl [HS2]; · iexact HS2
      iintro ⟨H0, H1, H2, H3, H4, ⟨%e5, H5⟩, H6, H7, H8, ⟨%es0, HS0⟩, ⟨%es1, HS1⟩, ⟨%es2, HS2⟩⟩
      isplitl [HS0 HS1 HS2 Hr Hg]
      · isplitl [HS0 HS1 HS2 Hr]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _ _ _ _ _ _ _)
      isplitl [H6]; · iexists _; iexact H6
      isplitl [H7]; · iexists _; iexact H7
      iexists _; iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class invariant back: the scratch contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA0_eq]
  iintro ⟨⟨HS0, HS1, HS2, Hr⟩, Hg⟩
  isplitl [HS0 HS1 HS2 Hr]
  · isplitl [HS0]; · iexists _; iexact HS0
    isplitl [HS1]; · iexists _; iexact HS1
    isplitl [HS2]; · iexists _; iexact HS2
    iexact Hr
  iexact Hg

end Cert.KernelIdeal.Hand

end
-- ==== Proof.KI.R1.lean ====
/-
  Region 1 (the normalising kernel) on one core, at the buffer contents `V` the region is entered with: each of its
  four points reads a block of 16 sequences of raw scores, their maxima and reciprocal denominators, and stores the
  block of weights.  What the output's staging buffer holds after the body is one store of the whole block; the body's
  triple; the proof data of the pipeline; the body obligation.
-/
import proofs.«116815_j65094524338925_2_alg».proof.Proof.Gen.KernelIdeal.Launch
import proofs.«116815_j65094524338925_2_alg».proof.Proof.Gen.KernelIdeal.Skeleton
import proofs.«116815_j65094524338925_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data over `V`'s arrays
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole block of scores / weights, and the whole column of per-sequence numbers. -/
abbrev rW : Rect S16x1x2048 := Rect.unit (s := S16x1x2048) ![0, 0, 0] S16x1x2048.size inb_S16x1x2048_S16x1x2048_0_0_0
abbrev rC : Rect S16x1x1 := Rect.unit (s := S16x1x1) ![0, 0, 0] S16x1x1.size inb_S16x1x1_S16x1x1_0_0_0

/-- The output block after the body: one store of the weights computed from the three input blocks. -/
def out1_3 (x0 : Vec F S16x1x2048 .f32) (x1 x2 : Vec F S16x1x1 .f32) : Vec F S16x1x2048 .f32 :=
  View.canon [⟨rW, k1_pay1 (View.ld x0 rW) (View.ld x1 rC) (View.ld x2 rC)⟩]

theorem cover1_3 (p0 : Vec F S16x1x2048 .f32) (y : S16x1x2048.Idx) :
    ∃ pc ∈ ([⟨rW, p0⟩] : List (View.Piece (Elt F) S16x1x2048 .f32)), y ∈ pc.1.set :=
  View.cover_of_tiled [⟨rW, p0⟩] S16x1x2048.size (by rfl) y

set_option maxHeartbeats 1000000 in
/-- The body on whole staging memrefs: the inputs are handed back as they were, the output holds `out1_3`. -/
theorem sound_kernel1 (c : Dev nD) (E : Set ℕ) (i : grid1.Coords)
    (arg1 : Memref sig .tc .vmem S16x1x2048 .f32) (harg1 : arg1.IsWhole) (arg2 : Memref sig .tc .vmem S16x1x1 .f32) (harg2 : arg2.IsWhole)
    (arg3 : Memref sig .tc .vmem S16x1x1 .f32) (harg3 : arg3.IsWhole) (arg4 : Memref sig .tc .vmem S16x1x2048 .f32) (harg4 : arg4.IsWhole)
    (x0 : Vec F S16x1x2048 .f32) (x1 x2 : Vec F S16x1x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__weight_kernel i arg1 harg1 arg2 harg2 arg3 harg3 arg4 harg4) K := by
  simp only [cc1__weight_kernel_eq_skeleton]; unfold cc1__weight_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core `c`: the arrays as the region finds them; after the body each input's
    buffer at its block and the output's at `out1_3` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole program on the cores: the host operations that prepare the transposed weight matrix and the two halves
  of the combining row, then the streaming region, then the normalising region.  The buffer contents at each
  boundary are a fold from the launch memory; each region is entered from every unscoped buffer at the boundary's
  contents and left at the next boundary's; the run ends with every unscoped buffer at the last boundary's contents.
-/
import proofs.«116815_j65094524338925_2_alg».proof.Proof.KI.R0Body
import proofs.«116815_j65094524338925_2_alg».proof.Proof.KI.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host operations (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- At region 1's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! The arguments end as launched -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! What the host operations leave of the arguments, and where the results are read -/
theorem W1_main_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W1_main_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W1_main_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W1_main_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W3_main_v6 (c : Dev nD) : W3 m ρ c (Proc.devRef .tc main_v6) = (dat1 (V2 m ρ) c).arrAt 3 cfg1.N := W3_arr m ρ c 3
theorem W3_main_v5_3 (c : Dev nD) : W3 m ρ c (Proc.devRef .tc main_v5_3) = (dat0 (V1 m ρ) c).arrAt 8 cfg0.N :=
  (W3_of_ne m ρ c main_v5_3 (by decide)).trans (W2_arr m ρ c 8)
theorem V2_main_v5_0 (c : Dev nD) : V2 m ρ c main_v5_0 = (dat0 (V1 m ρ) c).arrAt 5 cfg0.N := W2_arr m ρ c 5
theorem V2_main_v5_1 (c : Dev nD) : V2 m ρ c main_v5_1 = (dat0 (V1 m ρ) c).arrAt 6 cfg0.N := W2_arr m ρ c 6
theorem V2_main_v5_2 (c : Dev nD) : V2 m ρ c main_v5_2 = (dat0 (V1 m ρ) c).arrAt 7 cfg0.N := W2_arr m ρ c 7

/-! The proof data family and the thread state -/
abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final memory holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun s h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run m ρ)

end Cert.KernelIdeal.Hand

end
-- ==== Proof.LibCoveredLoad.lean ====
/-
  A load through a whole buffer, after several stores each of which overwrote the whole buffer, reads what the LAST of
  those stores wrote, whatever the earlier ones were: a value that is written, read back, updated and written again,
  round after round. General in the shape, the element type and the view.
-/
import Idealize.ShloMosaic.Lib.Pipeline.Value

noncomputable section

namespace Idealize.ShloMosaic.View

variable {Val : EltTy → Type} {S : Shape} {e : EltTy}

/-- The newest whole-buffer store decides what a whole-buffer load reads. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, by
    show y ∈ (Rect.whole S).set; rw [Rect.set_whole]; exact Finset.mem_univ y⟩), canon_cons_unit_zero rfl, ld_unit_zero rfl]

end Idealize.ShloMosaic.View

end
-- ==== Proof.KI.R0Pieces.lean ====
/-
  What the runs of region 0's body found in each buffer, as the body's arithmetic of the blocks it read: the tile's
  scores transposed into the score window; the three running numbers after one update (from the start values at a
  first tile, from what the tile before left otherwise); at a last tile the maximum, the reciprocal of the
  denominator and the normalised weighted sum.  A buffer stored whole holds its last store; a load of a buffer just
  stored whole reads that store.
-/
import proofs.«116815_j65094524338925_2_alg».proof.Proof.KI.R0Outs
import Idealize.ShloMosaic.Lib.Pipeline.Value
import proofs.«116815_j65094524338925_2_alg».proof.Proof.LibCoveredLoad
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0, 0] : Fin 3 → Nat) = fun _ => 0 := by funext a; match a with | ⟨0, _⟩ => rfl | ⟨1, _⟩ => rfl | ⟨2, _⟩ => rfl
theorem hz2 : (![0, 0] : Fin 2 → Nat) = fun _ => 0 := by funext a; match a with | ⟨0, _⟩ => rfl | ⟨1, _⟩ => rfl

set_option maxHeartbeats 1000000 in
theorem out0_A_5_eq (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : cond0_0 i) (hc1 : ¬cond0_1 i)
    (x0 x1 : Vec F S4x512x256 .f32) (x2 : Vec F S256x256 .f32) (x3 x4 : Vec F S1x1x256 .f32) :
    out0_A_5 c i arg2 harg2 arg3 harg3 arg4 harg4 arg5 harg5 arg6 harg6 arg7 harg7 arg8 harg8 arg9 harg9 arg10 harg10 arg11 harg11 arg12 harg12 arg13 harg13 hc0 hc1 x0 x1 x2 x3 x4 = k0_pay7 x0 x1 x2 x3 x4 := by
  unfold out0_A_5
  rw [View.read_writes_eq_canon _ _ _ (cover0_A_5 c i arg2 harg2 arg3 harg3 arg4 harg4 arg5 harg5 arg6 harg6 arg7 harg7 arg8 harg8 arg9 harg9 arg10 harg10 arg11 harg11 arg12 harg12 arg13 harg13 hc0 hc1 x0 x1 x2 x3 x4)]
  unfold kernelRun0_A
  dsimp only
  sl_unfold_words
  first
    | refine (View.canon_unit_zero (S := S4x1x512) hz3 _ _).trans ?_
    | refine (View.canon_cons_unit_zero (S := S4x1x512) hz3 _ _ _).trans ?_
  simp only [View.readAt_eq_ld, harg2.read_unread, harg3.read_unread, harg4.read_unread, harg5.read_unread, harg6.read_unread, harg11.read_unread, harg12.read_unread, harg13.read_unread, View.ld_unit_zero (S := S4x1x1) hz3, View.ld_unit_zero (S := S4x512x256) hz3, View.ld_unit_zero (S := S256x256) hz2, View.ld_unit_zero (S := S1x1x256) hz3, View.ld_unit_zero (S := S4x1x256) hz3, View.readCov_unit_zero (S := S4x1x1) _ hz3, View.readCov_unit_zero (S := S4x1x256) _ hz3]

set_option maxHeartbeats 1000000 in
theorem sout0_A_0_eq (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : cond0_0 i) (hc1 : ¬cond0_1 i)
    (x0 x1 : Vec F S4x512x256 .f32) (x2 : Vec F S256x256 .f32) (x3 x4 : Vec F S1x1x256 .f32) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 = k0_pay13 (k0_pay6 x0 x1 x2 x3 x4) (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4)]
  unfold kernelRun0_A
  dsimp only
  sl_unfold_words
  first
    | refine (View.canon_unit_zero (S := S4x1x1) hz3 _ _).trans ?_
    | refine (View.canon_cons_unit_zero (S := S4x1x1) hz3 _ _ _).trans ?_
  simp only [View.readAt_eq_ld, harg2.read_unread, harg3.read_unread, harg4.read_unread, harg5.read_unread, harg6.read_unread, harg11.read_unread, harg12.read_unread, harg13.read_unread, View.ld_unit_zero (S := S4x1x1) hz3, View.ld_unit_zero (S := S4x512x256) hz3, View.ld_unit_zero (S := S256x256) hz2, View.ld_unit_zero (S := S1x1x256) hz3, View.ld_unit_zero (S := S4x1x256) hz3, View.readCov_unit_zero (S := S4x1x1) _ hz3, View.readCov_unit_zero (S := S4x1x256) _ hz3]

set_option maxHeartbeats 1000000 in
theorem sout0_A_1_eq (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : cond0_0 i) (hc1 : ¬cond0_1 i)
    (x0 x1 : Vec F S4x512x256 .f32) (x2 : Vec F S256x256 .f32) (x3 x4 : Vec F S1x1x256 .f32) :
    sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 = k0_pay11 (k0_pay6 x0 x1 x2 x3 x4) (k0_pay3 (F := F)) (k0_pay4 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4)]
  unfold kernelRun0_A
  dsimp only
  sl_unfold_words
  first
    | refine (View.canon_unit_zero (S := S4x1x1) hz3 _ _).trans ?_
    | refine (View.canon_cons_unit_zero (S := S4x1x1) hz3 _ _ _).trans ?_
  simp only [View.readAt_eq_ld, harg2.read_unread, harg3.read_unread, harg4.read_unread, harg5.read_unread, harg6.read_unread, harg11.read_unread, harg12.read_unread, harg13.read_unread, View.ld_unit_zero (S := S4x1x1) hz3, View.ld_unit_zero (S := S4x512x256) hz3, View.ld_unit_zero (S := S256x256) hz2, View.ld_unit_zero (S := S1x1x256) hz3, View.ld_unit_zero (S := S4x1x256) hz3, View.readCov_unit_zero (S := S4x1x1) _ hz3, View.readCov_unit_zero (S := S4x1x256) _ hz3]

set_option maxHeartbeats 1000000 in
theorem sout0_A_2_eq (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : cond0_0 i) (hc1 : ¬cond0_1 i)
    (x0 x1 : Vec F S4x512x256 .f32) (x2 : Vec F S256x256 .f32) (x3 x4 : Vec F S1x1x256 .f32) :
    sout0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 = k0_pay12 x0 (k0_pay6 x0 x1 x2 x3 x4) (k0_pay3 (F := F)) (k0_pay5 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4)]
  unfold kernelRun0_A
  dsimp only
  sl_unfold_words
  first
    | refine (View.canon_unit_zero (S := S4x1x256) hz3 _ _).trans ?_
    | refine (View.canon_cons_unit_zero (S := S4x1x256) hz3 _ _ _).trans ?_
  simp only [View.readAt_eq_ld, harg2.read_unread, harg3.read_unread, harg4.read_unread, harg5.read_unread, harg6.read_unread, harg11.read_unread, harg12.read_unread, harg13.read_unread, View.ld_unit_zero (S := S4x1x1) hz3, View.ld_unit_zero (S := S4x512x256) hz3, View.ld_unit_zero (S := S256x256) hz2, View.ld_unit_zero (S := S1x1x256) hz3, View.ld_unit_zero (S := S4x1x256) hz3, View.readCov_unit_zero (S := S4x1x1) _ hz3, View.readCov_unit_zero (S := S4x1x256) _ hz3]

set_option maxHeartbeats 1000000 in
theorem out0_B_5_eq (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : ¬cond0_1 i)
    (x0 x1 : Vec F S4x512x256 .f32) (x2 : Vec F S256x256 .f32) (x3 x4 : Vec F S1x1x256 .f32) (xs0 xs1 : Vec F S4x1x1 .f32) (xs2 : Vec F S4x1x256 .f32) :
    out0_B_5 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 = k0_pay7 x0 x1 x2 x3 x4 := by
  unfold out0_B_5
  rw [View.read_writes_eq_canon _ _ _ (cover0_B_5 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2)]
  unfold kernelRun0_B
  dsimp only
  sl_unfold_words
  first
    | refine (View.canon_unit_zero (S := S4x1x512) hz3 _ _).trans ?_
    | refine (View.canon_cons_unit_zero (S := S4x1x512) hz3 _ _ _).trans ?_
  simp only [View.readAt_eq_ld, harg2.read_unread, harg3.read_unread, harg4.read_unread, harg5.read_unread, harg6.read_unread, harg11.read_unread, harg12.read_unread, harg13.read_unread, View.ld_unit_zero (S := S4x1x1) hz3, View.ld_unit_zero (S := S4x512x256) hz3, View.ld_unit_zero (S := S256x256) hz2, View.ld_unit_zero (S := S1x1x256) hz3, View.ld_unit_zero (S := S4x1x256) hz3, View.readCov_unit_zero (S := S4x1x1) _ hz3, View.readCov_unit_zero (S := S4x1x256) _ hz3]

set_option maxHeartbeats 1000000 in
theorem sout0_B_0_eq (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : ¬cond0_1 i)
    (x0 x1 : Vec F S4x512x256 .f32) (x2 : Vec F S256x256 .f32) (x3 x4 : Vec F S1x1x256 .f32) (xs0 xs1 : Vec F S4x1x1 .f32) (xs2 : Vec F S4x1x256 .f32) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 = k0_pay13 (k0_pay6 x0 x1 x2 x3 x4) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2)]
  unfold kernelRun0_B
  dsimp only
  sl_unfold_words
  first
    | refine (View.canon_unit_zero (S := S4x1x1) hz3 _ _).trans ?_
    | refine (View.canon_cons_unit_zero (S := S4x1x1) hz3 _ _ _).trans ?_
  simp only [View.readAt_eq_ld, harg2.read_unread, harg3.read_unread, harg4.read_unread, harg5.read_unread, harg6.read_unread, harg11.read_unread, harg12.read_unread, harg13.read_unread, View.ld_unit_zero (S := S4x1x1) hz3, View.ld_unit_zero (S := S4x512x256) hz3, View.ld_unit_zero (S := S256x256) hz2, View.ld_unit_zero (S := S1x1x256) hz3, View.ld_unit_zero (S := S4x1x256) hz3, View.readCov_unit_zero (S := S4x1x1) _ hz3, View.readCov_unit_zero (S := S4x1x256) _ hz3]

set_option maxHeartbeats 1000000 in
theorem sout0_B_1_eq (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : ¬cond0_1 i)
    (x0 x1 : Vec F S4x512x256 .f32) (x2 : Vec F S256x256 .f32) (x3 x4 : Vec F S1x1x256 .f32) (xs0 xs1 : Vec F S4x1x1 .f32) (xs2 : Vec F S4x1x256 .f32) :
    sout0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 = k0_pay11 (k0_pay6 x0 x1 x2 x3 x4) xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2)]
  unfold kernelRun0_B
  dsimp only
  sl_unfold_words
  first
    | refine (View.canon_unit_zero (S := S4x1x1) hz3 _ _).trans ?_
    | refine (View.canon_cons_unit_zero (S := S4x1x1) hz3 _ _ _).trans ?_
  simp only [View.readAt_eq_ld, harg2.read_unread, harg3.read_unread, harg4.read_unread, harg5.read_unread, harg6.read_unread, harg11.read_unread, harg12.read_unread, harg13.read_unread, View.ld_unit_zero (S := S4x1x1) hz3, View.ld_unit_zero (S := S4x512x256) hz3, View.ld_unit_zero (S := S256x256) hz2, View.ld_unit_zero (S := S1x1x256) hz3, View.ld_unit_zero (S := S4x1x256) hz3, View.readCov_unit_zero (S := S4x1x1) _ hz3, View.readCov_unit_zero (S := S4x1x256) _ hz3]

set_option maxHeartbeats 1000000 in
theorem sout0_B_2_eq (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : ¬cond0_1 i)
    (x0 x1 : Vec F S4x512x256 .f32) (x2 : Vec F S256x256 .f32) (x3 x4 : Vec F S1x1x256 .f32) (xs0 xs1 : Vec F S4x1x1 .f32) (xs2 : Vec F S4x1x256 .f32) :
    sout0_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 = k0_pay12 x0 (k0_pay6 x0 x1 x2 x3 x4) xs0 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2)]
  unfold kernelRun0_B
  dsimp only
  sl_unfold_words
  first
    | refine (View.canon_unit_zero (S := S4x1x256) hz3 _ _).trans ?_
    | refine (View.canon_cons_unit_zero (S := S4x1x256) hz3 _ _ _).trans ?_
  simp only [View.readAt_eq_ld, harg2.read_unread, harg3.read_unread, harg4.read_unread, harg5.read_unread, harg6.read_unread, harg11.read_unread, harg12.read_unread, harg13.read_unread, View.ld_unit_zero (S := S4x1x1) hz3, View.ld_unit_zero (S := S4x512x256) hz3, View.ld_unit_zero (S := S256x256) hz2, View.ld_unit_zero (S := S1x1x256) hz3, View.ld_unit_zero (S := S4x1x256) hz3, View.readCov_unit_zero (S := S4x1x1) _ hz3, View.readCov_unit_zero (S := S4x1x256) _ hz3]

set_option maxHeartbeats 1000000 in
theorem out0_C_5_eq (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : cond0_1 i)
    (x0 x1 : Vec F S4x512x256 .f32) (x2 : Vec F S256x256 .f32) (x3 x4 : Vec F S1x1x256 .f32) (xs0 xs1 : Vec F S4x1x1 .f32) (xs2 : Vec F S4x1x256 .f32) :
    out0_C_5 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 = k0_pay7 x0 x1 x2 x3 x4 := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2)]
  unfold kernelRun0_C
  dsimp only
  sl_unfold_words
  first
    | refine (View.canon_unit_zero (S := S4x1x512) hz3 _ _).trans ?_
    | refine (View.canon_cons_unit_zero (S := S4x1x512) hz3 _ _ _).trans ?_
  simp only [View.readAt_eq_ld, harg2.read_unread, harg3.read_unread, harg4.read_unread, harg5.read_unread, harg6.read_unread, harg11.read_unread, harg12.read_unread, harg13.read_unread, View.ld_unit_zero (S := S4x1x1) hz3, View.ld_unit_zero (S := S4x512x256) hz3, View.ld_unit_zero (S := S256x256) hz2, View.ld_unit_zero (S := S1x1x256) hz3, View.ld_unit_zero (S := S4x1x256) hz3, View.readCov_unit_zero (S := S4x1x1) _ hz3, View.readCov_unit_zero (S := S4x1x256) _ hz3]

set_option maxHeartbeats 1000000 in
theorem out0_C_6_eq (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : cond0_1 i)
    (x0 x1 : Vec F S4x512x256 .f32) (x2 : Vec F S256x256 .f32) (x3 x4 : Vec F S1x1x256 .f32) (xs0 xs1 : Vec F S4x1x1 .f32) (xs2 : Vec F S4x1x256 .f32) :
    out0_C_6 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 = k0_pay13 (k0_pay6 x0 x1 x2 x3 x4) xs0 := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2)]
  unfold kernelRun0_C
  dsimp only
  sl_unfold_words
  first
    | refine (View.canon_unit_zero (S := S4x1x1) hz3 _ _).trans ?_
    | refine (View.canon_cons_unit_zero (S := S4x1x1) hz3 _ _ _).trans ?_
  simp only [View.readAt_eq_ld, harg2.read_unread, harg3.read_unread, harg4.read_unread, harg5.read_unread, harg6.read_unread, harg11.read_unread, harg12.read_unread, harg13.read_unread, View.ld_unit_zero (S := S4x1x1) hz3, View.ld_unit_zero (S := S4x512x256) hz3, View.ld_unit_zero (S := S256x256) hz2, View.ld_unit_zero (S := S1x1x256) hz3, View.ld_unit_zero (S := S4x1x256) hz3, View.readCov_unit_zero (S := S4x1x1) _ hz3, View.readCov_unit_zero (S := S4x1x256) _ hz3]

set_option maxHeartbeats 1000000 in
theorem out0_C_7_eq (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : cond0_1 i)
    (x0 x1 : Vec F S4x512x256 .f32) (x2 : Vec F S256x256 .f32) (x3 x4 : Vec F S1x1x256 .f32) (xs0 xs1 : Vec F S4x1x1 .f32) (xs2 : Vec F S4x1x256 .f32) :
    out0_C_7 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 = k0_pay1 (k0_pay11 (k0_pay6 x0 x1 x2 x3 x4) xs0 xs1) := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2)]
  unfold kernelRun0_C
  dsimp only
  sl_unfold_words
  first
    | refine (View.canon_unit_zero (S := S4x1x1) hz3 _ _).trans ?_
    | refine (View.canon_cons_unit_zero (S := S4x1x1) hz3 _ _ _).trans ?_
  simp only [View.readAt_eq_ld, harg2.read_unread, harg3.read_unread, harg4.read_unread, harg5.read_unread, harg6.read_unread, harg11.read_unread, harg12.read_unread, harg13.read_unread, View.ld_unit_zero (S := S4x1x1) hz3, View.ld_unit_zero (S := S4x512x256) hz3, View.ld_unit_zero (S := S256x256) hz2, View.ld_unit_zero (S := S1x1x256) hz3, View.ld_unit_zero (S := S4x1x256) hz3, View.readCov_unit_zero (S := S4x1x1) _ hz3, View.readCov_unit_zero (S := S4x1x256) _ hz3]

set_option maxHeartbeats 1000000 in
theorem out0_C_8_eq (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : cond0_1 i)
    (x0 x1 : Vec F S4x512x256 .f32) (x2 : Vec F S256x256 .f32) (x3 x4 : Vec F S1x1x256 .f32) (xs0 xs1 : Vec F S4x1x1 .f32) (xs2 : Vec F S4x1x256 .f32) :
    out0_C_8 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 = k0_pay2 (k0_pay11 (k0_pay6 x0 x1 x2 x3 x4) xs0 xs1) (k0_pay12 x0 (k0_pay6 x0 x1 x2 x3 x4) xs0 xs2) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2)]
  unfold kernelRun0_C
  dsimp only
  sl_unfold_words
  first
    | refine (View.canon_unit_zero (S := S4x1x256) hz3 _ _).trans ?_
    | refine (View.canon_cons_unit_zero (S := S4x1x256) hz3 _ _ _).trans ?_
  simp only [View.readAt_eq_ld, harg2.read_unread, harg3.read_unread, harg4.read_unread, harg5.read_unread, harg6.read_unread, harg11.read_unread, harg12.read_unread, harg13.read_unread, View.ld_unit_zero (S := S4x1x1) hz3, View.ld_unit_zero (S := S4x512x256) hz3, View.ld_unit_zero (S := S256x256) hz2, View.ld_unit_zero (S := S1x1x256) hz3, View.ld_unit_zero (S := S4x1x256) hz3, View.readCov_unit_zero (S := S4x1x1) _ hz3, View.readCov_unit_zero (S := S4x1x256) _ hz3]

set_option maxHeartbeats 1000000 in
theorem sout0_C_0_eq (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : cond0_1 i)
    (x0 x1 : Vec F S4x512x256 .f32) (x2 : Vec F S256x256 .f32) (x3 x4 : Vec F S1x1x256 .f32) (xs0 xs1 : Vec F S4x1x1 .f32) (xs2 : Vec F S4x1x256 .f32) :
    sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 = k0_pay13 (k0_pay6 x0 x1 x2 x3 x4) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2)]
  unfold kernelRun0_C
  dsimp only
  sl_unfold_words
  first
    | refine (View.canon_unit_zero (S := S4x1x1) hz3 _ _).trans ?_
    | refine (View.canon_cons_unit_zero (S := S4x1x1) hz3 _ _ _).trans ?_
  simp only [View.readAt_eq_ld, harg2.read_unread, harg3.read_unread, harg4.read_unread, harg5.read_unread, harg6.read_unread, harg11.read_unread, harg12.read_unread, harg13.read_unread, View.ld_unit_zero (S := S4x1x1) hz3, View.ld_unit_zero (S := S4x512x256) hz3, View.ld_unit_zero (S := S256x256) hz2, View.ld_unit_zero (S := S1x1x256) hz3, View.ld_unit_zero (S := S4x1x256) hz3, View.readCov_unit_zero (S := S4x1x1) _ hz3, View.readCov_unit_zero (S := S4x1x256) _ hz3]

set_option maxHeartbeats 1000000 in
theorem sout0_C_1_eq (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : cond0_1 i)
    (x0 x1 : Vec F S4x512x256 .f32) (x2 : Vec F S256x256 .f32) (x3 x4 : Vec F S1x1x256 .f32) (xs0 xs1 : Vec F S4x1x1 .f32) (xs2 : Vec F S4x1x256 .f32) :
    sout0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 = k0_pay11 (k0_pay6 x0 x1 x2 x3 x4) xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2)]
  unfold kernelRun0_C
  dsimp only
  sl_unfold_words
  first
    | refine (View.canon_unit_zero (S := S4x1x1) hz3 _ _).trans ?_
    | refine (View.canon_cons_unit_zero (S := S4x1x1) hz3 _ _ _).trans ?_
  simp only [View.readAt_eq_ld, harg2.read_unread, harg3.read_unread, harg4.read_unread, harg5.read_unread, harg6.read_unread, harg11.read_unread, harg12.read_unread, harg13.read_unread, View.ld_unit_zero (S := S4x1x1) hz3, View.ld_unit_zero (S := S4x512x256) hz3, View.ld_unit_zero (S := S256x256) hz2, View.ld_unit_zero (S := S1x1x256) hz3, View.ld_unit_zero (S := S4x1x256) hz3, View.readCov_unit_zero (S := S4x1x1) _ hz3, View.readCov_unit_zero (S := S4x1x256) _ hz3]

set_option maxHeartbeats 1000000 in
theorem sout0_C_2_eq (c : Dev nD) (i : grid0.Coords) (arg2 : Memref sig .tc .vmem S4x512x256 .f32) (harg2 : arg2.IsWhole) (arg3 : Memref sig .tc .vmem S4x512x256 .f32) (harg3 : arg3.IsWhole) (arg4 : Memref sig .tc .vmem S256x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S4x1x512 .f32) (harg7 : arg7.IsWhole) (arg8 : Memref sig .tc .vmem S4x1x1 .f32) (harg8 : arg8.IsWhole) (arg9 : Memref sig .tc .vmem S4x1x1 .f32) (harg9 : arg9.IsWhole) (arg10 : Memref sig .tc .vmem S4x1x256 .f32) (harg10 : arg10.IsWhole) (arg11 : Memref sig .tc .vmem S4x1x1 .f32) (harg11 : arg11.IsWhole) (arg12 : Memref sig .tc .vmem S4x1x1 .f32) (harg12 : arg12.IsWhole) (arg13 : Memref sig .tc .vmem S4x1x256 .f32) (harg13 : arg13.IsWhole) (hc0 : ¬cond0_0 i) (hc1 : cond0_1 i)
    (x0 x1 : Vec F S4x512x256 .f32) (x2 : Vec F S256x256 .f32) (x3 x4 : Vec F S1x1x256 .f32) (xs0 xs1 : Vec F S4x1x1 .f32) (xs2 : Vec F S4x1x256 .f32) :
    sout0_C_2 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 = k0_pay12 x0 (k0_pay6 x0 x1 x2 x3 x4) xs0 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2)]
  unfold kernelRun0_C
  dsimp only
  sl_unfold_words
  first
    | refine (View.canon_unit_zero (S := S4x1x256) hz3 _ _).trans ?_
    | refine (View.canon_cons_unit_zero (S := S4x1x256) hz3 _ _ _).trans ?_
  simp only [View.readAt_eq_ld, harg2.read_unread, harg3.read_unread, harg4.read_unread, harg5.read_unread, harg6.read_unread, harg11.read_unread, harg12.read_unread, harg13.read_unread, View.ld_unit_zero (S := S4x1x1) hz3, View.ld_unit_zero (S := S4x512x256) hz3, View.ld_unit_zero (S := S256x256) hz2, View.ld_unit_zero (S := S1x1x256) hz3, View.ld_unit_zero (S := S4x1x256) hz3, View.readCov_unit_zero (S := S4x1x1) _ hz3, View.readCov_unit_zero (S := S4x1x256) _ hz3]

end Cert.KernelIdeal.Hand

end
-- ==== Proof.PayScore.lean ====
/-
  The score of one row, read off the tiled program's arithmetic at an index.

  A tile holds 4 sequences of 512 rows of 256 features.  The program views the tile as 2048 rows
  (row `r` of sequence `p` is row `512 * p + r`), multiplies the rows with the 256 x 256 weight
  block (stored transposed: entry `(h, k)` of the block is the weight of feature `h` in projection
  `k`), takes `tanh`, multiplies with a weight row of 256 entries and sums over the 256 projections;
  it does this for the text block and for the aspect block and adds the two sums.  Every step is
  exact on the extended reals (the change of float format before the product is the identity), so the
  entry at `(p, r)` is the two sums of the statement.  The second payload is the same column of
  scores laid along the last axis.
-/
import proofs.«116815_j65094524338925_2_alg».proof.Proof.Gen.KernelIdeal.Skeleton
import Idealize.ShloMosaic.Lib.ValueIdx
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.ShloMosaic.ValueIdx

/-! ### The layout steps at an index -/

/-- Row `512 * p + r` of the 2048-row view of a tile is row `r` of its sequence `p`. -/
theorem rows_merge {α : Type} (x : S4x512x256.Idx → α) (h : S4x512x256.ShapeCasts S2048x256)
    (p : Fin 4) (r : Fin 512) (c : Fin 256) :
    shapeCast S2048x256 x h (ix2 (⟨512 * p.val + r.val, by omega⟩ : Fin 2048) c) = x (ix3 p r c) :=
  shapeCast_apply x h _ _ (by
    rw [Shape.rowMajor_val_three, Shape.rowMajor_val_two]
    show (p.val * 512 + r.val) * 256 + c.val = (512 * p.val + r.val) * 256 + c.val
    omega)

/-- Back: row `r` of sequence `p` of the tile view of 2048 rows is row `512 * p + r`. -/
theorem rows_split {α : Type} (y : S2048x256.Idx → α) (h : S2048x256.ShapeCasts S4x512x256)
    (p : Fin 4) (r : Fin 512) (c : Fin 256) :
    shapeCast S4x512x256 y h (ix3 p r c) = y (ix2 (⟨512 * p.val + r.val, by omega⟩ : Fin 2048) c) :=
  shapeCast_apply y h _ _ (by
    rw [Shape.rowMajor_val_three, Shape.rowMajor_val_two]
    show (512 * p.val + r.val) * 256 + c.val = (p.val * 512 + r.val) * 256 + c.val
    omega)

/-- A `[4, 512]` array given a trailing unit axis keeps its entries. -/
theorem col_keep {α : Type} (v : S4x512.Idx → α) (h : S4x512.ShapeCasts S4x512x1)
    (p : Fin 4) (r : Fin 512) (u : Fin 1) :
    shapeCast S4x512x1 v h (ix3 p r u) = v (ix2 p r) :=
  shapeCast_apply v h _ _ (by
    rw [Shape.rowMajor_val_three, Shape.rowMajor_val_two]
    show p.val * 512 + r.val = (p.val * 512 + r.val) * 1 + u.val
    omega)

/-- One row of 256 entries repeated over all sequences and rows. -/
theorem row_bcast {α : Type} (v : S1x1x256.Idx → α) (h : S1x1x256.Broadcasts S4x512x256)
    (p : Fin 4) (r : Fin 512) (k : Fin 256) :
    broadcastTo S4x512x256 v h (ix3 p r k) = v (ix3 (0 : Fin 1) (0 : Fin 1) k) := by
  refine broadcastTo_apply v h _ _ fun ax => ?_
  match ax with
  | ⟨0, _⟩ => rfl
  | ⟨1, _⟩ => rfl
  | ⟨2, _⟩ => rfl

/-! ### The product with the weight block and the sum over the projections -/

theorem dot_lhs0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide),
    dif_pos (show (0 : Fin S2048x256.rank) ∈ dot_S2048x256_S256x256_S2048x256_1_0_0_1_n_n.lhsNonContracting by decide)]
  rfl

theorem dot_rhs1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide),
    dif_pos (show (1 : Fin S256x256.rank) ∈ dot_S2048x256_S256x256_S2048x256_1_0_0_1_n_n.rhsNonContracting by decide)]
  rfl

/-- The product of the 2048 rows with the weight block, into a zero accumulator, at `(R, c)`:
    the sum over the 256 features. -/
theorem matmul_rows {φ₁ φ₂ : FTy} (lhs : FVec Ideal S2048x256 φ₁) (rhs : FVec Ideal S256x256 φ₂)
    (R : Fin 2048) (c : Fin 256) :
    matmul dot_S2048x256_S256x256_S2048x256_1_0_0_1_n_n none lhs rhs (constant S2048x256 .f32 0x00000000#32) (ix2 R c)
      = ∑ k : Fin 256, lhs (ix2 R k) * rhs (ix2 k c) := by
  simp only [matmul]
  rw [Ideal.matmul_constant_zero_apply,
    ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 R c) ((contrEquiv1 dot_S2048x256_S256x256_S2048x256_1_0_0_1_n_n 256 rfl rfl).symm k) = ix2 R k :=
    funext fun a => Fin.ext (by
      match a with
      | ⟨0, _⟩ => exact dot_lhs0 _ _
      | ⟨1, _⟩ => exact (dot_S2048x256_S256x256_S2048x256_1_0_0_1_n_n.lhsIdx_val_of_single rfl _ _).trans hk)
  have er : dot_S2048x256_S256x256_S2048x256_1_0_0_1_n_n.rhsIdx (ix2 R c) ((contrEquiv1 dot_S2048x256_S256x256_S2048x256_1_0_0_1_n_n 256 rfl rfl).symm k) = ix2 k c :=
    funext fun a => Fin.ext (by
      match a with
      | ⟨0, _⟩ => exact (dot_S2048x256_S256x256_S2048x256_1_0_0_1_n_n.rhsIdx_val_of_single rfl _ _).trans hk
      | ⟨1, _⟩ => exact dot_rhs1 _ _)
  rw [el, er]

/-- The sum over the last axis of a `[4, 512, 256]` array at `(p, r)`. -/
theorem sum_axis2 (src : FVec Ideal S4x512x256 .f32) (h : S4x512x256.Reduces [2] S4x512) (hφ : FKind.Formats .f32)
    (hacc : (0x00000000#32 : BitVec 32) = FKind.add.neutral .f32 hφ) (p : Fin 4) (r : Fin 512) :
    multiReduction .add [2] S4x512 src 0x00000000#32 h hφ hacc (ix2 p r) = ∑ k : Fin 256, src (ix3 p r k) := by
  rw [Ideal.multiReduction_add_single]
  refine Finset.sum_congr rfl fun k _ => congrArg src (funext fun a => Fin.ext ?_)
  match a with
  | ⟨0, _⟩ => rfl
  | ⟨1, _⟩ => rfl
  | ⟨2, _⟩ => rfl

/-- One of the two halves of the score: for a block `x` of rows, the weight block `x7` and a
    weight row `w`, the entry at `(p, r)` is `∑ k, tanh (∑ h, x p r h * x7 h k) * w k`. -/
theorem half_apply (x : FVec Ideal S4x512x256 .f32) (x7 : FVec Ideal S256x256 .f32) (w : FVec Ideal S1x1x256 .f32)
    (hφ : FKind.Formats .f32) (hacc : (0x00000000#32 : BitVec 32) = FKind.add.neutral .f32 hφ)
    (p : Fin 4) (r : Fin 512) :
    shapeCast S4x512x1
      (multiReduction (F := Ideal) .add [2] S4x512
        (mulf (F := Ideal)
          (tanh (F := Ideal) (shapeCast S4x512x256
            (matmul (F := Ideal) dot_S2048x256_S256x256_S2048x256_1_0_0_1_n_n none
              (truncf (F := Ideal) .bf16 (shapeCast S2048x256 x shapeCasts_S4x512x256_S2048x256) bitsLt_bf16_f32)
              (truncf (F := Ideal) .bf16 (shapeCast S256x256 x7 shapeCasts_S256x256_S256x256) bitsLt_bf16_f32)
              (constant (F := Ideal) S2048x256 .f32 0x00000000#32))
            shapeCasts_S2048x256_S4x512x256))
          (broadcastTo S4x512x256 (shapeCast S1x1x256 w shapeCasts_S1x1x256_S1x1x256) broadcasts_S1x1x256_S4x512x256))
        0x00000000#32 reduces_S4x512x256_S4x512 hφ hacc)
      shapeCasts_S4x512_S4x512x1 (ix3 p r (0 : Fin 1))
    = ∑ k : Fin 256, Ideal.tanh (∑ h : Fin 256, x (ix3 p r h) * x7 (ix2 h k)) * w (ix3 (0 : Fin 1) (0 : Fin 1) k) := by
  simp only [shapeCast_self]
  rw [col_keep, sum_axis2]
  refine Finset.sum_congr rfl fun k _ => ?_
  rw [mulf_apply, row_bcast]
  show Ideal.tanh (shapeCast S4x512x256 _ _ (ix3 p r k)) * _ = _
  rw [rows_split, matmul_rows]
  refine congrArg (fun z => Ideal.tanh z * w (ix3 (0 : Fin 1) (0 : Fin 1) k)) (Finset.sum_congr rfl fun h _ => ?_)
  rw [truncf_apply, truncf_apply, rows_merge]

variable (x3 x4 : Vec Ideal S4x512x256 .f32) (x7 : Vec Ideal S256x256 .f32) (x18 x20 : Vec Ideal S1x1x256 .f32)

/-- The tile's score of row `r` of sequence `p`. -/
theorem pay6_apply (p : Fin 4) (r : Fin 512) :
    Gen.k0_pay6 (F := Ideal) x3 x4 x7 x18 x20 (ix3 p r 0)
      = (∑ k : Fin 256, Ideal.tanh (∑ h : Fin 256, x3 (ix3 p r h) * x7 (ix2 h k)) * x18 (ix3 0 0 k))
        + (∑ k : Fin 256, Ideal.tanh (∑ h : Fin 256, x4 (ix3 p r h) * x7 (ix2 h k)) * x20 (ix3 0 0 k)) := by
  unfold Gen.k0_pay6
  refine (addf_apply _ _ _).trans ?_
  exact congrArg₂ (fun a b : EReal => a + b) (half_apply x3 x7 x18 _ _ p r) (half_apply x4 x7 x20 _ _ p r)

/-- The scores laid along the last axis: entry `(p, 0, r)` is the score of row `r` of sequence `p`. -/
theorem pay7_apply (p : Fin 4) (r : Fin 512) :
    Gen.k0_pay7 (F := Ideal) x3 x4 x7 x18 x20 (ix3 p 0 r) = Gen.k0_pay6 (F := Ideal) x3 x4 x7 x18 x20 (ix3 p r 0) := by
  unfold Gen.k0_pay7
  exact transpose_ix3_021_apply _ _ p (0 : Fin 1) r

end Cert.KernelIdeal.PayValue

end
-- ==== Proof.LibOnlineSoftmax.lean ====
/-
  The online softmax recurrence ends at the softmax-weighted sum.

  A row of scores is cut into `B` blocks of `C` scores each, and each score comes with a value. The
  online softmax reads the blocks one after the other and carries three numbers: the running
  maximum `m` of the scores seen so far, the running denominator `l = ∑ exp (s - m)` and the
  running weighted sum `acc = ∑ exp (s - m) * v`, both taken over the scores seen so far. A new block
  raises the maximum to `m'`, rescales the two sums by `exp (m - m')` and adds the block's own
  terms. It starts from `m = -∞`, `l = 0`, `acc = 0`.

  This file proves that after all `B` blocks the quotient `acc / l` is the softmax-weighted sum
  taken over all `B * C` scores at once, `∑ (exp (s - M) / ∑ exp (s - M)) * v` with `M` the maximum
  of all the scores, when every score and every value is a real number. Numbers are extended
  reals and every operation is exact; the extended reals only show in the start value `-∞` of
  the running maximum, where `exp (-∞ - m') = 0`.

  The proof carries the invariant that after `n ≥ 1` blocks the state is `(M, ∑ exp (s - M), ∑ exp (s - M) * v)`
  for some real `M`, the sums over the first `n` blocks; the rescaling step is
  `exp (M - M') * exp (s - M) = exp (s - M')`. The quotient of the two sums does not depend on
  the real `M` they are shifted by, which is how the recurrence's last maximum meets the maximum
  the one-pass formula subtracts.
-/
import Mathlib.Data.Finset.Fold
import Mathlib.Algebra.BigOperators.Fin
import Mathlib.Data.EReal.Operations
import Idealize.ShloMosaic.PureOps.Ideal
import Idealize.ShloMosaic.PureOps.Ideal.Laws

noncomputable section

namespace OnlineSoftmax

open Idealize.ShloMosaic

variable {B C : ℕ}

/-- one block: scores s, values v (one output column), state (m, l, acc) -/
noncomputable def step (s v : Fin C → EReal) (st : EReal × EReal × EReal) : EReal × EReal × EReal :=
  let m' : EReal := max st.1 (Finset.univ.fold max ⊥ s)
  let a : EReal := Ideal.exp (st.1 - m')
  (m', a * st.2.1 + ∑ j, Ideal.exp (s j - m'), a * st.2.2 + ∑ j, Ideal.exp (s j - m') * v j)

/-- the state after the first n blocks, from (⊥, 0, 0) -/
noncomputable def run (s v : Fin B → Fin C → EReal) : (n : ℕ) → n ≤ B → EReal × EReal × EReal
  | 0, _ => (⊥, 0, 0)
  | n + 1, h => step (s ⟨n, h⟩) (v ⟨n, h⟩) (run s v n (Nat.le_of_succ_le h))

/-- the softmax-weighted sum over ALL scores at once, the reference's arrangement: each weight
    divided by the denominator BEFORE the product with the value -/
noncomputable def whole (s v : Fin B → Fin C → EReal) : EReal :=
  let M : EReal := Finset.univ.fold max ⊥ (fun p : Fin B × Fin C => s p.1 p.2)
  let L : EReal := ∑ p : Fin B × Fin C, Ideal.exp (s p.1 p.2 - M)
  ∑ p : Fin B × Fin C, Ideal.div (Ideal.exp (s p.1 p.2 - M)) L * v p.1 p.2

theorem run_zero (s v : Fin B → Fin C → EReal) (h : 0 ≤ B) : run s v 0 h = (⊥, 0, 0) := rfl

theorem run_succ (s v : Fin B → Fin C → EReal) (n : ℕ) (h : n + 1 ≤ B) :
    run s v (n + 1) h = step (s ⟨n, h⟩) (v ⟨n, h⟩) (run s v n (Nat.le_of_succ_le h)) := rfl

/-! ### Bridging lemmas -/

/-- The inclusion of the reals in the extended reals commutes with finite sums. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The maximum over a grid is the maximum over the rows of the maxima of the rows. -/
theorem fold_max_prod (f : Fin B → Fin C → EReal) :
    Finset.univ.fold max ⊥ (fun p : Fin B × Fin C => f p.1 p.2)
      = Finset.univ.fold max ⊥ (fun b => Finset.univ.fold max ⊥ (f b)) := by
  apply le_antisymm
  · rw [Finset.fold_max_le]
    refine ⟨bot_le, fun p _ => ?_⟩
    rw [Finset.le_fold_max]
    refine Or.inr ⟨p.1, Finset.mem_univ _, ?_⟩
    rw [Finset.le_fold_max]
    exact Or.inr ⟨p.2, Finset.mem_univ _, le_rfl⟩
  · rw [Finset.fold_max_le]
    refine ⟨bot_le, fun b _ => ?_⟩
    rw [Finset.fold_max_le]
    refine ⟨bot_le, fun j _ => ?_⟩
    rw [Finset.le_fold_max]
    exact Or.inr ⟨(b, j), Finset.mem_univ _, le_rfl⟩

/-- The maximum of finitely many reals, over a nonempty index type, is a real: it bounds every
    one of them and is one of them. -/
theorem fold_max_coe_exists {ι : Type*} [Fintype ι] [Nonempty ι] (f : ι → ℝ) :
    ∃ M : ℝ, Finset.univ.fold max ⊥ (fun i => (f i : EReal)) = (M : EReal) ∧ (∀ i, f i ≤ M) ∧
      ∃ i0, M = f i0 := by
  obtain ⟨i0, -, h0⟩ := Finset.exists_max_image Finset.univ f Finset.univ_nonempty
  refine ⟨f i0, ?_, fun i => h0 i (Finset.mem_univ i), i0, rfl⟩
  apply le_antisymm
  · rw [Finset.fold_max_le]
    exact ⟨bot_le, fun i _ => EReal.coe_le_coe_iff.mpr (h0 i (Finset.mem_univ i))⟩
  · rw [Finset.le_fold_max]
    exact Or.inr ⟨i0, Finset.mem_univ _, le_rfl⟩

/-- The maximum of finitely many reals, over a nonempty index type, is not `-∞`. -/
theorem fold_max_coe_ne_bot {ι : Type*} [Fintype ι] [Nonempty ι] (f : ι → ℝ) :
    Finset.univ.fold max ⊥ (fun i => (f i : EReal)) ≠ ⊥ := by
  obtain ⟨M, hM, -⟩ := fold_max_coe_exists f
  rw [hM]
  exact EReal.coe_ne_bot M

/-! ### One block -/

/-- Raising the subtracted maximum from `M` to `M'` rescales a weight by `exp (M - M')`. -/
theorem exp_shift (M M' x : ℝ) : Real.exp (M - M') * Real.exp (x - M) = Real.exp (x - M') := by
  rw [← Real.exp_add]; congr 1; ring

/-- The first block: from the start state, the state is the block's maximum and the block's two
    sums shifted by it. -/
theorem step_start (hC : 0 < C) (s v : Fin C → ℝ) :
    ∃ M : ℝ, step (fun j => (s j : EReal)) (fun j => (v j : EReal)) (⊥, 0, 0)
      = ((M : EReal), ((∑ j, Real.exp (s j - M) : ℝ) : EReal),
          ((∑ j, Real.exp (s j - M) * v j : ℝ) : EReal)) := by
  haveI : Nonempty (Fin C) := Fin.pos_iff_nonempty.mp hC
  obtain ⟨M, hM, -⟩ := fold_max_coe_exists s
  refine ⟨M, ?_⟩
  simp only [step]
  rw [hM, max_bot_left, EReal.bot_sub, Ideal.exp_bot, zero_mul, zero_add, zero_add]
  simp_rw [← EReal.coe_sub, Ideal.exp_coe, ← EReal.coe_mul, ← coe_sum]

/-- A later block: from a state of three reals, the state is again three reals, the old sums
    rescaled by `exp (M - M')` plus the block's sums shifted by the new maximum `M'`. -/
theorem step_coe (hC : 0 < C) (s v : Fin C → ℝ) (M l a : ℝ) :
    ∃ M' : ℝ, step (fun j => (s j : EReal)) (fun j => (v j : EReal)) ((M : EReal), (l : EReal), (a : EReal))
      = ((M' : EReal),
          ((Real.exp (M - M') * l + ∑ j, Real.exp (s j - M') : ℝ) : EReal),
          ((Real.exp (M - M') * a + ∑ j, Real.exp (s j - M') * v j : ℝ) : EReal)) := by
  haveI : Nonempty (Fin C) := Fin.pos_iff_nonempty.mp hC
  obtain ⟨Mb, hMb, -⟩ := fold_max_coe_exists s
  refine ⟨max M Mb, ?_⟩
  simp only [step]
  rw [hMb, ← EReal.coe_strictMono.monotone.map_max]
  simp_rw [← EReal.coe_sub, Ideal.exp_coe, ← EReal.coe_mul, ← coe_sum, ← EReal.coe_add]

/-! ### The invariant -/

/-- After `n + 1` blocks the state is a real `M` and the two sums over those blocks, shifted by `M`. -/
theorem run_eq (hC : 0 < C) (s v : Fin B → Fin C → ℝ) :
    ∀ (n : ℕ) (h : n + 1 ≤ B), ∃ M : ℝ,
      run (fun b j => ((s b j : ℝ) : EReal)) (fun b j => ((v b j : ℝ) : EReal)) (n + 1) h
        = ((M : EReal),
            ((∑ b : Fin (n + 1), ∑ j, Real.exp (s (Fin.castLE h b) j - M) : ℝ) : EReal),
            ((∑ b : Fin (n + 1), ∑ j, Real.exp (s (Fin.castLE h b) j - M) * v (Fin.castLE h b) j : ℝ) :
              EReal)) := by
  intro n
  induction n with
  | zero =>
    intro h
    obtain ⟨M, hM⟩ := step_start hC (s ⟨0, h⟩) (v ⟨0, h⟩)
    refine ⟨M, ?_⟩
    have hl : Fin.castLE h (Fin.last 0) = ⟨0, h⟩ := rfl
    rw [run_succ, run_zero]
    simp only [Fin.sum_univ_castSucc, Fin.sum_univ_zero, zero_add, hl]
    exact hM
  | succ n ih =>
    intro h
    obtain ⟨M, hM⟩ := ih (Nat.le_of_succ_le h)
    obtain ⟨M', hM'⟩ := step_coe hC (s ⟨n + 1, h⟩) (v ⟨n + 1, h⟩) M
      (∑ b : Fin (n + 1), ∑ j, Real.exp (s (Fin.castLE (Nat.le_of_succ_le h) b) j - M))
      (∑ b : Fin (n + 1), ∑ j, Real.exp (s (Fin.castLE (Nat.le_of_succ_le h) b) j - M)
        * v (Fin.castLE (Nat.le_of_succ_le h) b) j)
    refine ⟨M', ?_⟩
    rw [run_succ, hM]
    refine hM'.trans ?_
    have hcs : ∀ b : Fin (n + 1), Fin.castLE h b.castSucc = Fin.castLE (Nat.le_of_succ_le h) b :=
      fun _ => rfl
    have hl : Fin.castLE h (Fin.last (n + 1)) = ⟨n + 1, h⟩ := rfl
    have e1 : Real.exp (M - M') *
          (∑ b : Fin (n + 1), ∑ j, Real.exp (s (Fin.castLE (Nat.le_of_succ_le h) b) j - M))
          + ∑ j, Real.exp (s ⟨n + 1, h⟩ j - M')
        = ∑ b : Fin (n + 1 + 1), ∑ j, Real.exp (s (Fin.castLE h b) j - M') := by
      rw [Fin.sum_univ_castSucc (n := n + 1), Finset.mul_sum]
      simp only [hcs, hl]
      refine congrArg₂ (· + ·) ?_ rfl
      refine Finset.sum_congr rfl fun b _ => ?_
      rw [Finset.mul_sum]
      refine Finset.sum_congr rfl fun j _ => ?_
      exact exp_shift M M' _
    have e2 : Real.exp (M - M') *
          (∑ b : Fin (n + 1), ∑ j, Real.exp (s (Fin.castLE (Nat.le_of_succ_le h) b) j - M)
            * v (Fin.castLE (Nat.le_of_succ_le h) b) j)
          + ∑ j, Real.exp (s ⟨n + 1, h⟩ j - M') * v ⟨n + 1, h⟩ j
        = ∑ b : Fin (n + 1 + 1), ∑ j, Real.exp (s (Fin.castLE h b) j - M') * v (Fin.castLE h b) j := by
      rw [Fin.sum_univ_castSucc (n := n + 1), Finset.mul_sum]
      simp only [hcs, hl]
      refine congrArg₂ (· + ·) ?_ rfl
      refine Finset.sum_congr rfl fun b _ => ?_
      rw [Finset.mul_sum]
      refine Finset.sum_congr rfl fun j _ => ?_
      rw [← mul_assoc, exp_shift M M' _]
    rw [e1, e2]

/-! ### The quotient does not depend on the shift -/

/-- The quotient of the weighted sum by the denominator, both shifted by `M`, is the sum of the
    normalised weights shifted by `M'` times the values: a common factor `exp (M' - M)` cancels. -/
theorem quotient_shift (s v : Fin B → Fin C → ℝ) (M M' : ℝ) :
    (∑ b, ∑ j, Real.exp (s b j - M) * v b j) * (1 / ∑ b, ∑ j, Real.exp (s b j - M))
      = ∑ p : Fin B × Fin C,
          Real.exp (s p.1 p.2 - M') * (1 / ∑ q : Fin B × Fin C, Real.exp (s q.1 q.2 - M')) * v p.1 p.2 := by
  have hne : Real.exp (M' - M) ≠ 0 := (Real.exp_pos _).ne'
  have hA : ∑ b, ∑ j, Real.exp (s b j - M) * v b j
      = Real.exp (M' - M) * ∑ p : Fin B × Fin C, Real.exp (s p.1 p.2 - M') * v p.1 p.2 := by
    rw [Fintype.sum_prod_type, Finset.mul_sum]
    refine Finset.sum_congr rfl fun b _ => ?_
    rw [Finset.mul_sum]
    refine Finset.sum_congr rfl fun j _ => ?_
    rw [← mul_assoc, exp_shift M' M]
  have hL : ∑ b, ∑ j, Real.exp (s b j - M)
      = Real.exp (M' - M) * ∑ p : Fin B × Fin C, Real.exp (s p.1 p.2 - M') := by
    rw [Fintype.sum_prod_type, Finset.mul_sum]
    refine Finset.sum_congr rfl fun b _ => ?_
    rw [Finset.mul_sum]
    refine Finset.sum_congr rfl fun j _ => ?_
    rw [exp_shift M' M]
  have hR : ∑ p : Fin B × Fin C,
        Real.exp (s p.1 p.2 - M') * (1 / ∑ q : Fin B × Fin C, Real.exp (s q.1 q.2 - M')) * v p.1 p.2
      = (∑ p : Fin B × Fin C, Real.exp (s p.1 p.2 - M') * v p.1 p.2)
          * (1 / ∑ q : Fin B × Fin C, Real.exp (s q.1 q.2 - M')) := by
    rw [Finset.sum_mul]
    refine Finset.sum_congr rfl fun p _ => ?_
    ring
  rw [hA, hL, hR, one_div, one_div, mul_inv, mul_mul_mul_comm, mul_inv_cancel₀ hne, one_mul]

/-! ### The one-pass formula, in the reals -/

/-- The one-pass softmax-weighted sum of real scores and values is a real: the sum of the
    normalised weights, shifted by the maximum `M'` of all scores, times the values. -/
theorem whole_eq (hB : 0 < B) (hC : 0 < C) (s v : Fin B → Fin C → ℝ) :
    ∃ M' : ℝ, whole (fun b j => ((s b j : ℝ) : EReal)) (fun b j => ((v b j : ℝ) : EReal))
      = ((∑ p : Fin B × Fin C,
            Real.exp (s p.1 p.2 - M') * (1 / ∑ q : Fin B × Fin C, Real.exp (s q.1 q.2 - M')) * v p.1 p.2 : ℝ) :
          EReal) := by
  haveI : Nonempty (Fin B) := Fin.pos_iff_nonempty.mp hB
  haveI : Nonempty (Fin C) := Fin.pos_iff_nonempty.mp hC
  obtain ⟨M', hM', -⟩ := fold_max_coe_exists (fun p : Fin B × Fin C => s p.1 p.2)
  refine ⟨M', ?_⟩
  have hL : (∑ q : Fin B × Fin C, Real.exp (s q.1 q.2 - M')) ≠ 0 :=
    (Finset.sum_pos (fun q _ => Real.exp_pos _) Finset.univ_nonempty).ne'
  simp only [whole]
  rw [hM']
  simp_rw [← EReal.coe_sub, Ideal.exp_coe, ← coe_sum, Ideal.div_coe hL, ← EReal.coe_mul, ← coe_sum]

/-! ### The theorem -/

/-- The online softmax recurrence over all `B` blocks, its weighted sum divided by its denominator,
    is the one-pass softmax-weighted sum over all scores. -/
theorem online_eq_whole (hB : 0 < B) (hC : 0 < C) (s v : Fin B → Fin C → ℝ) :
    Ideal.div (run (fun b j => ((s b j : ℝ) : EReal)) (fun b j => ((v b j : ℝ) : EReal)) B le_rfl).2.2
              (run (fun b j => ((s b j : ℝ) : EReal)) (fun b j => ((v b j : ℝ) : EReal)) B le_rfl).2.1
      = whole (fun b j => ((s b j : ℝ) : EReal)) (fun b j => ((v b j : ℝ) : EReal)) := by
  obtain ⟨M', hW⟩ := whole_eq hB hC s v
  rw [hW]
  haveI : Nonempty (Fin C) := Fin.pos_iff_nonempty.mp hC
  obtain ⟨n, rfl⟩ : ∃ n, B = n + 1 := ⟨B - 1, by omega⟩
  obtain ⟨M, hM⟩ := run_eq hC s v n le_rfl
  rw [hM]
  simp only [Fin.castLE_refl]
  have hL : (∑ b : Fin (n + 1), ∑ j, Real.exp (s b j - M)) ≠ 0 :=
    (Finset.sum_pos (fun b _ => Finset.sum_pos (fun j _ => Real.exp_pos _) Finset.univ_nonempty)
      Finset.univ_nonempty).ne'
  rw [Ideal.div_coe hL, ← EReal.coe_mul, quotient_shift s v M M']

/-- The same for extended-real scores and values, when each of them is finite (neither `-∞` nor
    `+∞`): a finite extended real is a real. -/
theorem online_eq_whole_of_finite (hB : 0 < B) (hC : 0 < C) (S V : Fin B → Fin C → EReal)
    (hS : ∀ b j, S b j ≠ ⊥ ∧ S b j ≠ ⊤) (hV : ∀ b j, V b j ≠ ⊥ ∧ V b j ≠ ⊤) :
    Ideal.div (run S V B le_rfl).2.2 (run S V B le_rfl).2.1 = whole S V := by
  have eS : S = fun b j => (((S b j).toReal : ℝ) : EReal) := by
    funext b j
    exact (EReal.coe_toReal (hS b j).2 (hS b j).1).symm
  have eV : V = fun b j => (((V b j).toReal : ℝ) : EReal) := by
    funext b j
    exact (EReal.coe_toReal (hV b j).2 (hV b j).1).symm
  rw [eS, eV]
  exact online_eq_whole hB hC _ _

end OnlineSoftmax

end
-- ==== Proof.PayStep.lean ====
/-
  One tile of the online softmax, read off the tiled program's arithmetic at an index.

  For each of the 4 sequences of a tile the program holds a running maximum `m`, a running
  denominator `l` and, for each of the 256 features, a running weighted sum `a`.  Given the tile's 512
  scores of the sequence it takes their maximum from `-∞`, raises the running maximum to
  `m' = max m (that maximum)`, forms `alpha = exp (m - m')` and the weights `exp (score - m')`, and
  writes `m'`, `l * alpha + ∑ weights` and `a * alpha + ∑ weight * feature`.  Up to the order of the
  two factors of a product this is one step of the recurrence `OnlineSoftmax.step` on the 512 scores
  of the sequence and the 512 values of the feature.  The start values the program writes at the first
  tile are `-∞`, `0`, `0`.
-/
import proofs.«116815_j65094524338925_2_alg».proof.Proof.Gen.KernelIdeal.Skeleton
import proofs.«116815_j65094524338925_2_alg».proof.Proof.LibOnlineSoftmax
import Idealize.ShloMosaic.Lib.ValueIdx
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.ShloMosaic.ValueIdx

/-! ### Literals -/

/-- The word of the running maximum's start value is `-∞`. -/
theorem ofBits_neg_inf : Ideal.ofBits .f32 0xFF800000#32 = ⊥ := by simp [Ideal.ofBits, Ideal.ieee]

/-! ### The layout steps at an index -/

/-- A `[4, 1]` array given a trailing unit axis keeps its entries. -/
theorem unit_keep {α : Type} (v : S4x1.Idx → α) (h : S4x1.ShapeCasts S4x1x1) (p : Fin 4) (u u' : Fin 1) :
    shapeCast S4x1x1 v h (ix3 p u u') = v (ix2 p (0 : Fin 1)) :=
  shapeCast_apply v h _ _ (by
    rw [Shape.rowMajor_val_three, Shape.rowMajor_val_two]
    show p.val * 1 + 0 = (p.val * 1 + u.val) * 1 + u'.val
    omega)

/-- A `[4, 256]` array given a middle unit axis keeps its entries. -/
theorem mid_keep {α : Type} (v : S4x256.Idx → α) (h : S4x256.ShapeCasts S4x1x256) (p : Fin 4) (u : Fin 1) (c : Fin 256) :
    shapeCast S4x1x256 v h (ix3 p u c) = v (ix2 p c) :=
  shapeCast_apply v h _ _ (by
    rw [Shape.rowMajor_val_three, Shape.rowMajor_val_two]
    show p.val * 256 + c.val = (p.val * 1 + u.val) * 256 + c.val
    omega)

/-- One number per sequence repeated over the 512 rows. -/
theorem seq_bcast_rows {α : Type} (v : S4x1x1.Idx → α) (h : S4x1x1.Broadcasts S4x512x1) (p : Fin 4) (j : Fin 512) (u : Fin 1) :
    broadcastTo S4x512x1 v h (ix3 p j u) = v (ix3 p (0 : Fin 1) (0 : Fin 1)) := by
  refine broadcastTo_apply v h _ _ fun ax => ?_
  match ax with
  | ⟨0, _⟩ => rfl
  | ⟨1, _⟩ => rfl
  | ⟨2, _⟩ => rfl

/-- One number per sequence repeated over the 256 features. -/
theorem seq_bcast_feat {α : Type} (v : S4x1x1.Idx → α) (h : S4x1x1.Broadcasts S4x1x256) (p : Fin 4) (u : Fin 1) (c : Fin 256) :
    broadcastTo S4x1x256 v h (ix3 p u c) = v (ix3 p (0 : Fin 1) (0 : Fin 1)) := by
  refine broadcastTo_apply v h _ _ fun ax => ?_
  match ax with
  | ⟨0, _⟩ => rfl
  | ⟨1, _⟩ => rfl
  | ⟨2, _⟩ => rfl

/-- One number per row repeated over the 256 features. -/
theorem row_bcast_feat {α : Type} (v : S4x512x1.Idx → α) (h : S4x512x1.Broadcasts S4x512x256) (p : Fin 4) (j : Fin 512) (c : Fin 256) :
    broadcastTo S4x512x256 v h (ix3 p j c) = v (ix3 p j (0 : Fin 1)) := by
  refine broadcastTo_apply v h _ _ fun ax => ?_
  match ax with
  | ⟨0, _⟩ => rfl
  | ⟨1, _⟩ => rfl
  | ⟨2, _⟩ => rfl

/-! ### The reductions over the 512 rows -/

/-- The maximum from `-∞` over the rows of a `[4, 512, 1]` array. -/
theorem max_rows (src : FVec Ideal S4x512x1 .f32) (h : S4x512x1.Reduces [1] S4x1) (hφ : FKind.Formats .f32)
    (hacc : (0xFF800000#32 : BitVec 32) = FKind.maximumf.neutral .f32 hφ) (p : Fin 4) (u : Fin 1) :
    multiReduction .maximumf [1] S4x1 src 0xFF800000#32 h hφ hacc (ix2 p u)
      = Finset.univ.fold max ⊥ (fun j : Fin 512 => src (ix3 p j (0 : Fin 1))) := by
  rw [Ideal.multiReduction_maximumf_single]
  show Finset.univ.fold max (Ideal.ofBits .f32 0xFF800000#32) _ = _
  rw [ofBits_neg_inf]
  refine congrArg (Finset.univ.fold max ⊥) (funext fun j => congrArg src (funext fun a => Fin.ext ?_))
  match a with
  | ⟨0, _⟩ => rfl
  | ⟨1, _⟩ => rfl
  | ⟨2, _⟩ => exact (show u.val = 0 by omega)

/-- The sum over the rows of a `[4, 512, 1]` array. -/
theorem sum_rows_col (src : FVec Ideal S4x512x1 .f32) (h : S4x512x1.Reduces [1] S4x1) (hφ : FKind.Formats .f32)
    (hacc : (0x00000000#32 : BitVec 32) = FKind.add.neutral .f32 hφ) (p : Fin 4) (u : Fin 1) :
    multiReduction .add [1] S4x1 src 0x00000000#32 h hφ hacc (ix2 p u) = ∑ j : Fin 512, src (ix3 p j (0 : Fin 1)) := by
  rw [Ideal.multiReduction_add_single]
  refine Finset.sum_congr rfl fun j _ => congrArg src (funext fun a => Fin.ext ?_)
  match a with
  | ⟨0, _⟩ => rfl
  | ⟨1, _⟩ => rfl
  | ⟨2, _⟩ => exact (show u.val = 0 by omega)

/-- The sum over the rows of a `[4, 512, 256]` array. -/
theorem sum_rows (src : FVec Ideal S4x512x256 .f32) (h : S4x512x256.Reduces [1] S4x256) (hφ : FKind.Formats .f32)
    (hacc : (0x00000000#32 : BitVec 32) = FKind.add.neutral .f32 hφ) (p : Fin 4) (c : Fin 256) :
    multiReduction .add [1] S4x256 src 0x00000000#32 h hφ hacc (ix2 p c) = ∑ j : Fin 512, src (ix3 p j c) := by
  rw [Ideal.multiReduction_add_single]
  refine Finset.sum_congr rfl fun j _ => congrArg src (funext fun a => Fin.ext ?_)
  match a with
  | ⟨0, _⟩ => rfl
  | ⟨1, _⟩ => rfl
  | ⟨2, _⟩ => rfl

/-! ### The step -/

variable (x3 : Vec Ideal S4x512x256 .f32) (v30 : FVec Ideal S4x512x1 .f32) (m0 l0 : Vec Ideal S4x1x1 .f32)
  (a0 : Vec Ideal S4x1x256 .f32)

/-- The raised maximum of sequence `p`. -/
theorem pay8_apply (p : Fin 4) :
    Gen.k0_pay8 (F := Ideal) v30 m0 (ix3 p 0 0)
      = max (m0 (ix3 p 0 0)) (Finset.univ.fold max ⊥ (fun j : Fin 512 => v30 (ix3 p j 0))) := by
  unfold Gen.k0_pay8
  refine (maximumf_apply _ _ _).trans ?_
  refine congrArg (max (m0 (ix3 p 0 0))) ?_
  refine (unit_keep _ _ p 0 0).trans ?_
  exact max_rows v30 _ _ _ p 0

/-- The factor `alpha = exp (m - m')` of sequence `p`. -/
theorem pay9_apply (p : Fin 4) :
    Gen.k0_pay9 (F := Ideal) v30 m0 (ix3 p 0 0)
      = Ideal.exp (m0 (ix3 p 0 0) - max (m0 (ix3 p 0 0)) (Finset.univ.fold max ⊥ (fun j : Fin 512 => v30 (ix3 p j 0)))) := by
  unfold Gen.k0_pay9
  show Ideal.exp (m0 (ix3 p 0 0) - Gen.k0_pay8 (F := Ideal) v30 m0 (ix3 p 0 0)) = _
  rw [pay8_apply]

/-- The weight `exp (score - m')` of row `j` of sequence `p`. -/
theorem pay10_apply (p : Fin 4) (j : Fin 512) :
    Gen.k0_pay10 (F := Ideal) v30 m0 (ix3 p j 0)
      = Ideal.exp (v30 (ix3 p j 0) - max (m0 (ix3 p 0 0)) (Finset.univ.fold max ⊥ (fun j : Fin 512 => v30 (ix3 p j 0)))) := by
  unfold Gen.k0_pay10
  show Ideal.exp (v30 (ix3 p j 0) - broadcastTo S4x512x1 (Gen.k0_pay8 (F := Ideal) v30 m0) broadcasts_S4x1x1_S4x512x1 (ix3 p j 0)) = _
  rw [seq_bcast_rows, pay8_apply]

/-- The new running maximum is the step's first component (whatever the values and the other two
    components of the old state). -/
theorem pay13_apply (p : Fin 4) (v : Fin 512 → EReal) (l a : EReal) :
    Gen.k0_pay13 (F := Ideal) v30 m0 (ix3 p 0 0)
      = (OnlineSoftmax.step (fun j : Fin 512 => v30 (ix3 p j 0)) v (m0 (ix3 p 0 0), l, a)).1 := by
  unfold Gen.k0_pay13
  refine (congrFun (shapeCast_self _ _) _).trans ?_
  exact pay8_apply v30 m0 p

/-- The new running denominator is the step's second component. -/
theorem pay11_apply (p : Fin 4) (v : Fin 512 → EReal) (a : EReal) :
    Gen.k0_pay11 (F := Ideal) v30 m0 l0 (ix3 p 0 0)
      = (OnlineSoftmax.step (fun j : Fin 512 => v30 (ix3 p j 0)) v (m0 (ix3 p 0 0), l0 (ix3 p 0 0), a)).2.1 := by
  unfold Gen.k0_pay11
  refine (congrFun (shapeCast_self _ _) _).trans ?_
  refine (addf_apply _ _ _).trans ?_
  refine congrArg₂ (fun a b : EReal => a + b) ?_ ?_
  · refine (mulf_apply _ _ _).trans ?_
    rw [pay9_apply, mul_comm]
  · refine (unit_keep _ _ p 0 0).trans ?_
    refine (sum_rows_col _ _ _ _ p 0).trans ?_
    exact Finset.sum_congr rfl fun j _ => pay10_apply v30 m0 p j

/-- The new running weighted sum of feature `h` is the step's third component. -/
theorem pay12_apply (p : Fin 4) (h : Fin 256) (l : EReal) :
    Gen.k0_pay12 (F := Ideal) x3 v30 m0 a0 (ix3 p 0 h)
      = (OnlineSoftmax.step (fun j : Fin 512 => v30 (ix3 p j 0)) (fun j => x3 (ix3 p j h))
          (m0 (ix3 p 0 0), l, a0 (ix3 p 0 h))).2.2 := by
  unfold Gen.k0_pay12
  refine (congrFun (shapeCast_self _ _) _).trans ?_
  refine (addf_apply _ _ _).trans ?_
  refine congrArg₂ (fun a b : EReal => a + b) ?_ ?_
  · refine (mulf_apply _ _ _).trans ?_
    rw [seq_bcast_feat, pay9_apply, mul_comm]
  · refine (mid_keep _ _ p 0 h).trans ?_
    refine (sum_rows _ _ _ _ p h).trans ?_
    refine Finset.sum_congr rfl fun j _ => ?_
    refine (mulf_apply _ _ _).trans ?_
    rw [row_bcast_feat, pay10_apply]

/-- The three new scratch contents of sequence `p` and feature `h` are one step of the recurrence
    from the three old ones. -/
theorem step_apply (p : Fin 4) (h : Fin 256) :
    (Gen.k0_pay13 (F := Ideal) v30 m0 (ix3 p 0 0), Gen.k0_pay11 (F := Ideal) v30 m0 l0 (ix3 p 0 0),
        Gen.k0_pay12 (F := Ideal) x3 v30 m0 a0 (ix3 p 0 h))
      = OnlineSoftmax.step (fun j : Fin 512 => v30 (ix3 p j 0)) (fun j => x3 (ix3 p j h))
          (m0 (ix3 p 0 0), l0 (ix3 p 0 0), a0 (ix3 p 0 h)) :=
  Prod.ext (pay13_apply v30 m0 p _ _ _) (Prod.ext (pay11_apply v30 m0 l0 p _ _) (pay12_apply x3 v30 m0 a0 p h _))

/-! ### The start values -/

/-- The running maximum starts at `-∞`. -/
theorem pay3_apply (i : S4x1x1.Idx) : Gen.k0_pay3 (F := Ideal) i = ⊥ := by
  unfold Gen.k0_pay3
  refine (congrFun (shapeCast_self _ _) i).trans ?_
  exact ofBits_neg_inf

/-- The running denominator starts at `0`. -/
theorem pay4_apply (i : S4x1x1.Idx) : Gen.k0_pay4 (F := Ideal) i = 0 := by
  unfold Gen.k0_pay4
  refine (congrFun (shapeCast_self _ _) i).trans ?_
  exact Ideal.ofBits_zero_f32

/-- The running weighted sums start at `0`. -/
theorem pay5_apply (i : S4x1x256.Idx) : Gen.k0_pay5 (F := Ideal) i = 0 := by
  unfold Gen.k0_pay5
  refine (congrFun (shapeCast_self _ _) i).trans ?_
  exact Ideal.ofBits_zero_f32

end Cert.KernelIdeal.PayValue

end
-- ==== Proof.Spec.lean ====
/-
  The mathematics of the two programs, over plain functions of literal index types.

  Inputs: two arrays `T`, `A` of 64 sequences of 2048 rows of 256 features, a 256 x 256 matrix `W`, and two
  weight rows `w1`, `w2` of 256 entries (the two halves of the combining row).  The score of row `s` of
  sequence `b` is
      score b s = sum_k tanh (sum_h T b s h * W k h) * w1 k + sum_k tanh (sum_h A b s h * W k h) * w2 k.
  One program normalises the scores of a sequence by a softmax over its 2048 rows in one pass and then takes
  the weighted sum of the rows of `T`; the other reads the rows in 4 tiles of 512, carrying a running maximum,
  a running denominator and a running weighted sum that it rescales at every tile (the online softmax), and
  divides at the end by multiplying with the reciprocal of the denominator.
-/
import Mathlib.Data.EReal.Operations
import Idealize.ShloMosaic.PureOps.Ideal
import proofs.«116815_j65094524338925_2_alg».proof.Proof.LibOnlineSoftmax

noncomputable section

namespace Attn

open Idealize.ShloMosaic

/-- The projection of one row: `sum_h X b s h * W k h`. -/
def proj (X : Fin 64 → Fin 2048 → Fin 256 → EReal) (W : Fin 256 → Fin 256 → EReal)
    (b : Fin 64) (s : Fin 2048) (k : Fin 256) : EReal :=
  ∑ h : Fin 256, X b s h * W k h

/-- The score of row `s` of sequence `b`. -/
def score (T A : Fin 64 → Fin 2048 → Fin 256 → EReal) (W : Fin 256 → Fin 256 → EReal) (w1 w2 : Fin 256 → EReal)
    (b : Fin 64) (s : Fin 2048) : EReal :=
  (∑ k : Fin 256, Ideal.tanh (proj T W b s k) * w1 k) + (∑ k : Fin 256, Ideal.tanh (proj A W b s k) * w2 k)

/-- Row `j` of tile `n`: row `512 * n + j` of the sequence. -/
def row (n : Fin 4) (j : Fin 512) : Fin 2048 := ⟨512 * n.val + j.val, by omega⟩

/-- The scores of sequence `b` cut into 4 tiles of 512. -/
def tileScore (T A : Fin 64 → Fin 2048 → Fin 256 → EReal) (W : Fin 256 → Fin 256 → EReal) (w1 w2 : Fin 256 → EReal)
    (b : Fin 64) : Fin 4 → Fin 512 → EReal := fun n j => score T A W w1 w2 b (row n j)

/-- Feature `h` of the rows of sequence `b`, cut the same way. -/
def tileVal (T : Fin 64 → Fin 2048 → Fin 256 → EReal) (b : Fin 64) (h : Fin 256) : Fin 4 → Fin 512 → EReal :=
  fun n j => T b (row n j) h

/-- The online softmax state (running maximum, running denominator, running weighted sum of feature `h`) of
    sequence `b` after the first `n` tiles. -/
def state (T A : Fin 64 → Fin 2048 → Fin 256 → EReal) (W : Fin 256 → Fin 256 → EReal) (w1 w2 : Fin 256 → EReal)
    (b : Fin 64) (h : Fin 256) (n : ℕ) (hn : n ≤ 4) : EReal × EReal × EReal :=
  OnlineSoftmax.run (tileScore T A W w1 w2 b) (tileVal T b h) n hn

/-- The literal one of the tiled program. -/
def one : EReal := Ideal.ofBits .f32 0x3F800000#32

/-- The tiled program's maximum of sequence `b`. -/
def kMax (T A : Fin 64 → Fin 2048 → Fin 256 → EReal) (W : Fin 256 → Fin 256 → EReal) (w1 w2 : Fin 256 → EReal) (b : Fin 64) : EReal := (state T A W w1 w2 b 0 4 le_rfl).1
/-- The reciprocal of its denominator. -/
def kInv (T A : Fin 64 → Fin 2048 → Fin 256 → EReal) (W : Fin 256 → Fin 256 → EReal) (w1 w2 : Fin 256 → EReal) (b : Fin 64) : EReal := Ideal.div one (state T A W w1 w2 b 0 4 le_rfl).2.1
/-- The tiled program's weight of row `s` of sequence `b`. -/
def kWeight (T A : Fin 64 → Fin 2048 → Fin 256 → EReal) (W : Fin 256 → Fin 256 → EReal) (w1 w2 : Fin 256 → EReal) (b : Fin 64) (s : Fin 2048) : EReal :=
  Ideal.exp (score T A W w1 w2 b s - kMax T A W w1 w2 b) * kInv T A W w1 w2 b
/-- The tiled program's weighted sum of feature `h` of sequence `b`. -/
def kOut (T A : Fin 64 → Fin 2048 → Fin 256 → EReal) (W : Fin 256 → Fin 256 → EReal) (w1 w2 : Fin 256 → EReal) (b : Fin 64) (h : Fin 256) : EReal :=
  (state T A W w1 w2 b h 4 le_rfl).2.2 * kInv T A W w1 w2 b

/-- The one-pass program's maximum of sequence `b` (a fold of max from -inf, then max with -inf again). -/
def gMax (T A : Fin 64 → Fin 2048 → Fin 256 → EReal) (W : Fin 256 → Fin 256 → EReal) (w1 w2 : Fin 256 → EReal) (b : Fin 64) : EReal :=
  max ⊥ (Finset.univ.fold max ⊥ fun s : Fin 2048 => score T A W w1 w2 b s)
/-- Its weight of row `s`. -/
def gWeight (T A : Fin 64 → Fin 2048 → Fin 256 → EReal) (W : Fin 256 → Fin 256 → EReal) (w1 w2 : Fin 256 → EReal) (b : Fin 64) (s : Fin 2048) : EReal :=
  Ideal.div (Ideal.exp (score T A W w1 w2 b s - gMax T A W w1 w2 b))
    (∑ s' : Fin 2048, Ideal.exp (score T A W w1 w2 b s' - gMax T A W w1 w2 b))
/-- Its weighted sum of feature `h`. -/
def gOut (T A : Fin 64 → Fin 2048 → Fin 256 → EReal) (W : Fin 256 → Fin 256 → EReal) (w1 w2 : Fin 256 → EReal) (b : Fin 64) (h : Fin 256) : EReal :=
  ∑ s : Fin 2048, gWeight T A W w1 w2 b s * T b s h

end Attn

end
-- ==== Proof.PayFinal.lean ====
/-
  The last tile's division and the second region's weights, read off the tiled program's arithmetic
  at an index.

  When the last tile of a sequence has been read the program writes the reciprocal of the running
  denominator, `1 / l`, and each running weighted sum times that reciprocal.  The second region turns a
  score into a weight: `exp (score - maximum)` times the reciprocal, the maximum and the reciprocal
  being one number per sequence.
-/
import proofs.«116815_j65094524338925_2_alg».proof.Proof.Gen.KernelIdeal.Skeleton
import proofs.«116815_j65094524338925_2_alg».proof.Proof.Spec
import Idealize.ShloMosaic.Lib.ValueIdx
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.ShloMosaic.ValueIdx

/-- One number per sequence repeated over the 256 features (the reciprocal of the denominator). -/
theorem inv_bcast_feat {α : Type} (v : S4x1x1.Idx → α) (h : S4x1x1.Broadcasts S4x1x256) (p : Fin 4) (u : Fin 1) (c : Fin 256) :
    broadcastTo S4x1x256 v h (ix3 p u c) = v (ix3 p (0 : Fin 1) (0 : Fin 1)) := by
  refine broadcastTo_apply v h _ _ fun ax => ?_
  match ax with
  | ⟨0, _⟩ => rfl
  | ⟨1, _⟩ => rfl
  | ⟨2, _⟩ => rfl

/-- One number per sequence repeated over the 2048 rows. -/
theorem seq_bcast_all {α : Type} (v : S16x1x1.Idx → α) (h : S16x1x1.Broadcasts S16x1x2048) (q : Fin 16) (u : Fin 1) (s : Fin 2048) :
    broadcastTo S16x1x2048 v h (ix3 q u s) = v (ix3 q (0 : Fin 1) (0 : Fin 1)) := by
  refine broadcastTo_apply v h _ _ fun ax => ?_
  match ax with
  | ⟨0, _⟩ => rfl
  | ⟨1, _⟩ => rfl
  | ⟨2, _⟩ => rfl

/-- The reciprocal of the denominator, at every index. -/
theorem pay1_apply' (l : Vec Ideal S4x1x1 .f32) (i : S4x1x1.Idx) :
    Gen.k0_pay1 (F := Ideal) l i = Ideal.div Attn.one (l i) := by
  unfold Gen.k0_pay1
  rfl

/-- The reciprocal of the denominator of sequence `p`. -/
theorem pay1_apply (l : Vec Ideal S4x1x1 .f32) (p : Fin 4) :
    Gen.k0_pay1 (F := Ideal) l (ix3 p 0 0) = Ideal.div Attn.one (l (ix3 p 0 0)) :=
  pay1_apply' l _

/-- The weighted sum of feature `h` of sequence `p` times the reciprocal of the denominator. -/
theorem pay2_apply (l : Vec Ideal S4x1x1 .f32) (a : Vec Ideal S4x1x256 .f32) (p : Fin 4) (h : Fin 256) :
    Gen.k0_pay2 (F := Ideal) l a (ix3 p 0 h) = a (ix3 p 0 h) * Ideal.div Attn.one (l (ix3 p 0 0)) := by
  unfold Gen.k0_pay2
  refine (mulf_apply _ _ _).trans ?_
  rw [inv_bcast_feat, pay1_apply']

/-- The weight of row `s` of sequence `q` of a block of 16 sequences. -/
theorem k1_pay1_apply (v0 : Vec Ideal S16x1x2048 .f32) (v2 v4 : Vec Ideal S16x1x1 .f32) (q : Fin 16) (s : Fin 2048) :
    Gen.k1_pay1 (F := Ideal) v0 v2 v4 (ix3 q 0 s)
      = Ideal.exp (v0 (ix3 q 0 s) - v2 (ix3 q 0 0)) * v4 (ix3 q 0 0) := by
  unfold Gen.k1_pay1
  simp only [shapeCast_self]
  refine (mulf_apply _ _ _).trans ?_
  show Ideal.exp (v0 (ix3 q 0 s) - broadcastTo S16x1x2048 v2 broadcasts_S16x1x1_S16x1x2048 (ix3 q 0 s))
      * broadcastTo S16x1x2048 v4 broadcasts_S16x1x1_S16x1x2048 (ix3 q 0 s) = _
  rw [seq_bcast_all, seq_bcast_all]

end Cert.KernelIdeal.PayValue

end
-- ==== Proof.PaySpec.lean ====
/-
  The tiled program's arithmetic at an index, in the words of the specification.

  If the blocks a grid point reads hold the rows of tile `n` of sequence `b` (in slot `p` of the
  block), the transposed weight matrix and the two weight rows, then the score the program computes
  for row `r` is the specification's `tileScore`; if moreover the scratch buffers hold the
  specification's state after `n` tiles, the three new contents are its state after `n + 1` tiles;
  the start values are the state after no tile; and from the state after all 4 tiles the final
  division gives the specification's reciprocal, its weighted sum and its weights.
-/
import proofs.«116815_j65094524338925_2_alg».proof.Proof.PayScore
import proofs.«116815_j65094524338925_2_alg».proof.Proof.PayStep
import proofs.«116815_j65094524338925_2_alg».proof.Proof.PayFinal
import proofs.«116815_j65094524338925_2_alg».proof.Proof.Spec

noncomputable section

namespace Cert.KernelIdeal.PayValue

open Cert.KernelIdeal Cert.KernelIdeal.Gen Idealize.ShloMosaic Idealize.ShloMosaic.ValueIdx

variable (T A : Fin 64 → Fin 2048 → Fin 256 → EReal) (W : Fin 256 → Fin 256 → EReal) (w1 w2 : Fin 256 → EReal)

/-- The score of row `r` of slot `p` is the specification's score of row `r` of tile `n` of
    sequence `b`, when the blocks hold that tile's rows, the transposed weights and the weight rows. -/
theorem pay6_eq_tileScore (x3 x4 : Vec Ideal S4x512x256 .f32) (x7 : Vec Ideal S256x256 .f32) (x18 x20 : Vec Ideal S1x1x256 .f32)
    (b : Fin 64) (n : Fin 4) (p : Fin 4)
    (h3 : ∀ (r : Fin 512) (h : Fin 256), x3 (ix3 p r h) = T b (Attn.row n r) h)
    (h4 : ∀ (r : Fin 512) (h : Fin 256), x4 (ix3 p r h) = A b (Attn.row n r) h)
    (h7 : ∀ h k : Fin 256, x7 (ix2 h k) = W k h)
    (h18 : ∀ k : Fin 256, x18 (ix3 0 0 k) = w1 k) (h20 : ∀ k : Fin 256, x20 (ix3 0 0 k) = w2 k) (r : Fin 512) :
    Gen.k0_pay6 (F := Ideal) x3 x4 x7 x18 x20 (ix3 p r 0) = Attn.tileScore T A W w1 w2 b n r := by
  rw [pay6_apply]
  simp only [Attn.tileScore, Attn.score, Attn.proj, h3, h4, h7, h18, h20]

/-- The same for the copy of the scores laid along the last axis. -/
theorem pay7_eq_tileScore (x3 x4 : Vec Ideal S4x512x256 .f32) (x7 : Vec Ideal S256x256 .f32) (x18 x20 : Vec Ideal S1x1x256 .f32)
    (b : Fin 64) (n : Fin 4) (p : Fin 4)
    (h3 : ∀ (r : Fin 512) (h : Fin 256), x3 (ix3 p r h) = T b (Attn.row n r) h)
    (h4 : ∀ (r : Fin 512) (h : Fin 256), x4 (ix3 p r h) = A b (Attn.row n r) h)
    (h7 : ∀ h k : Fin 256, x7 (ix2 h k) = W k h)
    (h18 : ∀ k : Fin 256, x18 (ix3 0 0 k) = w1 k) (h20 : ∀ k : Fin 256, x20 (ix3 0 0 k) = w2 k) (r : Fin 512) :
    Gen.k0_pay7 (F := Ideal) x3 x4 x7 x18 x20 (ix3 p 0 r) = Attn.tileScore T A W w1 w2 b n r := by
  rw [pay7_apply]
  exact pay6_eq_tileScore T A W w1 w2 x3 x4 x7 x18 x20 b n p h3 h4 h7 h18 h20 r

/-- The start values are the state after no tile. -/
theorem start_eq_state (b : Fin 64) (h : Fin 256) (i i' : S4x1x1.Idx) (i'' : S4x1x256.Idx) :
    (Gen.k0_pay3 (F := Ideal) i, Gen.k0_pay4 (F := Ideal) i', Gen.k0_pay5 (F := Ideal) i'')
      = Attn.state T A W w1 w2 b h 0 (Nat.zero_le 4) := by
  rw [pay3_apply, pay4_apply, pay5_apply]
  rfl

/-- One tile: from the state after `n` tiles in the scratch buffers to the state after `n + 1`. -/
theorem step_eq_state (x3 : Vec Ideal S4x512x256 .f32) (v30 : FVec Ideal S4x512x1 .f32) (m0 l0 : Vec Ideal S4x1x1 .f32)
    (a0 : Vec Ideal S4x1x256 .f32) (b : Fin 64) (h : Fin 256) (p : Fin 4) (n : ℕ) (hn : n + 1 ≤ 4)
    (hs : ∀ j : Fin 512, v30 (ix3 p j 0) = Attn.tileScore T A W w1 w2 b ⟨n, hn⟩ j)
    (hv : ∀ j : Fin 512, x3 (ix3 p j h) = Attn.tileVal T b h ⟨n, hn⟩ j)
    (hst : (m0 (ix3 p 0 0), l0 (ix3 p 0 0), a0 (ix3 p 0 h)) = Attn.state T A W w1 w2 b h n (Nat.le_of_succ_le hn)) :
    (Gen.k0_pay13 (F := Ideal) v30 m0 (ix3 p 0 0), Gen.k0_pay11 (F := Ideal) v30 m0 l0 (ix3 p 0 0),
        Gen.k0_pay12 (F := Ideal) x3 v30 m0 a0 (ix3 p 0 h))
      = Attn.state T A W w1 w2 b h (n + 1) hn := by
  rw [step_apply, hst]
  unfold Attn.state
  rw [OnlineSoftmax.run_succ]
  congr 1
  · exact funext hs
  · exact funext hv

/-- The first tile: from the start values to the state after one tile. -/
theorem first_eq_state (x3 : Vec Ideal S4x512x256 .f32) (v30 : FVec Ideal S4x512x1 .f32) (b : Fin 64) (h : Fin 256) (p : Fin 4)
    (hs : ∀ j : Fin 512, v30 (ix3 p j 0) = Attn.tileScore T A W w1 w2 b ⟨0, by omega⟩ j)
    (hv : ∀ j : Fin 512, x3 (ix3 p j h) = Attn.tileVal T b h ⟨0, by omega⟩ j) :
    (Gen.k0_pay13 (F := Ideal) v30 (Gen.k0_pay3 (F := Ideal)) (ix3 p 0 0),
        Gen.k0_pay11 (F := Ideal) v30 (Gen.k0_pay3 (F := Ideal)) (Gen.k0_pay4 (F := Ideal)) (ix3 p 0 0),
        Gen.k0_pay12 (F := Ideal) x3 v30 (Gen.k0_pay3 (F := Ideal)) (Gen.k0_pay5 (F := Ideal)) (ix3 p 0 h))
      = Attn.state T A W w1 w2 b h 1 (by omega) :=
  step_eq_state T A W w1 w2 x3 v30 _ _ _ b h p 0 (by omega) hs hv (start_eq_state T A W w1 w2 b h _ _ _)

/-- The reciprocal of the denominator after all 4 tiles. -/
theorem pay1_eq_kInv (l : Vec Ideal S4x1x1 .f32) (b : Fin 64) (p : Fin 4)
    (hl : l (ix3 p 0 0) = (Attn.state T A W w1 w2 b 0 4 le_rfl).2.1) :
    Gen.k0_pay1 (F := Ideal) l (ix3 p 0 0) = Attn.kInv T A W w1 w2 b := by
  rw [pay1_apply, hl]
  rfl

/-- The weighted sum of feature `h` after all 4 tiles, divided. -/
theorem pay2_eq_kOut (l : Vec Ideal S4x1x1 .f32) (a : Vec Ideal S4x1x256 .f32) (b : Fin 64) (p : Fin 4) (h : Fin 256)
    (hl : l (ix3 p 0 0) = (Attn.state T A W w1 w2 b 0 4 le_rfl).2.1)
    (ha : a (ix3 p 0 h) = (Attn.state T A W w1 w2 b h 4 le_rfl).2.2) :
    Gen.k0_pay2 (F := Ideal) l a (ix3 p 0 h) = Attn.kOut T A W w1 w2 b h := by
  rw [pay2_apply, hl, ha]
  rfl

/-- The second region's weight of row `s` of sequence `b` (slot `q` of a block of 16 sequences). -/
theorem k1_pay1_eq_kWeight (v0 : Vec Ideal S16x1x2048 .f32) (v2 v4 : Vec Ideal S16x1x1 .f32) (b : Fin 64) (q : Fin 16) (s : Fin 2048)
    (h0 : v0 (ix3 q 0 s) = Attn.score T A W w1 w2 b s)
    (h2 : v2 (ix3 q 0 0) = Attn.kMax T A W w1 w2 b)
    (h4 : v4 (ix3 q 0 0) = Attn.kInv T A W w1 w2 b) :
    Gen.k1_pay1 (F := Ideal) v0 v2 v4 (ix3 q 0 s) = Attn.kWeight T A W w1 w2 b s := by
  rw [k1_pay1_apply, h0, h2, h4]
  rfl

end Cert.KernelIdeal.PayValue

end
-- ==== Proof.PayBlocks.lean ====
/-
  The blocks the two regions read, at coordinates.

  The first region runs over 16 x 4 grid points, point `t` being block row `t / 4` and tile
  `t % 4`.  Its text and aspect windows hold 4 sequences of 512 rows: slot `p`, row `r` of the
  block at point `t` is sequence `4 * (t / 4) + p`, row `512 * (t % 4) + r` of the array.  The weight
  block and the two weight rows are whole arrays.  The second region runs over 4 points; its blocks
  hold 16 sequences, slot `q` at point `t` being sequence `16 * t + q`.
-/
import proofs.«116815_j65094524338925_2_alg».proof.Proof.Gen.KernelIdeal.Launch
import Idealize.ShloMosaic.Lib.ValueIdx
import Idealize.ShloMosaic.Lib.Pipeline.Value

noncomputable section

namespace Cert.KernelIdeal.PayValue

open Cert.KernelIdeal Cert.KernelIdeal.Gen Idealize.ShloMosaic Idealize.ShloMosaic.TcCoe Idealize.ShloMosaic.ValueIdx

/-! ### The grid points -/

theorem point0_lt (t : Fin cfg0.N) : t.val < 64 := lt_of_lt_of_eq t.isLt N_0
theorem point1_lt (t : Fin cfg1.N) : t.val < 4 := lt_of_lt_of_eq t.isLt N_1

/-- The sequence of slot `p` at point `t` of the first region. -/
def seq0 (t : Fin cfg0.N) (p : Fin 4) : Fin 64 := ⟨4 * (t.val / 4) + p.val, by have := point0_lt t; omega⟩
/-- The tile of point `t` of the first region. -/
def tile0 (t : Fin cfg0.N) : Fin 4 := ⟨t.val % 4, by omega⟩
/-- Row `r` of the tile of point `t`, as a row of the sequence. -/
def row0 (t : Fin cfg0.N) (r : Fin 512) : Fin 2048 := ⟨512 * (t.val % 4) + r.val, by omega⟩
/-- The sequence of slot `q` at point `t` of the second region. -/
def seq1 (t : Fin cfg1.N) (q : Fin 16) : Fin 64 := ⟨16 * t.val + q.val, by have := point1_lt t; omega⟩

/-- The block indices of the first region's windows at point `t`, decided over the grid. -/
theorem idx_facts0 : ∀ t : Fin cfg0.N,
    (win0_0.index t (0 : Fin 3) = t.val / 4 ∧ win0_0.index t (1 : Fin 3) = t.val % 4 ∧ win0_0.index t (2 : Fin 3) = 0)
    ∧ (win0_1.index t (0 : Fin 3) = t.val / 4 ∧ win0_1.index t (1 : Fin 3) = t.val % 4 ∧ win0_1.index t (2 : Fin 3) = 0)
    ∧ (win0_2.index t (0 : Fin 2) = 0 ∧ win0_2.index t (1 : Fin 2) = 0)
    ∧ (win0_3.index t (0 : Fin 3) = 0 ∧ win0_3.index t (1 : Fin 3) = 0 ∧ win0_3.index t (2 : Fin 3) = 0)
    ∧ (win0_4.index t (0 : Fin 3) = 0 ∧ win0_4.index t (1 : Fin 3) = 0 ∧ win0_4.index t (2 : Fin 3) = 0)
    ∧ (win0_5.index t (0 : Fin 3) = t.val / 4 ∧ win0_5.index t (1 : Fin 3) = 0 ∧ win0_5.index t (2 : Fin 3) = t.val % 4)
    ∧ (win0_6.index t (0 : Fin 3) = t.val / 4 ∧ win0_6.index t (1 : Fin 3) = 0 ∧ win0_6.index t (2 : Fin 3) = 0)
    ∧ (win0_7.index t (0 : Fin 3) = t.val / 4 ∧ win0_7.index t (1 : Fin 3) = 0 ∧ win0_7.index t (2 : Fin 3) = 0)
    ∧ (win0_8.index t (0 : Fin 3) = t.val / 4 ∧ win0_8.index t (1 : Fin 3) = 0 ∧ win0_8.index t (2 : Fin 3) = 0) :=
  (by decide +kernel : ∀ t : Fin grid0.N, _)

/-- The block indices of the second region's windows at point `t`. -/
theorem idx_facts1 : ∀ t : Fin cfg1.N,
    (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 3) = t.val ∧ win1_2.index t (1 : Fin 3) = 0 ∧ win1_2.index t (2 : Fin 3) = 0)
    ∧ (win1_3.index t (0 : Fin 3) = t.val ∧ win1_3.index t (1 : Fin 3) = 0 ∧ win1_3.index t (2 : Fin 3) = 0) :=
  (by decide +kernel : ∀ t : Fin grid1.N, _)

/-! ### The first region's input blocks -/

/-- The text block at point `t`: slot `p`, row `r`, feature `h`. -/
theorem blk0_0_read (X : (⟨S64x2048x256, .f32⟩ : BufTy).Contents (Elt Ideal)) (t : Fin cfg0.N) (p : Fin 4) (r : Fin 512) (h : Fin 256) :
    ((cfg0.win 0).blk t).view.read (Elt Ideal) X (ix3 p r h) = X (ix3 (seq0 t p) (row0 t r) h) := by
  obtain ⟨⟨e0, e1, e2⟩, -⟩ := idx_facts0 t
  show X (((cfg0.win 0).blk t).view.emb (ix3 p r h)) = X _
  refine congrArg X (funext fun a => Fin.ext ?_)
  match a with
  | ⟨0, _⟩ => show win0_0.index t (0 : Fin 3) * 4 + 1 * p.val = 4 * (t.val / 4) + p.val; omega
  | ⟨1, _⟩ => show win0_0.index t (1 : Fin 3) * 512 + 1 * r.val = 512 * (t.val % 4) + r.val; omega
  | ⟨2, _⟩ => show win0_0.index t (2 : Fin 3) * 256 + 1 * h.val = h.val; omega

/-- The aspect block at point `t`. -/
theorem blk0_1_read (X : (⟨S64x2048x256, .f32⟩ : BufTy).Contents (Elt Ideal)) (t : Fin cfg0.N) (p : Fin 4) (r : Fin 512) (h : Fin 256) :
    ((cfg0.win 1).blk t).view.read (Elt Ideal) X (ix3 p r h) = X (ix3 (seq0 t p) (row0 t r) h) := by
  obtain ⟨-, ⟨e0, e1, e2⟩, -⟩ := idx_facts0 t
  show X (((cfg0.win 1).blk t).view.emb (ix3 p r h)) = X _
  refine congrArg X (funext fun a => Fin.ext ?_)
  match a with
  | ⟨0, _⟩ => show win0_1.index t (0 : Fin 3) * 4 + 1 * p.val = 4 * (t.val / 4) + p.val; omega
  | ⟨1, _⟩ => show win0_1.index t (1 : Fin 3) * 512 + 1 * r.val = 512 * (t.val % 4) + r.val; omega
  | ⟨2, _⟩ => show win0_1.index t (2 : Fin 3) * 256 + 1 * h.val = h.val; omega

/-- The weight block at any point is the whole prepared array. -/
theorem blk0_2_read (X : (⟨S256x256, .f32⟩ : BufTy).Contents (Elt Ideal)) (t : Fin cfg0.N) (h k : Fin 256) :
    ((cfg0.win 2).blk t).view.read (Elt Ideal) X (ix2 h k) = X (ix2 h k) := by
  obtain ⟨-, -, ⟨e0, e1⟩, -⟩ := idx_facts0 t
  show X (((cfg0.win 2).blk t).view.emb (ix2 h k)) = X _
  refine congrArg X (funext fun a => Fin.ext ?_)
  match a with
  | ⟨0, _⟩ => show win0_2.index t (0 : Fin 2) * 256 + 1 * h.val = h.val; omega
  | ⟨1, _⟩ => show win0_2.index t (1 : Fin 2) * 256 + 1 * k.val = k.val; omega

/-- The first weight row at any point is the whole prepared array. -/
theorem blk0_3_read (X : (⟨S1x1x256, .f32⟩ : BufTy).Contents (Elt Ideal)) (t : Fin cfg0.N) (k : Fin 256) :
    ((cfg0.win 3).blk t).view.read (Elt Ideal) X (ix3 (0 : Fin 1) (0 : Fin 1) k) = X (ix3 (0 : Fin 1) (0 : Fin 1) k) := by
  obtain ⟨-, -, -, ⟨e0, e1, e2⟩, -⟩ := idx_facts0 t
  show X (((cfg0.win 3).blk t).view.emb (ix3 (0 : Fin 1) (0 : Fin 1) k)) = X _
  refine congrArg X (funext fun a => Fin.ext ?_)
  match a with
  | ⟨0, _⟩ => show win0_3.index t (0 : Fin 3) * 1 + 1 * 0 = 0; omega
  | ⟨1, _⟩ => show win0_3.index t (1 : Fin 3) * 1 + 1 * 0 = 0; omega
  | ⟨2, _⟩ => show win0_3.index t (2 : Fin 3) * 256 + 1 * k.val = k.val; omega

/-- The second weight row at any point is the whole prepared array. -/
theorem blk0_4_read (X : (⟨S1x1x256, .f32⟩ : BufTy).Contents (Elt Ideal)) (t : Fin cfg0.N) (k : Fin 256) :
    ((cfg0.win 4).blk t).view.read (Elt Ideal) X (ix3 (0 : Fin 1) (0 : Fin 1) k) = X (ix3 (0 : Fin 1) (0 : Fin 1) k) := by
  obtain ⟨-, -, -, -, ⟨e0, e1, e2⟩, -⟩ := idx_facts0 t
  show X (((cfg0.win 4).blk t).view.emb (ix3 (0 : Fin 1) (0 : Fin 1) k)) = X _
  refine congrArg X (funext fun a => Fin.ext ?_)
  match a with
  | ⟨0, _⟩ => show win0_4.index t (0 : Fin 3) * 1 + 1 * 0 = 0; omega
  | ⟨1, _⟩ => show win0_4.index t (1 : Fin 3) * 1 + 1 * 0 = 0; omega
  | ⟨2, _⟩ => show win0_4.index t (2 : Fin 3) * 256 + 1 * k.val = k.val; omega

/-! ### The second region's input blocks -/

/-- The scores block at point `t`: slot `q`, row `s`. -/
theorem blk1_0_read (X : (⟨S64x1x2048, .f32⟩ : BufTy).Contents (Elt Ideal)) (t : Fin cfg1.N) (q : Fin 16) (s : Fin 2048) :
    ((cfg1.win 0).blk t).view.read (Elt Ideal) X (ix3 q (0 : Fin 1) s) = X (ix3 (seq1 t q) (0 : Fin 1) s) := by
  obtain ⟨⟨e0, e1, e2⟩, -⟩ := idx_facts1 t
  show X (((cfg1.win 0).blk t).view.emb (ix3 q (0 : Fin 1) s)) = X _
  refine congrArg X (funext fun a => Fin.ext ?_)
  match a with
  | ⟨0, _⟩ => show win1_0.index t (0 : Fin 3) * 16 + 1 * q.val = 16 * t.val + q.val; omega
  | ⟨1, _⟩ => show win1_0.index t (1 : Fin 3) * 1 + 1 * 0 = 0; omega
  | ⟨2, _⟩ => show win1_0.index t (2 : Fin 3) * 2048 + 1 * s.val = s.val; omega

/-- The maxima block at point `t`. -/
theorem blk1_1_read (X : (⟨S64x1x1, .f32⟩ : BufTy).Contents (Elt Ideal)) (t : Fin cfg1.N) (q : Fin 16) :
    ((cfg1.win 1).blk t).view.read (Elt Ideal) X (ix3 q (0 : Fin 1) (0 : Fin 1)) = X (ix3 (seq1 t q) (0 : Fin 1) (0 : Fin 1)) := by
  obtain ⟨-, ⟨e0, e1, e2⟩, -⟩ := idx_facts1 t
  show X (((cfg1.win 1).blk t).view.emb (ix3 q (0 : Fin 1) (0 : Fin 1))) = X _
  refine congrArg X (funext fun a => Fin.ext ?_)
  match a with
  | ⟨0, _⟩ => show win1_1.index t (0 : Fin 3) * 16 + 1 * q.val = 16 * t.val + q.val; omega
  | ⟨1, _⟩ => show win1_1.index t (1 : Fin 3) * 1 + 1 * 0 = 0; omega
  | ⟨2, _⟩ => show win1_1.index t (2 : Fin 3) * 1 + 1 * 0 = 0; omega

/-- The reciprocals block at point `t`. -/
theorem blk1_2_read (X : (⟨S64x1x1, .f32⟩ : BufTy).Contents (Elt Ideal)) (t : Fin cfg1.N) (q : Fin 16) :
    ((cfg1.win 2).blk t).view.read (Elt Ideal) X (ix3 q (0 : Fin 1) (0 : Fin 1)) = X (ix3 (seq1 t q) (0 : Fin 1) (0 : Fin 1)) := by
  obtain ⟨-, -, ⟨e0, e1, e2⟩, -⟩ := idx_facts1 t
  show X (((cfg1.win 2).blk t).view.emb (ix3 q (0 : Fin 1) (0 : Fin 1))) = X _
  refine congrArg X (funext fun a => Fin.ext ?_)
  match a with
  | ⟨0, _⟩ => show win1_2.index t (0 : Fin 3) * 16 + 1 * q.val = 16 * t.val + q.val; omega
  | ⟨1, _⟩ => show win1_2.index t (1 : Fin 3) * 1 + 1 * 0 = 0; omega
  | ⟨2, _⟩ => show win1_2.index t (2 : Fin 3) * 1 + 1 * 0 = 0; omega

end Cert.KernelIdeal.PayValue

end
-- ==== Proof.KI.R0State.lean ====
/-
  Region 0 on one core, point by point, in the words of the specification.

  Point `t` of the 16 x 4 grid is the block of sequences `4 * (t / 4) .. 4 * (t / 4) + 3` and tile `t % 4`.  The
  blocks the body reads there are rows of the two input arrays, the transposed weights and the two weight rows,
  so the scores it computes are the specification's scores of that tile.  By induction on the point, after the
  body at point `t` the three scratch buffers hold, for slot `p`, the specification's online-softmax state of
  sequence `4 * (t / 4) + p` after `t % 4 + 1` tiles: a first tile starts from the start values, a later tile
  continues from what the point before (same sequences, one tile earlier) left.  The score window holds the
  tile's scores, and at a last tile the three result windows hold the final maximum, the reciprocal of the final
  denominator and the normalised weighted sum.
-/
import proofs.«116815_j65094524338925_2_alg».proof.Proof.KI.R0Pieces
import proofs.«116815_j65094524338925_2_alg».proof.Proof.PaySpec
import proofs.«116815_j65094524338925_2_alg».proof.Proof.PayBlocks

set_option maxRecDepth 16384

noncomputable section

namespace Cert.KernelIdeal.HandValue

open Cert.KernelIdeal Cert.KernelIdeal.Gen Cert.KernelIdeal.Hand Cert.KernelIdeal.PayValue
open Idealize.ShloMosaic Idealize.ShloMosaic.TcCoe Idealize.ShloMosaic.ValueIdx
open Idealize.SL Idealize.SL.Sem

/-! ### Generalities -/

/-- The specification's state depends on the sequence and the number of tiles only. -/
theorem state_congr (T A : Fin 64 → Fin 2048 → Fin 256 → EReal) (W : Fin 256 → Fin 256 → EReal) (w1 w2 : Fin 256 → EReal)
    {b b' : Fin 64} (eb : b = b') (h : Fin 256) {n n' : ℕ} (e : n = n') (hn : n ≤ 4) (hn' : n' ≤ 4) :
    Attn.state T A W w1 w2 b h n hn = Attn.state T A W w1 w2 b' h n' hn' := by
  subst eb; subst e; rfl

/-- Three buffers read at three indices, along an equation of the buffers. -/
theorem triple_congr {X Y : Vec Ideal S4x1x1 .f32 × Vec Ideal S4x1x1 .f32 × Vec Ideal S4x1x256 .f32} (e : X = Y) (i i' : S4x1x1.Idx) (j : S4x1x256.Idx) :
    (X.1 i, X.2.1 i', X.2.2 j) = (Y.1 i, Y.2.1 i', Y.2.2 j) := by
  subst e; rfl

variable (V : (c : Dev nD) → (b : Ref sig .tc) → Buf (Elt Ideal) ((c : Thread nD τ).loc b)) (c : Dev nD)
  (T A : Fin 64 → Fin 2048 → Fin 256 → EReal) (W : Fin 256 → Fin 256 → EReal) (w1 w2 : Fin 256 → EReal)

/-- The five blocks the body reads at point `t`: rows of the two input arrays, the transposed weights, the two weight rows. -/
def B0 (t : Fin cfg0.N) : Vec Ideal S4x512x256 .f32 := iblk0 V c 0 t
def B1 (t : Fin cfg0.N) : Vec Ideal S4x512x256 .f32 := iblk0 V c 1 t
def B2 (t : Fin cfg0.N) : Vec Ideal S256x256 .f32 := iblk0 V c 2 t
def B3 (t : Fin cfg0.N) : Vec Ideal S1x1x256 .f32 := iblk0 V c 3 t
def B4 (t : Fin cfg0.N) : Vec Ideal S1x1x256 .f32 := iblk0 V c 4 t

/-- The tile's scores as the body computes them at point `t`. -/
def sc (t : Fin cfg0.N) : FVec Ideal S4x512x1 .f32 :=
  k0_pay6 (F := Ideal) (B0 V c t) (B1 V c t) (B2 V c t) (B3 V c t) (B4 V c t)

/-! ### What each case leaves, as the body's arithmetic of the blocks at the point -/

section Pieces

variable (t : Fin cfg0.N)

theorem caseA_5 (h0 : t.val % 4 = 0) : (caseA V c t h0).1 = k0_pay7 (F := Ideal) (B0 V c t) (B1 V c t) (B2 V c t) (B3 V c t) (B4 V c t) := by
  unfold caseA B0 B1 B2 B3 B4
  dsimp only
  exact out0_A_5_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => by have := (hcond0_1 t).mp h; omega) (iblk0 V c 0 t) (iblk0 V c 1 t) (iblk0 V c 2 t) (iblk0 V c 3 t) (iblk0 V c 4 t)
theorem caseA_s0 (h0 : t.val % 4 = 0) : (caseA V c t h0).2.2.2.2.1 = k0_pay13 (F := Ideal) (sc V c t) (k0_pay3 (F := Ideal)) := by
  unfold caseA sc B0 B1 B2 B3 B4
  dsimp only
  exact sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => by have := (hcond0_1 t).mp h; omega) (iblk0 V c 0 t) (iblk0 V c 1 t) (iblk0 V c 2 t) (iblk0 V c 3 t) (iblk0 V c 4 t)
theorem caseA_s1 (h0 : t.val % 4 = 0) :
    (caseA V c t h0).2.2.2.2.2.1 = k0_pay11 (F := Ideal) (sc V c t) (k0_pay3 (F := Ideal)) (k0_pay4 (F := Ideal)) := by
  unfold caseA sc B0 B1 B2 B3 B4
  dsimp only
  exact sout0_A_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => by have := (hcond0_1 t).mp h; omega) (iblk0 V c 0 t) (iblk0 V c 1 t) (iblk0 V c 2 t) (iblk0 V c 3 t) (iblk0 V c 4 t)
theorem caseA_s2 (h0 : t.val % 4 = 0) :
    (caseA V c t h0).2.2.2.2.2.2 = k0_pay12 (F := Ideal) (B0 V c t) (sc V c t) (k0_pay3 (F := Ideal)) (k0_pay5 (F := Ideal)) := by
  unfold caseA sc B0 B1 B2 B3 B4
  dsimp only
  exact sout0_A_2_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => by have := (hcond0_1 t).mp h; omega) (iblk0 V c 0 t) (iblk0 V c 1 t) (iblk0 V c 2 t) (iblk0 V c 3 t) (iblk0 V c 4 t)

variable (s : Vec Ideal S4x1x1 .f32 × Vec Ideal S4x1x1 .f32 × Vec Ideal S4x1x256 .f32)

theorem caseB_5 (h0 : ¬t.val % 4 = 0) (h1 : ¬t.val % 4 = 3) : (caseB V c t h0 h1 s).1 = k0_pay7 (F := Ideal) (B0 V c t) (B1 V c t) (B2 V c t) (B3 V c t) (B4 V c t) := by
  unfold caseB B0 B1 B2 B3 B4
  dsimp only
  exact out0_B_5_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) s.1 s.2.1 s.2.2
theorem caseB_s0 (h0 : ¬t.val % 4 = 0) (h1 : ¬t.val % 4 = 3) : (caseB V c t h0 h1 s).2.2.2.2.1 = k0_pay13 (F := Ideal) (sc V c t) s.1 := by
  unfold caseB sc B0 B1 B2 B3 B4
  dsimp only
  exact sout0_B_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) s.1 s.2.1 s.2.2
theorem caseB_s1 (h0 : ¬t.val % 4 = 0) (h1 : ¬t.val % 4 = 3) : (caseB V c t h0 h1 s).2.2.2.2.2.1 = k0_pay11 (F := Ideal) (sc V c t) s.1 s.2.1 := by
  unfold caseB sc B0 B1 B2 B3 B4
  dsimp only
  exact sout0_B_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) s.1 s.2.1 s.2.2
theorem caseB_s2 (h0 : ¬t.val % 4 = 0) (h1 : ¬t.val % 4 = 3) :
    (caseB V c t h0 h1 s).2.2.2.2.2.2 = k0_pay12 (F := Ideal) (B0 V c t) (sc V c t) s.1 s.2.2 := by
  unfold caseB sc B0 B1 B2 B3 B4
  dsimp only
  exact sout0_B_2_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) s.1 s.2.1 s.2.2

theorem caseC_5 (h0 : ¬t.val % 4 = 0) (h1 : t.val % 4 = 3) : (caseC V c t h0 h1 s).1 = k0_pay7 (F := Ideal) (B0 V c t) (B1 V c t) (B2 V c t) (B3 V c t) (B4 V c t) := by
  unfold caseC B0 B1 B2 B3 B4
  dsimp only
  exact out0_C_5_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) s.1 s.2.1 s.2.2
theorem caseC_6 (h0 : ¬t.val % 4 = 0) (h1 : t.val % 4 = 3) : (caseC V c t h0 h1 s).2.1 = k0_pay13 (F := Ideal) (sc V c t) s.1 := by
  unfold caseC sc B0 B1 B2 B3 B4
  dsimp only
  exact out0_C_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) s.1 s.2.1 s.2.2
theorem caseC_7 (h0 : ¬t.val % 4 = 0) (h1 : t.val % 4 = 3) :
    (caseC V c t h0 h1 s).2.2.1 = k0_pay1 (F := Ideal) (k0_pay11 (F := Ideal) (sc V c t) s.1 s.2.1) := by
  unfold caseC sc B0 B1 B2 B3 B4
  dsimp only
  exact out0_C_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) s.1 s.2.1 s.2.2
theorem caseC_8 (h0 : ¬t.val % 4 = 0) (h1 : t.val % 4 = 3) :
    (caseC V c t h0 h1 s).2.2.2.1
      = k0_pay2 (F := Ideal) (k0_pay11 (F := Ideal) (sc V c t) s.1 s.2.1) (k0_pay12 (F := Ideal) (B0 V c t) (sc V c t) s.1 s.2.2) := by
  unfold caseC sc B0 B1 B2 B3 B4
  dsimp only
  exact out0_C_8_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) s.1 s.2.1 s.2.2
theorem caseC_s0 (h0 : ¬t.val % 4 = 0) (h1 : t.val % 4 = 3) : (caseC V c t h0 h1 s).2.2.2.2.1 = k0_pay13 (F := Ideal) (sc V c t) s.1 := by
  unfold caseC sc B0 B1 B2 B3 B4
  dsimp only
  exact sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) s.1 s.2.1 s.2.2
theorem caseC_s1 (h0 : ¬t.val % 4 = 0) (h1 : t.val % 4 = 3) : (caseC V c t h0 h1 s).2.2.2.2.2.1 = k0_pay11 (F := Ideal) (sc V c t) s.1 s.2.1 := by
  unfold caseC sc B0 B1 B2 B3 B4
  dsimp only
  exact sout0_C_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) s.1 s.2.1 s.2.2
theorem caseC_s2 (h0 : ¬t.val % 4 = 0) (h1 : t.val % 4 = 3) :
    (caseC V c t h0 h1 s).2.2.2.2.2.2 = k0_pay12 (F := Ideal) (B0 V c t) (sc V c t) s.1 s.2.2 := by
  unfold caseC sc B0 B1 B2 B3 B4
  dsimp only
  exact sout0_C_2_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) s.1 s.2.1 s.2.2

end Pieces

/-- The scratch buffers after a first tile. -/
theorem scr_first (t : Fin cfg0.N) (h0 : t.val % 4 = 0) :
    scr (outsAt0 V c t.val t.isLt)
      = (k0_pay13 (F := Ideal) (sc V c t) (k0_pay3 (F := Ideal)),
          k0_pay11 (F := Ideal) (sc V c t) (k0_pay3 (F := Ideal)) (k0_pay4 (F := Ideal)),
          k0_pay12 (F := Ideal) (B0 V c t) (sc V c t) (k0_pay3 (F := Ideal)) (k0_pay5 (F := Ideal))) := by
  rw [outsAt0_A V c t h0]
  exact Prod.ext (caseA_s0 V c t h0) (Prod.ext (caseA_s1 V c t h0) (caseA_s2 V c t h0))

/-- The scratch buffers after a later tile, from those the point before left. -/
theorem scr_later (t : Fin cfg0.N) (h0 : ¬t.val % 4 = 0) :
    scr (outsAt0 V c t.val t.isLt)
      = (k0_pay13 (F := Ideal) (sc V c t) (scr (outsAt0 V c (t.val - 1) (Nat.lt_of_le_of_lt (Nat.sub_le _ _) t.isLt))).1,
          k0_pay11 (F := Ideal) (sc V c t) (scr (outsAt0 V c (t.val - 1) (Nat.lt_of_le_of_lt (Nat.sub_le _ _) t.isLt))).1
            (scr (outsAt0 V c (t.val - 1) (Nat.lt_of_le_of_lt (Nat.sub_le _ _) t.isLt))).2.1,
          k0_pay12 (F := Ideal) (B0 V c t) (sc V c t) (scr (outsAt0 V c (t.val - 1) (Nat.lt_of_le_of_lt (Nat.sub_le _ _) t.isLt))).1
            (scr (outsAt0 V c (t.val - 1) (Nat.lt_of_le_of_lt (Nat.sub_le _ _) t.isLt))).2.2) := by
  by_cases h1 : t.val % 4 = 3
  · rw [outsAt0_C V c t h0 h1]
    exact Prod.ext (caseC_s0 V c t _ h0 h1) (Prod.ext (caseC_s1 V c t _ h0 h1) (caseC_s2 V c t _ h0 h1))
  · rw [outsAt0_B V c t h0 h1]
    exact Prod.ext (caseB_s0 V c t _ h0 h1) (Prod.ext (caseB_s1 V c t _ h0 h1) (caseB_s2 V c t _ h0 h1))

/-! ### The blocks at a point hold the specification's rows -/

variable (hT : ∀ b s h, (V c main_arg0 : S64x2048x256.Idx → EReal) (ix3 b s h) = T b s h)
  (hA : ∀ b s h, (V c main_arg1 : S64x2048x256.Idx → EReal) (ix3 b s h) = A b s h)
  (hW : ∀ h k : Fin 256, (V c main_v0 : S256x256.Idx → EReal) (ix2 h k) = W k h)
  (hw1 : ∀ k : Fin 256, (V c main_v2 : S1x1x256.Idx → EReal) (ix3 (0 : Fin 1) (0 : Fin 1) k) = w1 k)
  (hw2 : ∀ k : Fin 256, (V c main_v4 : S1x1x256.Idx → EReal) (ix3 (0 : Fin 1) (0 : Fin 1) k) = w2 k)

include hT in
theorem x0_at (t : Fin cfg0.N) (p : Fin 4) (r : Fin 512) (h : Fin 256) :
    B0 V c t (ix3 p r h) = T (seq0 t p) (Attn.row (tile0 t) r) h := by
  unfold B0 iblk0
  exact (blk0_0_read _ t p r h).trans (hT _ _ _)

include hA in
theorem x1_at (t : Fin cfg0.N) (p : Fin 4) (r : Fin 512) (h : Fin 256) :
    B1 V c t (ix3 p r h) = A (seq0 t p) (Attn.row (tile0 t) r) h := by
  unfold B1 iblk0
  exact (blk0_1_read _ t p r h).trans (hA _ _ _)

include hW in
theorem x2_at (t : Fin cfg0.N) (h k : Fin 256) :
    B2 V c t (ix2 h k) = W k h := by
  unfold B2 iblk0
  exact (blk0_2_read _ t h k).trans (hW _ _)

include hw1 in
theorem x3_at (t : Fin cfg0.N) (k : Fin 256) :
    B3 V c t (ix3 (0 : Fin 1) (0 : Fin 1) k) = w1 k := by
  unfold B3 iblk0
  exact (blk0_3_read _ t k).trans (hw1 _)

include hw2 in
theorem x4_at (t : Fin cfg0.N) (k : Fin 256) :
    B4 V c t (ix3 (0 : Fin 1) (0 : Fin 1) k) = w2 k := by
  unfold B4 iblk0
  exact (blk0_4_read _ t k).trans (hw2 _)

include hT hA hW hw1 hw2

/-- The scores the body computes at point `t` are the specification's scores of the point's tile. -/
theorem sc_at (t : Fin cfg0.N) (p : Fin 4) (r : Fin 512) :
    sc V c t (ix3 p r (0 : Fin 1)) = Attn.tileScore T A W w1 w2 (seq0 t p) (tile0 t) r :=
  pay6_eq_tileScore T A W w1 w2 (B0 V c t) (B1 V c t) (B2 V c t) (B3 V c t) (B4 V c t) (seq0 t p) (tile0 t) p
    (x0_at V c T hT t p) (x1_at V c A hA t p) (x2_at V c W hW t) (x3_at V c w1 hw1 t) (x4_at V c w2 hw2 t) r

/-- The copy of the scores laid along the last axis. -/
theorem sc7_at (t : Fin cfg0.N) (p : Fin 4) (r : Fin 512) :
    k0_pay7 (F := Ideal) (B0 V c t) (B1 V c t) (B2 V c t) (B3 V c t) (B4 V c t) (ix3 p (0 : Fin 1) r) = Attn.tileScore T A W w1 w2 (seq0 t p) (tile0 t) r :=
  pay7_eq_tileScore T A W w1 w2 (B0 V c t) (B1 V c t) (B2 V c t) (B3 V c t) (B4 V c t) (seq0 t p) (tile0 t) p
    (x0_at V c T hT t p) (x1_at V c A hA t p) (x2_at V c W hW t) (x3_at V c w1 hw1 t) (x4_at V c w2 hw2 t) r

/-! ### The induction over the points -/

/-- After the body at position `n` the scratch buffers hold, for slot `p` and feature `h`, the
    specification's state of sequence `4 * (n / 4) + p` after `n % 4 + 1` tiles. -/
theorem state_inv : ∀ (n : ℕ) (hn : n < cfg0.N) (p : Fin 4) (h : Fin 256),
    ((scr (outsAt0 V c n hn)).1 (ix3 p (0 : Fin 1) (0 : Fin 1)), (scr (outsAt0 V c n hn)).2.1 (ix3 p (0 : Fin 1) (0 : Fin 1)),
        (scr (outsAt0 V c n hn)).2.2 (ix3 p (0 : Fin 1) h))
      = Attn.state T A W w1 w2 (seq0 ⟨n, hn⟩ p) h (n % 4 + 1) (by omega) := by
  intro n
  induction n using Nat.strong_induction_on with
  | _ n ih =>
    intro hn p h
    by_cases h0 : n % 4 = 0
    · refine (triple_congr (scr_first V c ⟨n, hn⟩ h0) _ _ _).trans ?_
      refine (first_eq_state T A W w1 w2 (B0 V c ⟨n, hn⟩) (sc V c ⟨n, hn⟩) (seq0 ⟨n, hn⟩ p) h p ?_ ?_).trans ?_
      · intro j
        refine (sc_at V c T A W w1 w2 hT hA hW hw1 hw2 ⟨n, hn⟩ p j).trans ?_
        exact congrArg (fun m => Attn.tileScore T A W w1 w2 (seq0 ⟨n, hn⟩ p) m j) (Fin.ext h0)
      · intro j
        refine (x0_at V c T hT ⟨n, hn⟩ p j h).trans ?_
        exact congrArg (fun m => T (seq0 ⟨n, hn⟩ p) (Attn.row m j) h) (Fin.ext h0)
      · exact state_congr T A W w1 w2 rfl h (by omega) _ _
    · have hn4 : n % 4 + 1 ≤ 4 := by omega
      have hprev := ih (n - 1) (by omega) (Nat.lt_of_le_of_lt (Nat.sub_le _ _) hn) p h
      refine (triple_congr (scr_later V c ⟨n, hn⟩ h0) _ _ _).trans ?_
      refine (step_eq_state T A W w1 w2 (B0 V c ⟨n, hn⟩) (sc V c ⟨n, hn⟩) _ _ _ (seq0 ⟨n, hn⟩ p) h p (n % 4) hn4
        ?_ ?_ ?_)
      · exact fun j => sc_at V c T A W w1 w2 hT hA hW hw1 hw2 ⟨n, hn⟩ p j
      · exact fun j => x0_at V c T hT ⟨n, hn⟩ p j h
      · refine hprev.trans (state_congr T A W w1 w2 (Fin.ext ?_) h (by omega) _ _)
        show 4 * ((n - 1) / 4) + p.val = 4 * (n / 4) + p.val
        omega

/-- The score window after the body at point `t` holds the scores of the point's tile. -/
theorem score_blk (t : Fin cfg0.N) (p : Fin 4) (r : Fin 512) :
    (outsAt0 V c t.val t.isLt).1 (ix3 p (0 : Fin 1) r)
      = Attn.score T A W w1 w2 (seq0 t p) (Attn.row (tile0 t) r) := by
  have e : (outsAt0 V c t.val t.isLt).1 = k0_pay7 (F := Ideal) (B0 V c t) (B1 V c t) (B2 V c t) (B3 V c t) (B4 V c t) := by
    by_cases h0 : t.val % 4 = 0
    · rw [outsAt0_A V c t h0]; exact caseA_5 V c t h0
    · by_cases h1 : t.val % 4 = 3
      · rw [outsAt0_C V c t h0 h1]; exact caseC_5 V c t _ h0 h1
      · rw [outsAt0_B V c t h0 h1]; exact caseB_5 V c t _ h0 h1
  rw [e]
  exact sc7_at V c T A W w1 w2 hT hA hW hw1 hw2 t p r

/-- At a last tile the three result windows hold the final maximum, the reciprocal of the final
    denominator and the normalised weighted sum of the block's sequences. -/
theorem final_blk (t : Fin cfg0.N) (h3 : t.val % 4 = 3) (p : Fin 4) (h : Fin 256) :
    (outsAt0 V c t.val t.isLt).2.1 (ix3 p (0 : Fin 1) (0 : Fin 1)) = Attn.kMax T A W w1 w2 (seq0 t p)
      ∧ (outsAt0 V c t.val t.isLt).2.2.1 (ix3 p (0 : Fin 1) (0 : Fin 1)) = Attn.kInv T A W w1 w2 (seq0 t p)
      ∧ (outsAt0 V c t.val t.isLt).2.2.2.1 (ix3 p (0 : Fin 1) h) = Attn.kOut T A W w1 w2 (seq0 t p) h := by
  have h0 : ¬t.val % 4 = 0 := by omega
  have hlt : t.val - 1 < cfg0.N := Nat.lt_of_le_of_lt (Nat.sub_le _ _) t.isLt
  -- the state after all four tiles, for any feature
  have hstate : ∀ h' : Fin 256,
      (k0_pay13 (F := Ideal) (sc V c t) (scr (outsAt0 V c (t.val - 1) hlt)).1 (ix3 p (0 : Fin 1) (0 : Fin 1)),
        k0_pay11 (F := Ideal) (sc V c t) (scr (outsAt0 V c (t.val - 1) hlt)).1 (scr (outsAt0 V c (t.val - 1) hlt)).2.1
          (ix3 p (0 : Fin 1) (0 : Fin 1)),
        k0_pay12 (F := Ideal) (B0 V c t) (sc V c t) (scr (outsAt0 V c (t.val - 1) hlt)).1 (scr (outsAt0 V c (t.val - 1) hlt)).2.2
          (ix3 p (0 : Fin 1) h'))
        = Attn.state T A W w1 w2 (seq0 t p) h' 4 le_rfl := by
    intro h'
    have hprev := state_inv V c T A W w1 w2 hT hA hW hw1 hw2 (t.val - 1) hlt p h'
    refine (step_eq_state T A W w1 w2 (B0 V c t) (sc V c t) _ _ _ (seq0 t p) h' p 3 le_rfl ?_ ?_ ?_)
    · intro j
      refine (sc_at V c T A W w1 w2 hT hA hW hw1 hw2 t p j).trans ?_
      exact congrArg (fun m => Attn.tileScore T A W w1 w2 (seq0 t p) m j) (Fin.ext h3)
    · intro j
      refine (x0_at V c T hT t p j h').trans ?_
      exact congrArg (fun m => T (seq0 t p) (Attn.row m j) h') (Fin.ext h3)
    · refine hprev.trans (state_congr T A W w1 w2 (Fin.ext ?_) h' (by omega) _ _)
      show 4 * ((t.val - 1) / 4) + p.val = 4 * (t.val / 4) + p.val
      omega
  have e6 := caseC_6 V c t (scr (outsAt0 V c (t.val - 1) hlt)) h0 h3
  have e7 := caseC_7 V c t (scr (outsAt0 V c (t.val - 1) hlt)) h0 h3
  have e8 := caseC_8 V c t (scr (outsAt0 V c (t.val - 1) hlt)) h0 h3
  rw [outsAt0_C V c t h0 h3, e6, e7, e8]
  refine ⟨?_, ?_, ?_⟩
  · exact congrArg (fun x => x.1) (hstate 0)
  · exact pay1_eq_kInv T A W w1 w2 _ (seq0 t p) p (congrArg (fun x => x.2.1) (hstate 0))
  · exact pay2_eq_kOut T A W w1 w2 _ _ (seq0 t p) p h (congrArg (fun x => x.2.1) (hstate 0))
      (congrArg (fun x => x.2.2) (hstate h))

end Cert.KernelIdeal.HandValue

end
-- ==== Proof.PayCover.lean ====
/-
  The blocks the two regions write, at coordinates, and that they fill their arrays.

  The first region writes, at every point, a block of 4 x 1 x 512 scores (slot `p`, row `r` of the
  block at point `t` is sequence `4 * (t / 4) + p`, row `512 * (t % 4) + r`), and at the last tile of
  each block row (`t % 4 = 3`) a block of 4 maxima, a block of 4 reciprocals and a block of
  4 x 256 weighted sums (slot `p` is sequence `4 * (t / 4) + p`).  The second region writes at
  each of its 4 points a block of 16 x 1 x 2048 weights.  Every entry of each array lies in the block of
  a point that writes it back: the point of its sequence's block row and of its row's tile.
-/
import proofs.«116815_j65094524338925_2_alg».proof.Proof.PayBlocks
import proofs.«116815_j65094524338925_2_alg».proof.Proof.Gen.KernelIdeal.Points

noncomputable section

namespace Cert.KernelIdeal.PayValue

open Cert.KernelIdeal Cert.KernelIdeal.Gen Idealize.ShloMosaic Idealize.ShloMosaic.TcCoe Idealize.ShloMosaic.ValueIdx

/-! ### The scores (window 5 of the first region) -/

/-- Slot `p`, row `r` of the scores block at point `t` sits at sequence `4 * (t / 4) + p`, row `512 * (t % 4) + r`. -/
theorem emb0_5 (t : Fin cfg0.N) (p : Fin 4) (u : Fin 1) (r : Fin 512) :
    ((cfg0.win 5).blk t).view.emb (ix3 p u r) = ix3 (seq0 t p) (0 : Fin 1) (row0 t r) := by
  obtain ⟨-, -, -, -, -, ⟨e0, e1, e2⟩, -⟩ := idx_facts0 t
  refine funext fun a => Fin.ext ?_
  match a with
  | ⟨0, _⟩ => show win0_5.index t (0 : Fin 3) * 4 + 1 * p.val = 4 * (t.val / 4) + p.val; omega
  | ⟨1, _⟩ => show win0_5.index t (1 : Fin 3) * 1 + 1 * u.val = 0; omega
  | ⟨2, _⟩ => show win0_5.index t (2 : Fin 3) * 512 + 1 * r.val = 512 * (t.val % 4) + r.val; omega

/-- The scores block at point `t` of an array `G`. -/
theorem blk0_5_read (G : (⟨S64x1x2048, .f32⟩ : BufTy).Contents (Elt Ideal)) (t : Fin cfg0.N) (p : Fin 4) (u : Fin 1) (r : Fin 512) :
    ((cfg0.win 5).blk t).view.read (Elt Ideal) G (ix3 p u r) = G (ix3 (seq0 t p) (0 : Fin 1) (row0 t r)) := by
  show G (((cfg0.win 5).blk t).view.emb (ix3 p u r)) = G _
  rw [emb0_5]

theorem mem_blk0_5 (t : Fin cfg0.N) (i : S64x1x2048.Idx) :
    i ∈ ((cfg0.win 5).blk t).view.set ↔ ∀ a : Fin 3, win0_5.index t a * S4x1x512.size a ≤ (i a).val ∧ (i a).val < win0_5.index t a * S4x1x512.size a + S4x1x512.size a := by
  show i ∈ ((View.whole main_v5_0).slice (win0_5.rect t)).set ↔ _
  rw [View.set_slice_whole, Rect.mem_set_unit]
  exact Iff.rfl

/-- Every entry of the scores array is written back by the point of its block row and tile. -/
theorem cover0_5 (i : S64x1x2048.Idx) :
    ∃ t : Fin cfg0.N, (cfg0.win 5).flush t = true ∧ i ∈ ((cfg0.win 5).blk t).view.set := by
  have hi0 : (i 0).val < 64 := (i 0).isLt
  have hi1 : (i 1).val < 1 := (i 1).isLt
  have hi2 : (i 2).val < 2048 := (i 2).isLt
  let t : Fin cfg0.N := ⟨4 * ((i 0).val / 4) + (i 2).val / 512, lt_of_lt_of_eq (by omega) N_0.symm⟩
  have ht : t.val = 4 * ((i 0).val / 4) + (i 2).val / 512 := rfl
  obtain ⟨-, -, -, -, -, ⟨e0, e1, e2⟩, -⟩ := idx_facts0 t
  refine ⟨t, flush0_5 t, ?_⟩
  rw [mem_blk0_5]
  intro a
  match a with
  | ⟨0, _⟩ => show win0_5.index t (0 : Fin 3) * 4 ≤ (i 0).val ∧ (i 0).val < win0_5.index t (0 : Fin 3) * 4 + 4; omega
  | ⟨1, _⟩ => show win0_5.index t (1 : Fin 3) * 1 ≤ (i 1).val ∧ (i 1).val < win0_5.index t (1 : Fin 3) * 1 + 1; omega
  | ⟨2, _⟩ => show win0_5.index t (2 : Fin 3) * 512 ≤ (i 2).val ∧ (i 2).val < win0_5.index t (2 : Fin 3) * 512 + 512; omega

/-! ### The maxima (window 6 of the first region) -/

theorem emb0_6 (t : Fin cfg0.N) (p : Fin 4) (u u' : Fin 1) :
    ((cfg0.win 6).blk t).view.emb (ix3 p u u') = ix3 (seq0 t p) (0 : Fin 1) (0 : Fin 1) := by
  obtain ⟨-, -, -, -, -, -, ⟨e0, e1, e2⟩, -⟩ := idx_facts0 t
  refine funext fun a => Fin.ext ?_
  match a with
  | ⟨0, _⟩ => show win0_6.index t (0 : Fin 3) * 4 + 1 * p.val = 4 * (t.val / 4) + p.val; omega
  | ⟨1, _⟩ => show win0_6.index t (1 : Fin 3) * 1 + 1 * u.val = 0; omega
  | ⟨2, _⟩ => show win0_6.index t (2 : Fin 3) * 1 + 1 * u'.val = 0; omega

theorem blk0_6_read (G : (⟨S64x1x1, .f32⟩ : BufTy).Contents (Elt Ideal)) (t : Fin cfg0.N) (p : Fin 4) (u u' : Fin 1) :
    ((cfg0.win 6).blk t).view.read (Elt Ideal) G (ix3 p u u') = G (ix3 (seq0 t p) (0 : Fin 1) (0 : Fin 1)) := by
  show G (((cfg0.win 6).blk t).view.emb (ix3 p u u')) = G _
  rw [emb0_6]

theorem mem_blk0_6 (t : Fin cfg0.N) (i : S64x1x1.Idx) :
    i ∈ ((cfg0.win 6).blk t).view.set ↔ ∀ a : Fin 3, win0_6.index t a * S4x1x1.size a ≤ (i a).val ∧ (i a).val < win0_6.index t a * S4x1x1.size a + S4x1x1.size a := by
  show i ∈ ((View.whole main_v5_1).slice (win0_6.rect t)).set ↔ _
  rw [View.set_slice_whole, Rect.mem_set_unit]
  exact Iff.rfl

/-- Every maximum is written back by the last point of its block row. -/
theorem cover0_6 (i : S64x1x1.Idx) :
    ∃ t : Fin cfg0.N, (cfg0.win 6).flush t = true ∧ i ∈ ((cfg0.win 6).blk t).view.set := by
  have hi0 : (i 0).val < 64 := (i 0).isLt
  have hi1 : (i 1).val < 1 := (i 1).isLt
  have hi2 : (i 2).val < 1 := (i 2).isLt
  let t : Fin cfg0.N := ⟨4 * ((i 0).val / 4) + 3, lt_of_lt_of_eq (by omega) N_0.symm⟩
  have ht : t.val = 4 * ((i 0).val / 4) + 3 := rfl
  obtain ⟨-, -, -, -, -, -, ⟨e0, e1, e2⟩, -⟩ := idx_facts0 t
  refine ⟨t, (flush0_6 t).mpr (by omega), ?_⟩
  rw [mem_blk0_6]
  intro a
  match a with
  | ⟨0, _⟩ => show win0_6.index t (0 : Fin 3) * 4 ≤ (i 0).val ∧ (i 0).val < win0_6.index t (0 : Fin 3) * 4 + 4; omega
  | ⟨1, _⟩ => show win0_6.index t (1 : Fin 3) * 1 ≤ (i 1).val ∧ (i 1).val < win0_6.index t (1 : Fin 3) * 1 + 1; omega
  | ⟨2, _⟩ => show win0_6.index t (2 : Fin 3) * 1 ≤ (i 2).val ∧ (i 2).val < win0_6.index t (2 : Fin 3) * 1 + 1; omega

/-! ### The reciprocals (window 7 of the first region) -/

theorem emb0_7 (t : Fin cfg0.N) (p : Fin 4) (u u' : Fin 1) :
    ((cfg0.win 7).blk t).view.emb (ix3 p u u') = ix3 (seq0 t p) (0 : Fin 1) (0 : Fin 1) := by
  obtain ⟨-, -, -, -, -, -, -, ⟨e0, e1, e2⟩, -⟩ := idx_facts0 t
  refine funext fun a => Fin.ext ?_
  match a with
  | ⟨0, _⟩ => show win0_7.index t (0 : Fin 3) * 4 + 1 * p.val = 4 * (t.val / 4) + p.val; omega
  | ⟨1, _⟩ => show win0_7.index t (1 : Fin 3) * 1 + 1 * u.val = 0; omega
  | ⟨2, _⟩ => show win0_7.index t (2 : Fin 3) * 1 + 1 * u'.val = 0; omega

theorem blk0_7_read (G : (⟨S64x1x1, .f32⟩ : BufTy).Contents (Elt Ideal)) (t : Fin cfg0.N) (p : Fin 4) (u u' : Fin 1) :
    ((cfg0.win 7).blk t).view.read (Elt Ideal) G (ix3 p u u') = G (ix3 (seq0 t p) (0 : Fin 1) (0 : Fin 1)) := by
  show G (((cfg0.win 7).blk t).view.emb (ix3 p u u')) = G _
  rw [emb0_7]

theorem mem_blk0_7 (t : Fin cfg0.N) (i : S64x1x1.Idx) :
    i ∈ ((cfg0.win 7).blk t).view.set ↔ ∀ a : Fin 3, win0_7.index t a * S4x1x1.size a ≤ (i a).val ∧ (i a).val < win0_7.index t a * S4x1x1.size a + S4x1x1.size a := by
  show i ∈ ((View.whole main_v5_2).slice (win0_7.rect t)).set ↔ _
  rw [View.set_slice_whole, Rect.mem_set_unit]
  exact Iff.rfl

/-- Every reciprocal is written back by the last point of its block row. -/
theorem cover0_7 (i : S64x1x1.Idx) :
    ∃ t : Fin cfg0.N, (cfg0.win 7).flush t = true ∧ i ∈ ((cfg0.win 7).blk t).view.set := by
  have hi0 : (i 0).val < 64 := (i 0).isLt
  have hi1 : (i 1).val < 1 := (i 1).isLt
  have hi2 : (i 2).val < 1 := (i 2).isLt
  let t : Fin cfg0.N := ⟨4 * ((i 0).val / 4) + 3, lt_of_lt_of_eq (by omega) N_0.symm⟩
  have ht : t.val = 4 * ((i 0).val / 4) + 3 := rfl
  obtain ⟨-, -, -, -, -, -, -, ⟨e0, e1, e2⟩, -⟩ := idx_facts0 t
  refine ⟨t, (flush0_7 t).mpr (by omega), ?_⟩
  rw [mem_blk0_7]
  intro a
  match a with
  | ⟨0, _⟩ => show win0_7.index t (0 : Fin 3) * 4 ≤ (i 0).val ∧ (i 0).val < win0_7.index t (0 : Fin 3) * 4 + 4; omega
  | ⟨1, _⟩ => show win0_7.index t (1 : Fin 3) * 1 ≤ (i 1).val ∧ (i 1).val < win0_7.index t (1 : Fin 3) * 1 + 1; omega
  | ⟨2, _⟩ => show win0_7.index t (2 : Fin 3) * 1 ≤ (i 2).val ∧ (i 2).val < win0_7.index t (2 : Fin 3) * 1 + 1; omega

/-! ### The weighted sums (window 8 of the first region) -/

theorem emb0_8 (t : Fin cfg0.N) (p : Fin 4) (u : Fin 1) (h : Fin 256) :
    ((cfg0.win 8).blk t).view.emb (ix3 p u h) = ix3 (seq0 t p) (0 : Fin 1) h := by
  obtain ⟨-, -, -, -, -, -, -, -, ⟨e0, e1, e2⟩⟩ := idx_facts0 t
  refine funext fun a => Fin.ext ?_
  match a with
  | ⟨0, _⟩ => show win0_8.index t (0 : Fin 3) * 4 + 1 * p.val = 4 * (t.val / 4) + p.val; omega
  | ⟨1, _⟩ => show win0_8.index t (1 : Fin 3) * 1 + 1 * u.val = 0; omega
  | ⟨2, _⟩ => show win0_8.index t (2 : Fin 3) * 256 + 1 * h.val = h.val; omega

theorem blk0_8_read (G : (⟨S64x1x256, .f32⟩ : BufTy).Contents (Elt Ideal)) (t : Fin cfg0.N) (p : Fin 4) (u : Fin 1) (h : Fin 256) :
    ((cfg0.win 8).blk t).view.read (Elt Ideal) G (ix3 p u h) = G (ix3 (seq0 t p) (0 : Fin 1) h) := by
  show G (((cfg0.win 8).blk t).view.emb (ix3 p u h)) = G _
  rw [emb0_8]

theorem mem_blk0_8 (t : Fin cfg0.N) (i : S64x1x256.Idx) :
    i ∈ ((cfg0.win 8).blk t).view.set ↔ ∀ a : Fin 3, win0_8.index t a * S4x1x256.size a ≤ (i a).val ∧ (i a).val < win0_8.index t a * S4x1x256.size a + S4x1x256.size a := by
  show i ∈ ((View.whole main_v5_3).slice (win0_8.rect t)).set ↔ _
  rw [View.set_slice_whole, Rect.mem_set_unit]
  exact Iff.rfl

/-- Every weighted sum is written back by the last point of its block row. -/
theorem cover0_8 (i : S64x1x256.Idx) :
    ∃ t : Fin cfg0.N, (cfg0.win 8).flush t = true ∧ i ∈ ((cfg0.win 8).blk t).view.set := by
  have hi0 : (i 0).val < 64 := (i 0).isLt
  have hi1 : (i 1).val < 1 := (i 1).isLt
  have hi2 : (i 2).val < 256 := (i 2).isLt
  let t : Fin cfg0.N := ⟨4 * ((i 0).val / 4) + 3, lt_of_lt_of_eq (by omega) N_0.symm⟩
  have ht : t.val = 4 * ((i 0).val / 4) + 3 := rfl
  obtain ⟨-, -, -, -, -, -, -, -, ⟨e0, e1, e2⟩⟩ := idx_facts0 t
  refine ⟨t, (flush0_8 t).mpr (by omega), ?_⟩
  rw [mem_blk0_8]
  intro a
  match a with
  | ⟨0, _⟩ => show win0_8.index t (0 : Fin 3) * 4 ≤ (i 0).val ∧ (i 0).val < win0_8.index t (0 : Fin 3) * 4 + 4; omega
  | ⟨1, _⟩ => show win0_8.index t (1 : Fin 3) * 1 ≤ (i 1).val ∧ (i 1).val < win0_8.index t (1 : Fin 3) * 1 + 1; omega
  | ⟨2, _⟩ => show win0_8.index t (2 : Fin 3) * 256 ≤ (i 2).val ∧ (i 2).val < win0_8.index t (2 : Fin 3) * 256 + 256; omega

/-! ### The weights (window 3 of the second region) -/

theorem emb1_3 (t : Fin cfg1.N) (q : Fin 16) (u : Fin 1) (s : Fin 2048) :
    ((cfg1.win 3).blk t).view.emb (ix3 q u s) = ix3 (seq1 t q) (0 : Fin 1) s := by
  obtain ⟨-, -, -, ⟨e0, e1, e2⟩⟩ := idx_facts1 t
  refine funext fun a => Fin.ext ?_
  match a with
  | ⟨0, _⟩ => show win1_3.index t (0 : Fin 3) * 16 + 1 * q.val = 16 * t.val + q.val; omega
  | ⟨1, _⟩ => show win1_3.index t (1 : Fin 3) * 1 + 1 * u.val = 0; omega
  | ⟨2, _⟩ => show win1_3.index t (2 : Fin 3) * 2048 + 1 * s.val = s.val; omega

theorem blk1_3_read (G : (⟨S64x1x2048, .f32⟩ : BufTy).Contents (Elt Ideal)) (t : Fin cfg1.N) (q : Fin 16) (u : Fin 1) (s : Fin 2048) :
    ((cfg1.win 3).blk t).view.read (Elt Ideal) G (ix3 q u s) = G (ix3 (seq1 t q) (0 : Fin 1) s) := by
  show G (((cfg1.win 3).blk t).view.emb (ix3 q u s)) = G _
  rw [emb1_3]

theorem mem_blk1_3 (t : Fin cfg1.N) (i : S64x1x2048.Idx) :
    i ∈ ((cfg1.win 3).blk t).view.set ↔ ∀ a : Fin 3, win1_3.index t a * S16x1x2048.size a ≤ (i a).val ∧ (i a).val < win1_3.index t a * S16x1x2048.size a + S16x1x2048.size a := by
  show i ∈ ((View.whole main_v6).slice (win1_3.rect t)).set ↔ _
  rw [View.set_slice_whole, Rect.mem_set_unit]
  exact Iff.rfl

/-- Every weight is written back by the point of its block of 16 sequences. -/
theorem cover1_3 (i : S64x1x2048.Idx) :
    ∃ t : Fin cfg1.N, (cfg1.win 3).flush t = true ∧ i ∈ ((cfg1.win 3).blk t).view.set := by
  have hi0 : (i 0).val < 64 := (i 0).isLt
  have hi1 : (i 1).val < 1 := (i 1).isLt
  have hi2 : (i 2).val < 2048 := (i 2).isLt
  let t : Fin cfg1.N := ⟨(i 0).val / 16, lt_of_lt_of_eq (by omega) N_1.symm⟩
  have ht : t.val = (i 0).val / 16 := rfl
  obtain ⟨-, -, -, ⟨e0, e1, e2⟩⟩ := idx_facts1 t
  refine ⟨t, flush1_3 t, ?_⟩
  rw [mem_blk1_3]
  intro a
  match a with
  | ⟨0, _⟩ => show win1_3.index t (0 : Fin 3) * 16 ≤ (i 0).val ∧ (i 0).val < win1_3.index t (0 : Fin 3) * 16 + 16; omega
  | ⟨1, _⟩ => show win1_3.index t (1 : Fin 3) * 1 ≤ (i 1).val ∧ (i 1).val < win1_3.index t (1 : Fin 3) * 1 + 1; omega
  | ⟨2, _⟩ => show win1_3.index t (2 : Fin 3) * 2048 ≤ (i 2).val ∧ (i 2).val < win1_3.index t (2 : Fin 3) * 2048 + 2048; omega

end Cert.KernelIdeal.PayValue

end
-- ==== Proof.KI.Arrays0.lean ====
/-
  The four arrays the first region leaves, as functions of the inputs.

  Given that what each grid point leaves in its result blocks is, entry by entry, the specification's
  value for the sequence and row the entry stands for — the score of row `512 * (t % 4) + r` of sequence
  `4 * (t / 4) + p` at every point, and at the last tile of a block row the maximum, the reciprocal
  of the denominator and the weighted sums of that sequence — the arrays after all write-backs hold
  the specification's score, maximum, reciprocal and weighted sum at every index: each entry lies in
  the block of a point that writes it back, and every point that covers it writes the same value.
-/
import proofs.«116815_j65094524338925_2_alg».proof.Proof.KI.R0Dat
import proofs.«116815_j65094524338925_2_alg».proof.Proof.PayCover
import proofs.«116815_j65094524338925_2_alg».proof.Proof.Spec
import Idealize.ShloMosaic.Lib.Pipeline.Value

noncomputable section

namespace Cert.KernelIdeal.HandValue

open Cert.KernelIdeal Cert.KernelIdeal.Gen Cert.KernelIdeal.Hand Cert.KernelIdeal.PayValue
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b)) (c : Dev nD)
  (T A : Fin 64 → Fin 2048 → Fin 256 → EReal) (W : Fin 256 → Fin 256 → EReal) (w1 w2 : Fin 256 → EReal)

/-- Row `r` of the tile of point `t` is the specification's row `r` of tile `t % 4`. -/
theorem row0_eq (t : Fin cfg0.N) (r : Fin 512) : row0 t r = Attn.row (tile0 t) r := rfl

/-- The scores array. -/
theorem arr5
    (hS2 : ∀ (t : Fin cfg0.N) (p : Fin 4) (r : Fin 512),
      (outsAt0 V c t.val t.isLt).1 (ix3 p 0 r) = Attn.score T A W w1 w2 (seq0 t p) (Attn.row (tile0 t) r)) :
    (dat0 V c).arrAt 5 cfg0.N = (fun i => Attn.score T A W w1 w2 (i 0) (i 2) : S64x1x2048.Idx → EReal) := by
  refine (dat0 V c).arrAt_eq_of_cover 5 (fun i : S64x1x2048.Idx => (Attn.score T A W w1 w2 (i 0) (i 2) : EReal)) (fun t _ => ?_) cover0_5
  show (cfg0.win 5).cut (grid0.coords t) ((dat0 V c).after 5 t) = _
  rw [after0_5]
  refine funext fun (y : S4x1x512.Idx) => ?_
  obtain ⟨p, u, r, rfl⟩ : ∃ (p : Fin 4) (u : Fin 1) (r : Fin 512), y = ix3 p u r := ⟨y 0, y 1, y 2, eq_ix3 y⟩
  obtain rfl : u = 0 := Subsingleton.elim _ _
  refine (hS2 t p r).trans ?_
  exact (blk0_5_read (fun i : S64x1x2048.Idx => (Attn.score T A W w1 w2 (i 0) (i 2) : EReal)) t p 0 r).symm

/-- The maxima array. -/
theorem arr6
    (hS3 : ∀ (t : Fin cfg0.N) (_ : t.val % 4 = 3) (p : Fin 4),
      (outsAt0 V c t.val t.isLt).2.1 (ix3 p 0 0) = Attn.kMax T A W w1 w2 (seq0 t p)) :
    (dat0 V c).arrAt 6 cfg0.N = (fun i => Attn.kMax T A W w1 w2 (i 0) : S64x1x1.Idx → EReal) := by
  refine (dat0 V c).arrAt_eq_of_cover 6 (fun i : S64x1x1.Idx => (Attn.kMax T A W w1 w2 (i 0) : EReal)) (fun t hf => ?_) cover0_6
  have h3 : t.val % 4 = 3 := (flush0_6 t).mp hf
  show (cfg0.win 6).cut (grid0.coords t) ((dat0 V c).after 6 t) = _
  rw [after0_6]
  refine funext fun (y : S4x1x1.Idx) => ?_
  obtain ⟨p, u, u', rfl⟩ : ∃ (p : Fin 4) (u u' : Fin 1), y = ix3 p u u' := ⟨y 0, y 1, y 2, eq_ix3 y⟩
  obtain rfl : u = 0 := Subsingleton.elim _ _
  obtain rfl : u' = 0 := Subsingleton.elim _ _
  refine (hS3 t h3 p).trans ?_
  exact (blk0_6_read (fun i : S64x1x1.Idx => (Attn.kMax T A W w1 w2 (i 0) : EReal)) t p 0 0).symm

/-- The reciprocals array. -/
theorem arr7
    (hS3 : ∀ (t : Fin cfg0.N) (_ : t.val % 4 = 3) (p : Fin 4),
      (outsAt0 V c t.val t.isLt).2.2.1 (ix3 p 0 0) = Attn.kInv T A W w1 w2 (seq0 t p)) :
    (dat0 V c).arrAt 7 cfg0.N = (fun i => Attn.kInv T A W w1 w2 (i 0) : S64x1x1.Idx → EReal) := by
  refine (dat0 V c).arrAt_eq_of_cover 7 (fun i : S64x1x1.Idx => (Attn.kInv T A W w1 w2 (i 0) : EReal)) (fun t hf => ?_) cover0_7
  have h3 : t.val % 4 = 3 := (flush0_7 t).mp hf
  show (cfg0.win 7).cut (grid0.coords t) ((dat0 V c).after 7 t) = _
  rw [after0_7]
  refine funext fun (y : S4x1x1.Idx) => ?_
  obtain ⟨p, u, u', rfl⟩ : ∃ (p : Fin 4) (u u' : Fin 1), y = ix3 p u u' := ⟨y 0, y 1, y 2, eq_ix3 y⟩
  obtain rfl : u = 0 := Subsingleton.elim _ _
  obtain rfl : u' = 0 := Subsingleton.elim _ _
  refine (hS3 t h3 p).trans ?_
  exact (blk0_7_read (fun i : S64x1x1.Idx => (Attn.kInv T A W w1 w2 (i 0) : EReal)) t p 0 0).symm

/-- The weighted sums array. -/
theorem arr8
    (hS3 : ∀ (t : Fin cfg0.N) (_ : t.val % 4 = 3) (p : Fin 4) (h : Fin 256),
      (outsAt0 V c t.val t.isLt).2.2.2.1 (ix3 p 0 h) = Attn.kOut T A W w1 w2 (seq0 t p) h) :
    (dat0 V c).arrAt 8 cfg0.N = (fun i => Attn.kOut T A W w1 w2 (i 0) (i 2) : S64x1x256.Idx → EReal) := by
  refine (dat0 V c).arrAt_eq_of_cover 8 (fun i : S64x1x256.Idx => (Attn.kOut T A W w1 w2 (i 0) (i 2) : EReal)) (fun t hf => ?_) cover0_8
  have h3 : t.val % 4 = 3 := (flush0_8 t).mp hf
  show (cfg0.win 8).cut (grid0.coords t) ((dat0 V c).after 8 t) = _
  rw [after0_8]
  refine funext fun (y : S4x1x256.Idx) => ?_
  obtain ⟨p, u, h, rfl⟩ : ∃ (p : Fin 4) (u : Fin 1) (h : Fin 256), y = ix3 p u h := ⟨y 0, y 1, y 2, eq_ix3 y⟩
  obtain rfl : u = 0 := Subsingleton.elim _ _
  refine (hS3 t h3 p h).trans ?_
  exact (blk0_8_read (fun i : S64x1x256.Idx => (Attn.kOut T A W w1 w2 (i 0) (i 2) : EReal)) t p 0 h).symm

/-- The three arrays of the last tile at once, from the hypothesis in its combined form. -/
theorem arr678
    (hS3 : ∀ (t : Fin cfg0.N) (_ : t.val % 4 = 3) (p : Fin 4) (h : Fin 256),
      (outsAt0 V c t.val t.isLt).2.1 (ix3 p 0 0) = Attn.kMax T A W w1 w2 (seq0 t p)
      ∧ (outsAt0 V c t.val t.isLt).2.2.1 (ix3 p 0 0) = Attn.kInv T A W w1 w2 (seq0 t p)
      ∧ (outsAt0 V c t.val t.isLt).2.2.2.1 (ix3 p 0 h) = Attn.kOut T A W w1 w2 (seq0 t p) h) :
    (dat0 V c).arrAt 6 cfg0.N = (fun i => Attn.kMax T A W w1 w2 (i 0) : S64x1x1.Idx → EReal)
    ∧ (dat0 V c).arrAt 7 cfg0.N = (fun i => Attn.kInv T A W w1 w2 (i 0) : S64x1x1.Idx → EReal)
    ∧ (dat0 V c).arrAt 8 cfg0.N = (fun i => Attn.kOut T A W w1 w2 (i 0) (i 2) : S64x1x256.Idx → EReal) :=
  ⟨arr6 V c T A W w1 w2 (fun t h3 p => (hS3 t h3 p 0).1),
   arr7 V c T A W w1 w2 (fun t h3 p => (hS3 t h3 p 0).2.1),
   arr8 V c T A W w1 w2 (fun t h3 p h => (hS3 t h3 p h).2.2)⟩

end Cert.KernelIdeal.HandValue

end
-- ==== Proof.KI.Arrays1.lean ====
/-
  The array of weights the second region leaves, as a function of the inputs.

  The second region reads the scores, the maxima and the reciprocals of the denominators in blocks
  of 16 sequences and writes, for every row of every sequence of the block,
  `exp (score - maximum) * reciprocal`.  When the three arrays it reads hold the specification's
  score, maximum and reciprocal at every index, the array it leaves holds the specification's weight
  at every index: slot `q` of the block at point `t` is sequence `16 * t + q`, and the four blocks
  fill the array.
-/
import proofs.«116815_j65094524338925_2_alg».proof.Proof.KI.R1
import proofs.«116815_j65094524338925_2_alg».proof.Proof.PaySpec
import proofs.«116815_j65094524338925_2_alg».proof.Proof.PayCover
import Idealize.ShloMosaic.Lib.Pipeline.Value

noncomputable section

namespace Cert.KernelIdeal.HandValue

open Cert.KernelIdeal Cert.KernelIdeal.Gen Cert.KernelIdeal.Hand Cert.KernelIdeal.PayValue
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b)) (c : Dev nD)
  (T A : Fin 64 → Fin 2048 → Fin 256 → EReal) (W : Fin 256 → Fin 256 → EReal) (w1 w2 : Fin 256 → EReal)

theorem zero_offsets3 : (![0, 0, 0] : Fin 3 → Nat) = fun _ => 0 := by
  funext a; match a with | ⟨0, _⟩ => rfl | ⟨1, _⟩ => rfl | ⟨2, _⟩ => rfl

/-- The weights array. -/
theorem arrW
    (h0 : (V c main_v5_0 : S64x1x2048.Idx → EReal) = fun i => Attn.score T A W w1 w2 (i 0) (i 2))
    (h1 : (V c main_v5_1 : S64x1x1.Idx → EReal) = fun i => Attn.kMax T A W w1 w2 (i 0))
    (h2 : (V c main_v5_2 : S64x1x1.Idx → EReal) = fun i => Attn.kInv T A W w1 w2 (i 0)) :
    (dat1 V c).arrAt 3 cfg1.N = (fun i => Attn.kWeight T A W w1 w2 (i 0) (i 2) : S64x1x2048.Idx → EReal) := by
  refine (dat1 V c).arrAt_eq_of_cover 3 (fun i : S64x1x2048.Idx => (Attn.kWeight T A W w1 w2 (i 0) (i 2) : EReal)) (fun t _ => ?_) cover1_3
  show (cfg1.win 3).cut (grid1.coords t) ((dat1 V c).after 3 t) = _
  rw [after1_3]
  unfold out1_3
  rw [View.canon_unit_zero zero_offsets3]
  simp only [View.ld_unit_zero (S := S16x1x2048) zero_offsets3, View.ld_unit_zero (S := S16x1x1) zero_offsets3]
  refine funext fun (y : S16x1x2048.Idx) => ?_
  obtain ⟨q, u, s, rfl⟩ : ∃ (q : Fin 16) (u : Fin 1) (s : Fin 2048), y = ix3 q u s := ⟨y 0, y 1, y 2, eq_ix3 y⟩
  obtain rfl : u = 0 := Subsingleton.elim _ _
  refine (k1_pay1_eq_kWeight T A W w1 w2 (iblk1 V c 0 t) (iblk1 V c 1 t) (iblk1 V c 2 t) (seq1 t q) q s ?_ ?_ ?_).trans ?_
  · exact (blk1_0_read (V c main_v5_0) t q s).trans (congrFun h0 _)
  · exact (blk1_1_read (V c main_v5_1) t q).trans (congrFun h1 _)
  · exact (blk1_2_read (V c main_v5_2) t q).trans (congrFun h2 _)
  · exact (blk1_3_read (fun i : S64x1x2048.Idx => (Attn.kWeight T A W w1 w2 (i 0) (i 2) : EReal)) t q 0 s).symm

end Cert.KernelIdeal.HandValue

end
-- ==== Proof.Curry.lean ====
/-
  Arrays indexed by a shape's index, read as curried functions of their coordinates.

  The two programs hold their inputs as arrays over an index of a literal shape; the mathematics in the
  specification is written over functions of the separate coordinates.  These adapters pass from the first
  form to the second: a rank-3 array of shape 64 x 2048 x 256, a matrix of shape 256 x 256, and the two
  halves (entries 0..255 and 256..511) of a single row of 512 entries.
-/
import proofs.«116815_j65094524338925_2_alg».proof.Proof.Spec
import Idealize.ShloMosaic.Lib.ValueIdx

noncomputable section

namespace Attn

open Idealize.ShloMosaic

/-- A 64 x 2048 x 256 array as a function of its three coordinates. -/
def cur3 (x : (⟨3, ![64, 2048, 256]⟩ : Shape).Idx → EReal) : Fin 64 → Fin 2048 → Fin 256 → EReal :=
  fun b s h => x (ValueIdx.ix3 b s h)

/-- A 256 x 256 matrix as a function of its two coordinates. -/
def cur2 (x : (⟨2, ![256, 256]⟩ : Shape).Idx → EReal) : Fin 256 → Fin 256 → EReal :=
  fun k h => x (ValueIdx.ix2 k h)

/-- The first half of a 1 x 512 row: entry `k`, for `k < 256`. -/
def half1 (x : (⟨2, ![1, 512]⟩ : Shape).Idx → EReal) : Fin 256 → EReal :=
  fun k => x (ValueIdx.ix2 (0 : Fin 1) (⟨k.val, by omega⟩ : Fin 512))

/-- The second half of a 1 x 512 row: entry `256 + k`, for `k < 256`. -/
def half2 (x : (⟨2, ![1, 512]⟩ : Shape).Idx → EReal) : Fin 256 → EReal :=
  fun k => x (ValueIdx.ix2 (0 : Fin 1) (⟨256 + k.val, by omega⟩ : Fin 512))

theorem cur3_apply (x : (⟨3, ![64, 2048, 256]⟩ : Shape).Idx → EReal) (b : Fin 64) (s : Fin 2048) (h : Fin 256) :
    cur3 x b s h = x (ValueIdx.ix3 b s h) := rfl

theorem cur2_apply (x : (⟨2, ![256, 256]⟩ : Shape).Idx → EReal) (k h : Fin 256) :
    cur2 x k h = x (ValueIdx.ix2 k h) := rfl

theorem half1_apply (x : (⟨2, ![1, 512]⟩ : Shape).Idx → EReal) (k : Fin 256) :
    half1 x k = x (ValueIdx.ix2 (0 : Fin 1) (⟨k.val, by omega⟩ : Fin 512)) := rfl

theorem half2_apply (x : (⟨2, ![1, 512]⟩ : Shape).Idx → EReal) (k : Fin 256) :
    half2 x k = x (ValueIdx.ix2 (0 : Fin 1) (⟨256 + k.val, by omega⟩ : Fin 512)) := rfl

end Attn

end
-- ==== Proof.HostPre.lean ====
/-
  The arrays the first region reads that the program prepares beforehand, at an index.

  Before the first region the program transposes the 256 x 256 weight matrix, and cuts the combining
  row of 512 entries into its two halves of 256, each stored as a 1 x 1 x 256 array.  So the weight
  block the region stages holds, at `(h, k)`, the matrix entry `(k, h)`; the first weight row holds,
  at `k`, entry `k` of the combining row and the second holds entry `256 + k`.
-/
import proofs.«116815_j65094524338925_2_alg».proof.Proof.Gen.KernelIdeal.Regions
import proofs.«116815_j65094524338925_2_alg».proof.Proof.Curry
import Idealize.ShloMosaic.Lib.ValueIdx
import Idealize.ShloMosaic.Lib.ValueLayout

noncomputable section

namespace Cert.KernelIdeal.HostValue

open Cert.KernelIdeal Cert.KernelIdeal.Gen Idealize.ShloMosaic Idealize.ShloMosaic.TcCoe Idealize.ShloMosaic.ValueIdx
open Idealize.ShloMosaic.StableHlo

variable (m : (ℓ : Loc nD τ sig) → Buf (Elt Ideal) ℓ) (c : Dev nD)

/-! ### The prepared arrays as terms over the launch contents -/

theorem V1_main_v0_eq :
    (Gen.V1 (F := Ideal) m c main_v0 : S256x256.Idx → EReal)
      = transpose S256x256 [1, 0] (Gen.V0 (F := Ideal) m c main_arg2 : S256x256.Idx → EReal) transposes_S256x256_S256x256_1_0 := by
  dsimp only [Gen.V1, Gen.V0, Gen.hostOps0]; after_results

theorem V1_main_v2_eq :
    (Gen.V1 (F := Ideal) m c main_v2 : S1x1x256.Idx → EReal)
      = shapeCast S1x1x256
          (extractStridedSlice S1x256 ![0, 0] (Gen.V0 (F := Ideal) m c main_arg3 : S1x512.Idx → EReal) slices_S1x512_S1x256_0_0)
          shapeCasts_S1x256_S1x1x256 := by
  dsimp only [Gen.V1, Gen.V0, Gen.hostOps0]; after_results; rfl

theorem V1_main_v4_eq :
    (Gen.V1 (F := Ideal) m c main_v4 : S1x1x256.Idx → EReal)
      = shapeCast S1x1x256
          (extractStridedSlice S1x256 ![0, 256] (Gen.V0 (F := Ideal) m c main_arg3 : S1x512.Idx → EReal) slices_S1x512_S1x256_0_256)
          shapeCasts_S1x256_S1x1x256 := by
  dsimp only [Gen.V1, Gen.V0, Gen.hostOps0]; after_results; rfl

/-! ### Read at an index -/

/-- The staged weight block at `(h, k)` is the weight matrix at `(k, h)`. -/
theorem V1_main_v0_apply (h k : Fin 256) :
    (Gen.V1 (F := Ideal) m c main_v0 : S256x256.Idx → EReal) (ix2 h k)
      = (Gen.V0 (F := Ideal) m c main_arg2 : S256x256.Idx → EReal) (ix2 k h) := by
  rw [V1_main_v0_eq]
  exact transpose_ix2_apply _ _ h k

/-- The first staged weight row at `k` is entry `k` of the combining row. -/
theorem V1_main_v2_apply (k : Fin 256) :
    (Gen.V1 (F := Ideal) m c main_v2 : S1x1x256.Idx → EReal) (ix3 (0 : Fin 1) (0 : Fin 1) k)
      = Attn.half1 (Gen.V0 (F := Ideal) m c main_arg3 : S1x512.Idx → EReal) k := by
  rw [V1_main_v2_eq, Attn.half1_apply]
  refine (shapeCast_ab_1ab_apply _ _ (0 : Fin 1) (0 : Fin 1) k).trans ?_
  exact slice2_axis1_apply 0 _ _ (0 : Fin 1) k _ (by show k.val = 0 + k.val; omega)

/-- The second staged weight row at `k` is entry `256 + k` of the combining row. -/
theorem V1_main_v4_apply (k : Fin 256) :
    (Gen.V1 (F := Ideal) m c main_v4 : S1x1x256.Idx → EReal) (ix3 (0 : Fin 1) (0 : Fin 1) k)
      = Attn.half2 (Gen.V0 (F := Ideal) m c main_arg3 : S1x512.Idx → EReal) k := by
  rw [V1_main_v4_eq, Attn.half2_apply]
  refine (shapeCast_ab_1ab_apply _ _ (0 : Fin 1) (0 : Fin 1) k).trans ?_
  exact slice2_axis1_apply 256 _ _ (0 : Fin 1) k _ rfl

end Cert.KernelIdeal.HostValue

end
-- ==== Proof.KI.Value.lean ====
/-
  What the tiled program's two result arrays hold at the exact instance, on every core: the weight of row s of
  sequence b is exp (score b s - max b) times the reciprocal of the sequence's denominator, and feature h of its
  output is the running weighted sum after the four tiles times that reciprocal — the functions `Attn.kWeight` and
  `Attn.kOut` of the argument arrays.  The streaming region leaves the scores, the maxima, the reciprocals and the
  outputs in its four result arrays (an induction over its points: a tile continues the online recurrence of its
  block of sequences); the normalising region reads the first three of them.
-/
import proofs.«116815_j65094524338925_2_alg».proof.Proof.KI.Run
import proofs.«116815_j65094524338925_2_alg».proof.Proof.KI.R0State
import proofs.«116815_j65094524338925_2_alg».proof.Proof.KI.Arrays0
import proofs.«116815_j65094524338925_2_alg».proof.Proof.KI.Arrays1
import proofs.«116815_j65094524338925_2_alg».proof.Proof.HostPre
import proofs.«116815_j65094524338925_2_alg».proof.Proof.Curry

noncomputable section

namespace Cert.KernelIdeal.HandValue

open Cert.KernelIdeal Cert.KernelIdeal.Gen
open Idealize.ShloMosaic Idealize.ShloMosaic.TcCoe Idealize.SL.Sem
open ValueIdx

variable (m : (ℓ : Loc nD τ sig) → Buf (Elt Ideal) ℓ) (ρ : Dev nD → PrngReg) (c : Dev nD)

/-- The argument arrays of core `c` as functions of literal coordinates. -/
abbrev aT : Fin 64 → Fin 2048 → Fin 256 → EReal := Attn.cur3 (m ((c.tc : Thread nD τ).loc main_arg0))
abbrev aA : Fin 64 → Fin 2048 → Fin 256 → EReal := Attn.cur3 (m ((c.tc : Thread nD τ).loc main_arg1))
abbrev aW : Fin 256 → Fin 256 → EReal := Attn.cur2 (m ((c.tc : Thread nD τ).loc main_arg2))
abbrev aw1 : Fin 256 → EReal := Attn.half1 (m ((c.tc : Thread nD τ).loc main_arg3))
abbrev aw2 : Fin 256 → EReal := Attn.half2 (m ((c.tc : Thread nD τ).loc main_arg3))

/-! The five arrays the streaming region stages, as it finds them -/

theorem hT (b : Fin 64) (s : Fin 2048) (h : Fin 256) :
    (Hand.V1 m ρ c main_arg0 : S64x2048x256.Idx → EReal) (ix3 b s h) = aT m c b s h := by
  rw [show Hand.V1 m ρ c main_arg0 = m ((c.tc : Thread nD τ).loc main_arg0) from Hand.W1_main_arg0 m ρ c]; rfl
theorem hA (b : Fin 64) (s : Fin 2048) (h : Fin 256) :
    (Hand.V1 m ρ c main_arg1 : S64x2048x256.Idx → EReal) (ix3 b s h) = aA m c b s h := by
  rw [show Hand.V1 m ρ c main_arg1 = m ((c.tc : Thread nD τ).loc main_arg1) from Hand.W1_main_arg1 m ρ c]; rfl
theorem hW (h k : Fin 256) : (Hand.V1 m ρ c main_v0 : S256x256.Idx → EReal) (ix2 h k) = aW m c k h :=
  (HostValue.V1_main_v0_apply m c h k).trans rfl
theorem hw1 (k : Fin 256) : (Hand.V1 m ρ c main_v2 : S1x1x256.Idx → EReal) (ix3 0 0 k) = aw1 m c k :=
  (HostValue.V1_main_v2_apply m c k).trans rfl
theorem hw2 (k : Fin 256) : (Hand.V1 m ρ c main_v4 : S1x1x256.Idx → EReal) (ix3 0 0 k) = aw2 m c k :=
  (HostValue.V1_main_v4_apply m c k).trans rfl

/-! The streaming region's four result arrays -/

theorem scores : (Hand.dat0 (Hand.V1 m ρ) c).arrAt 5 cfg0.N
    = (fun i => Attn.score (aT m c) (aA m c) (aW m c) (aw1 m c) (aw2 m c) (i 0) (i 2) : S64x1x2048.Idx → EReal) :=
  arr5 (Hand.V1 m ρ) c (aT m c) (aA m c) (aW m c) (aw1 m c) (aw2 m c)
    (score_blk (Hand.V1 m ρ) c (aT m c) (aA m c) (aW m c) (aw1 m c) (aw2 m c) (hT m ρ c) (hA m ρ c) (hW m ρ c) (hw1 m ρ c) (hw2 m ρ c))

theorem finals : (Hand.dat0 (Hand.V1 m ρ) c).arrAt 6 cfg0.N
      = (fun i => Attn.kMax (aT m c) (aA m c) (aW m c) (aw1 m c) (aw2 m c) (i 0) : S64x1x1.Idx → EReal)
    ∧ (Hand.dat0 (Hand.V1 m ρ) c).arrAt 7 cfg0.N
      = (fun i => Attn.kInv (aT m c) (aA m c) (aW m c) (aw1 m c) (aw2 m c) (i 0) : S64x1x1.Idx → EReal)
    ∧ (Hand.dat0 (Hand.V1 m ρ) c).arrAt 8 cfg0.N
      = (fun i => Attn.kOut (aT m c) (aA m c) (aW m c) (aw1 m c) (aw2 m c) (i 0) (i 2) : S64x1x256.Idx → EReal) :=
  arr678 (Hand.V1 m ρ) c (aT m c) (aA m c) (aW m c) (aw1 m c) (aw2 m c)
    (final_blk (Hand.V1 m ρ) c (aT m c) (aA m c) (aW m c) (aw1 m c) (aw2 m c) (hT m ρ c) (hA m ρ c) (hW m ρ c) (hw1 m ρ c) (hw2 m ρ c))

/-- The normalising region's result array. -/
theorem weights : (Hand.dat1 (Hand.V2 m ρ) c).arrAt 3 cfg1.N
    = (fun i => Attn.kWeight (aT m c) (aA m c) (aW m c) (aw1 m c) (aw2 m c) (i 0) (i 2) : S64x1x2048.Idx → EReal) :=
  arrW (Hand.V2 m ρ) c (aT m c) (aA m c) (aW m c) (aw1 m c) (aw2 m c)
    ((Hand.V2_main_v5_0 m ρ c).trans (scores m ρ c))
    ((Hand.V2_main_v5_1 m ρ c).trans (finals m ρ c).1)
    ((Hand.V2_main_v5_2 m ρ c).trans (finals m ρ c).2.1)

/-- THE TILED PROGRAM'S RUN at the exact instance: it terminates, nothing faulting, with the two results at
    `Attn.kWeight` and `Attn.kOut` of the argument arrays and the arguments unchanged. -/
theorem kernel_run : θ_run defs (onTc (τ := τ) (main (F := Ideal))) ⟨m, fun _ => 0, ρ⟩ (fun r => ∀ c : Dev nD,
      r.2.mem ((c.tc : Thread nD τ).loc main_v6)
        = (fun i => Attn.kWeight (aT m c) (aA m c) (aW m c) (aw1 m c) (aw2 m c) (i 0) (i 2) : S64x1x2048.Idx → EReal)
      ∧ r.2.mem ((c.tc : Thread nD τ).loc main_v5_3)
        = (fun i => Attn.kOut (aT m c) (aA m c) (aW m c) (aw1 m c) (aw2 m c) (i 0) (i 2) : S64x1x256.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun s h c =>
    ⟨(h c _ (Hand.mem_uc main_v6 (by decide))).trans ((Hand.W3_main_v6 m ρ c).trans (weights m ρ c)),
     (h c _ (Hand.mem_uc main_v5_3 (by decide))).trans ((Hand.W3_main_v5_3 m ρ c).trans (finals m ρ c).2.2),
     (h c _ (Hand.mem_uc main_arg0 (by decide))).trans (Hand.W3_main_arg0 m ρ c),
     (h c _ (Hand.mem_uc main_arg1 (by decide))).trans (Hand.W3_main_arg1 m ρ c),
     (h c _ (Hand.mem_uc main_arg2 (by decide))).trans (Hand.W3_main_arg2 m ρ c),
     (h c _ (Hand.mem_uc main_arg3 (by decide))).trans (Hand.W3_main_arg3 m ρ c)⟩) (Hand.run m ρ)

end Cert.KernelIdeal.HandValue

end
-- ==== Proof.RefScore.lean ====
/-
  The one-pass program's scores.

  The one-pass program projects the rows of the two input arrays by the matrix, joins the two projections
  side by side into rows of 512 entries, takes the hyperbolic tangent of every entry and contracts each row
  with the combining row of 512 entries.  A sum over the 512 joined entries is the sum over the first 256 of
  them, which come from the first array and meet the first half of the combining row, plus the sum over the
  last 256, which come from the second array and meet the second half.  So the result at sequence `b`, row `s`
  is the specification's `score b s`.
-/
import proofs.«116815_j65094524338925_2_alg».proof.Proof.Gen.ReferenceIdeal.Read
import proofs.«116815_j65094524338925_2_alg».proof.Proof.Curry

noncomputable section

namespace Cert.ReferenceIdeal.RefValue

open Cert.ReferenceIdeal Cert.ReferenceIdeal.Gen Cert.ReferenceIdeal.Read Idealize.ShloMosaic Idealize.ShloMosaic.ValueIdx

/-- A sum over 512 entries is the sum over the first 256 plus the sum over the last 256. -/
theorem sum_halves {M : Type*} [AddCommMonoid M] (f : Fin 512 → M) :
    ∑ c, f c = ∑ k : Fin 256, f (⟨k.val, by omega⟩ : Fin 512) + ∑ k : Fin 256, f (⟨256 + k.val, by omega⟩ : Fin 512) :=
  Fin.sum_univ_add (a := 256) (b := 256) f

/-! ### The projections -/

theorem lidx0 (b : Fin 64) (s : Fin 2048) (k h : Fin 256) : lidx_main_v0 (ix3 b s k) h = ix3 b s h :=
  funext fun a => by match a with | ⟨0, _⟩ => rfl | ⟨1, _⟩ => rfl | ⟨2, _⟩ => rfl

theorem ridx0 (b : Fin 64) (s : Fin 2048) (k h : Fin 256) : ridx_main_v0 (ix3 b s k) h = ix2 k h :=
  funext fun a => by match a with | ⟨0, _⟩ => rfl | ⟨1, _⟩ => rfl

theorem lidx1 (b : Fin 64) (s : Fin 2048) (k h : Fin 256) : lidx_main_v1 (ix3 b s k) h = ix3 b s h :=
  funext fun a => by match a with | ⟨0, _⟩ => rfl | ⟨1, _⟩ => rfl | ⟨2, _⟩ => rfl

theorem ridx1 (b : Fin 64) (s : Fin 2048) (k h : Fin 256) : ridx_main_v1 (ix3 b s k) h = ix2 k h :=
  funext fun a => by match a with | ⟨0, _⟩ => rfl | ⟨1, _⟩ => rfl

/-- The projection of the first array, entry `k` of row `s` of sequence `b`. -/
theorem v0_at (x : (⟨S64x2048x256, .f32⟩ : BufTy).Contents (Elt Ideal)) (w : (⟨S256x256, .f32⟩ : BufTy).Contents (Elt Ideal))
    (b : Fin 64) (s : Fin 2048) (k : Fin 256) :
    val_main_v0 (F := Ideal) x w (ix3 b s k) = Attn.proj (Attn.cur3 x) (Attn.cur2 w) b s k := by
  rw [val_main_v0_apply]
  unfold Attn.proj
  refine Finset.sum_congr rfl fun h _ => ?_
  rw [lidx0, ridx0, Attn.cur3_apply, Attn.cur2_apply]

/-- The projection of the second array. -/
theorem v1_at (x : (⟨S64x2048x256, .f32⟩ : BufTy).Contents (Elt Ideal)) (w : (⟨S256x256, .f32⟩ : BufTy).Contents (Elt Ideal))
    (b : Fin 64) (s : Fin 2048) (k : Fin 256) :
    val_main_v1 (F := Ideal) x w (ix3 b s k) = Attn.proj (Attn.cur3 x) (Attn.cur2 w) b s k := by
  rw [val_main_v1_apply]
  unfold Attn.proj
  refine Finset.sum_congr rfl fun h _ => ?_
  rw [lidx1, ridx1, Attn.cur3_apply, Attn.cur2_apply]

/-! ### The two projections side by side -/

variable (a0 a1 : (⟨S64x2048x256, .f32⟩ : BufTy).Contents (Elt Ideal)) (a2 : (⟨S256x256, .f32⟩ : BufTy).Contents (Elt Ideal))
  (a3 : (⟨S1x512, .f32⟩ : BufTy).Contents (Elt Ideal))

/-- Entry `k < 256` of a joined row is entry `k` of the first projection. -/
theorem v2_left (b : Fin 64) (s : Fin 2048) (k : Fin 256) :
    val_main_v2 (F := Ideal) a0 a1 a2 (ix3 b s (⟨k.val, by omega⟩ : Fin 512)) = val_main_v0 (F := Ideal) a0 a2 (ix3 b s k) := by
  unfold val_main_v2
  generalize val_main_v0 (F := Ideal) a0 a2 = y0
  generalize val_main_v1 (F := Ideal) a1 a2 = y1
  exact concatenate_pair_apply_left 2 y0 y1 concatenates_S64x2048x256_S64x2048x256_S64x2048x512_d2 _ rfl (ix3 b s k)
    (fun c => by match c with | ⟨0, _⟩ => rfl | ⟨1, _⟩ => rfl | ⟨2, _⟩ => rfl)

/-- Entry `256 + k` of a joined row is entry `k` of the second projection. -/
theorem v2_right (b : Fin 64) (s : Fin 2048) (k : Fin 256) :
    val_main_v2 (F := Ideal) a0 a1 a2 (ix3 b s (⟨256 + k.val, by omega⟩ : Fin 512)) = val_main_v1 (F := Ideal) a1 a2 (ix3 b s k) := by
  unfold val_main_v2
  generalize val_main_v0 (F := Ideal) a0 a2 = y0
  generalize val_main_v1 (F := Ideal) a1 a2 = y1
  exact concatenate_pair_apply_right 2 y0 y1 concatenates_S64x2048x256_S64x2048x256_S64x2048x512_d2 _ rfl rfl (ix3 b s k)
    (fun c hc => by
      match c, hc with
      | ⟨0, _⟩, _ => rfl
      | ⟨1, _⟩, _ => rfl
      | ⟨2, _⟩, hc => exact absurd rfl hc)
    (by show k.val + 256 = 256 + k.val; omega)

/-! ### The scores -/

theorem lidx4 (b : Fin 64) (s : Fin 2048) (c : Fin 512) : lidx_main_v4 (ix3 b s (0 : Fin 1)) c = ix3 b s c :=
  funext fun a => by match a with | ⟨0, _⟩ => rfl | ⟨1, _⟩ => rfl | ⟨2, _⟩ => rfl

theorem ridx4 (b : Fin 64) (s : Fin 2048) (c : Fin 512) : ridx_main_v4 (ix3 b s (0 : Fin 1)) c = ix2 (0 : Fin 1) c :=
  funext fun a => by match a with | ⟨0, _⟩ => rfl | ⟨1, _⟩ => rfl

/-- The contraction with the combining row is the specification's score. -/
theorem v4_at (b : Fin 64) (s : Fin 2048) :
    val_main_v4 (F := Ideal) a0 a1 a2 a3 (ix3 b s (0 : Fin 1))
      = Attn.score (Attn.cur3 a0) (Attn.cur3 a1) (Attn.cur2 a2) (Attn.half1 a3) (Attn.half2 a3) b s := by
  rw [val_main_v4_apply]
  simp only [lidx4, ridx4]
  rw [sum_halves]
  unfold Attn.score
  refine congrArg₂ (· + ·) (Finset.sum_congr rfl fun k _ => ?_) (Finset.sum_congr rfl fun k _ => ?_)
  · rw [val_main_v3_apply, v2_left, v0_at, Ideal.hostUnary_tanh_def, Attn.half1_apply]
  · rw [val_main_v3_apply, v2_right, v1_at, Ideal.hostUnary_tanh_def, Attn.half2_apply]

end Cert.ReferenceIdeal.RefValue

end
-- ==== Proof.RefValue.lean ====
/-
  The one-pass program's two results are the specification's one-pass softmax.

  After the scores, the one-pass program takes, for every sequence, the maximum of the 2048 scores as a fold
  of `max` from `-∞`, takes the maximum of that with `-∞` once more, subtracts it from every score, exponentiates,
  sums the 2048 exponentials from `0`, and divides every exponential by the sum: the specification's `gWeight`.
  The first result is these weights with the row axis moved last; the second contracts the weights with the rows
  of the first array: the specification's `gOut`.
-/
import proofs.«116815_j65094524338925_2_alg».proof.Proof.RefScore

noncomputable section

namespace Cert.ReferenceIdeal.RefValue

open Cert.ReferenceIdeal Cert.ReferenceIdeal.Gen Cert.ReferenceIdeal.Read Idealize.ShloMosaic Idealize.ShloMosaic.ValueIdx

/-- The pattern `0xFF800000` denotes `-∞`. -/
theorem ofBits_neg_inf : Ideal.ofBits .f32 0xFF800000#32 = ⊥ := by
  simp [Ideal.ofBits, Ideal.ieee]

/-- Dropping the row axis of a 64 x 2048 x 1 array leaves a 64 x 1 array. -/
theorem red : S64x2048x1.Reduces [1] S64x1 := by decide

/-- Sequence `b` with row `k` put back. -/
theorem lift_red (b : Fin 64) (k : Fin (S64x2048x1.size 1)) :
    red.lift (ix2 b (0 : Fin 1)) k = ix3 b (⟨k.val, k.isLt⟩ : Fin 2048) (0 : Fin 1) :=
  funext fun c => Fin.ext (by match c with | ⟨0, _⟩ => rfl | ⟨1, _⟩ => rfl | ⟨2, _⟩ => rfl)

variable (a0 a1 : (⟨S64x2048x256, .f32⟩ : BufTy).Contents (Elt Ideal)) (a2 : (⟨S256x256, .f32⟩ : BufTy).Contents (Elt Ideal))
  (a3 : (⟨S1x512, .f32⟩ : BufTy).Contents (Elt Ideal))

/-! ### The maximum -/

/-- The fold of `max` from `-∞` over the rows of sequence `b`. -/
theorem v5_at (b : Fin 64) :
    val_main_v5 (F := Ideal) a0 a1 a2 a3 (ix2 b (0 : Fin 1))
      = Finset.univ.fold max ⊥ (fun s : Fin 2048 => Attn.score (Attn.cur3 a0) (Attn.cur3 a1) (Attn.cur2 a2) (Attn.half1 a3) (Attn.half2 a3) b s) := by
  unfold val_main_v5
  refine (Host.reduce_eq_fold_single FloatOps.maximumf _ _ reducesTo_S64x2048x1_S64x1_d1 red h_S_ (ix2 b (0 : Fin 1))).trans ?_
  have hinit : val_main_cst (F := Ideal) (Shape.Idx.first h_S_) = ⊥ := by
    rw [val_main_cst_apply, Ideal.ofBits_def, ofBits_neg_inf]
  have hf : (val_main_v4 (F := Ideal) a0 a1 a2 a3 ∘ red.lift (ix2 b (0 : Fin 1)))
      = fun s : Fin 2048 => Attn.score (Attn.cur3 a0) (Attn.cur3 a1) (Attn.cur2 a2) (Attn.half1 a3) (Attn.half2 a3) b s := funext fun k => by
    show val_main_v4 (F := Ideal) a0 a1 a2 a3 (red.lift (ix2 b (0 : Fin 1)) k) = _
    rw [lift_red]
    exact v4_at a0 a1 a2 a3 b _
  rw [hinit]
  exact congrArg (fun f => Finset.fold max ⊥ f (Finset.univ : Finset (Fin 2048))) hf

/-- The maximum the scores are shifted by. -/
theorem v7_at (b : Fin 64) :
    val_main_v7 (F := Ideal) a0 a1 a2 a3 (ix2 b (0 : Fin 1)) = Attn.gMax (Attn.cur3 a0) (Attn.cur3 a1) (Attn.cur2 a2) (Attn.half1 a3) (Attn.half2 a3) b := by
  show _ = max ⊥ (Finset.univ.fold max ⊥ fun s : Fin 2048 => Attn.score (Attn.cur3 a0) (Attn.cur3 a1) (Attn.cur2 a2) (Attn.half1 a3) (Attn.half2 a3) b s)
  rw [val_main_v7_apply, val_main_v6_apply, val_main_cst_0_apply, v5_at, Ideal.ofBits_def, ofBits_neg_inf,
    Ideal.maximumf_def]

theorem idx89 (b : Fin 64) (s : Fin 2048) : idx_main_v8 (idx_main_v9 (ix3 b s (0 : Fin 1))) = ix2 b (0 : Fin 1) :=
  funext fun a => by match a with | ⟨0, _⟩ => rfl | ⟨1, _⟩ => rfl

/-- The maximum, at every row. -/
theorem v9_at (b : Fin 64) (s : Fin 2048) :
    val_main_v9 (F := Ideal) a0 a1 a2 a3 (ix3 b s (0 : Fin 1)) = Attn.gMax (Attn.cur3 a0) (Attn.cur3 a1) (Attn.cur2 a2) (Attn.half1 a3) (Attn.half2 a3) b := by
  rw [val_main_v9_apply, val_main_v8_apply, idx89, v7_at]

/-! ### The exponentials and their sum -/

theorem v11_at (b : Fin 64) (s : Fin 2048) :
    val_main_v11 (F := Ideal) a0 a1 a2 a3 (ix3 b s (0 : Fin 1))
      = Ideal.exp (Attn.score (Attn.cur3 a0) (Attn.cur3 a1) (Attn.cur2 a2) (Attn.half1 a3) (Attn.half2 a3) b s - Attn.gMax (Attn.cur3 a0) (Attn.cur3 a1) (Attn.cur2 a2) (Attn.half1 a3) (Attn.half2 a3) b) := by
  rw [val_main_v11_apply, val_main_v10_apply, v4_at, v9_at, Ideal.hostUnary_exp_def, Ideal.subf_def]

theorem idx12 (b : Fin 64) (k : Fin 2048) : idx_main_v12 (ix2 b (0 : Fin 1)) k = ix3 b k (0 : Fin 1) :=
  funext fun a => by match a with | ⟨0, _⟩ => rfl | ⟨1, _⟩ => rfl | ⟨2, _⟩ => rfl

theorem v12_at (b : Fin 64) :
    val_main_v12 (F := Ideal) a0 a1 a2 a3 (ix2 b (0 : Fin 1))
      = ∑ s : Fin 2048, Ideal.exp (Attn.score (Attn.cur3 a0) (Attn.cur3 a1) (Attn.cur2 a2) (Attn.half1 a3) (Attn.half2 a3) b s - Attn.gMax (Attn.cur3 a0) (Attn.cur3 a1) (Attn.cur2 a2) (Attn.half1 a3) (Attn.half2 a3) b) := by
  rw [val_main_v12_apply, val_main_cst_1_apply, Ideal.ofBits_def, Ideal.ofBits_zero_f32, zero_add]
  refine Finset.sum_congr rfl fun k _ => ?_
  rw [idx12, v11_at]

theorem idx1314 (b : Fin 64) (s : Fin 2048) : idx_main_v13 (idx_main_v14 (ix3 b s (0 : Fin 1))) = ix2 b (0 : Fin 1) :=
  funext fun a => by match a with | ⟨0, _⟩ => rfl | ⟨1, _⟩ => rfl

/-! ### The weights -/

theorem v15_at (b : Fin 64) (s : Fin 2048) :
    val_main_v15 (F := Ideal) a0 a1 a2 a3 (ix3 b s (0 : Fin 1)) = Attn.gWeight (Attn.cur3 a0) (Attn.cur3 a1) (Attn.cur2 a2) (Attn.half1 a3) (Attn.half2 a3) b s := by
  show _ = Ideal.div (Ideal.exp (Attn.score (Attn.cur3 a0) (Attn.cur3 a1) (Attn.cur2 a2) (Attn.half1 a3) (Attn.half2 a3) b s - Attn.gMax (Attn.cur3 a0) (Attn.cur3 a1) (Attn.cur2 a2) (Attn.half1 a3) (Attn.half2 a3) b))
    (∑ s' : Fin 2048, Ideal.exp (Attn.score (Attn.cur3 a0) (Attn.cur3 a1) (Attn.cur2 a2) (Attn.half1 a3) (Attn.half2 a3) b s' - Attn.gMax (Attn.cur3 a0) (Attn.cur3 a1) (Attn.cur2 a2) (Attn.half1 a3) (Attn.half2 a3) b))
  rw [val_main_v15_apply, v11_at, val_main_v14_apply, val_main_v13_apply, idx1314, v12_at, Ideal.hostDivf_def]

theorem idx16 (b : Fin 64) (s : Fin 2048) : idx_main_v16 (ix3 b (0 : Fin 1) s) = ix3 b s (0 : Fin 1) :=
  funext fun a => by match a with | ⟨0, _⟩ => rfl | ⟨1, _⟩ => rfl | ⟨2, _⟩ => rfl

theorem v16_at (b : Fin 64) (s : Fin 2048) :
    val_main_v16 (F := Ideal) a0 a1 a2 a3 (ix3 b (0 : Fin 1) s) = Attn.gWeight (Attn.cur3 a0) (Attn.cur3 a1) (Attn.cur2 a2) (Attn.half1 a3) (Attn.half2 a3) b s := by
  rw [val_main_v16_apply, idx16, v15_at]

/-- The first result: the weights, at index `(b, 0, s)`. -/
theorem result16 :
    val_main_v16 (F := Ideal) a0 a1 a2 a3 = fun i => Attn.gWeight (Attn.cur3 a0) (Attn.cur3 a1) (Attn.cur2 a2) (Attn.half1 a3) (Attn.half2 a3) (i 0) (i 2) := by
  funext i
  obtain ⟨b, z, s, rfl⟩ : ∃ (b : Fin 64) (z : Fin 1) (s : Fin 2048), i = ix3 b z s := ⟨i 0, i 1, i 2, eq_ix3 i⟩
  obtain rfl : z = 0 := Subsingleton.elim _ _
  exact v16_at a0 a1 a2 a3 b s

/-! ### The weighted sum -/

theorem lidx17 (b : Fin 64) (h : Fin 256) (k : Fin 2048) : lidx_main_v17 (ix3 b (0 : Fin 1) h) k = ix3 b (0 : Fin 1) k :=
  funext fun a => by match a with | ⟨0, _⟩ => rfl | ⟨1, _⟩ => rfl | ⟨2, _⟩ => rfl

theorem ridx17 (b : Fin 64) (h : Fin 256) (k : Fin 2048) : ridx_main_v17 (ix3 b (0 : Fin 1) h) k = ix3 b k h :=
  funext fun a => by match a with | ⟨0, _⟩ => rfl | ⟨1, _⟩ => rfl | ⟨2, _⟩ => rfl

theorem v17_at (b : Fin 64) (h : Fin 256) :
    val_main_v17 (F := Ideal) a0 a1 a2 a3 (ix3 b (0 : Fin 1) h) = Attn.gOut (Attn.cur3 a0) (Attn.cur3 a1) (Attn.cur2 a2) (Attn.half1 a3) (Attn.half2 a3) b h := by
  rw [val_main_v17_apply]
  unfold Attn.gOut
  refine Finset.sum_congr rfl fun k _ => ?_
  rw [lidx17, ridx17, v16_at, Attn.cur3_apply]

/-- The second result: the weighted sums, at index `(b, 0, h)`. -/
theorem result17 :
    val_main_v17 (F := Ideal) a0 a1 a2 a3 = fun i => Attn.gOut (Attn.cur3 a0) (Attn.cur3 a1) (Attn.cur2 a2) (Attn.half1 a3) (Attn.half2 a3) (i 0) (i 2) := by
  funext i
  obtain ⟨b, z, h, rfl⟩ : ∃ (b : Fin 64) (z : Fin 1) (h : Fin 256), i = ix3 b z h := ⟨i 0, i 1, i 2, eq_ix3 i⟩
  obtain rfl : z = 0 := Subsingleton.elim _ _
  exact v17_at a0 a1 a2 a3 b h

end Cert.ReferenceIdeal.RefValue

end
-- ==== Proof.AlgOnline.lean ====
/-
  The tiled (online) softmax equals the one-pass softmax, for finite scores.

  Fix a sequence.  Its 2048 scores are real numbers `σ s`.  The tiled program reads them in 4 tiles of
  512 and ends with a state `(M, L, acc)`: a real number `M`, the denominator `L = ∑ exp (σ s - M)` and the
  weighted sum `acc = ∑ exp (σ s - M) * τ s` of a real column `τ` of values, all sums over the 2048 rows.  The
  maximum and the denominator do not depend on the column of values.  The one-pass program subtracts the
  maximum `M'` of the scores instead.  A weight `exp (σ s - M) / ∑ exp (σ s' - M)` does not depend on the real
  number `M` that is subtracted, since a common factor `exp (M' - M)` cancels; this is how the two meet.
  The tiled program divides by multiplying with `1 / L`, where `1` is spelt by its bit pattern.

  The rows of the 4 tiles are the 2048 rows: `(n, j) ↦ 512 * n + j` is a bijection.

  A score is a finite sum of products of a hyperbolic tangent, which is a real number in `[-1, 1]` at every
  extended real, with an entry of the combining row; so the scores are finite as soon as that row is.
-/
import proofs.«116815_j65094524338925_2_alg».proof.Proof.Spec

noncomputable section

namespace Attn

open Idealize.ShloMosaic OnlineSoftmax

/-! ### The rows of the tiles are the rows -/

/-- Row `s` is row `s % 512` of tile `s / 512`. -/
def rowEquiv : Fin 4 × Fin 512 ≃ Fin 2048 where
  toFun p := row p.1 p.2
  invFun s := (⟨s.val / 512, by omega⟩, ⟨s.val % 512, by omega⟩)
  left_inv p := by
    rcases p with ⟨n, j⟩
    refine Prod.ext (Fin.ext ?_) (Fin.ext ?_)
    · show (512 * n.val + j.val) / 512 = n.val
      omega
    · show (512 * n.val + j.val) % 512 = j.val
      omega
  right_inv s := Fin.ext (by
    show 512 * (s.val / 512) + s.val % 512 = s.val
    omega)

/-- A sum over the tiles of the sums over their rows is the sum over all rows. -/
theorem sum_row {M : Type*} [AddCommMonoid M] (f : Fin 2048 → M) :
    ∑ n : Fin 4, ∑ j : Fin 512, f (row n j) = ∑ s, f s := by
  rw [← Equiv.sum_comp rowEquiv f, Fintype.sum_prod_type]
  rfl

/-! ### The recurrence: all blocks, and independence of the values -/

/-- After all the blocks the state is a real `M` and the two sums over all blocks, shifted by `M`. -/
theorem run_all {B C : ℕ} (hB : 0 < B) (hC : 0 < C) (s v : Fin B → Fin C → ℝ) :
    ∃ M : ℝ, run (fun b j => ((s b j : ℝ) : EReal)) (fun b j => ((v b j : ℝ) : EReal)) B le_rfl
      = ((M : EReal), ((∑ b, ∑ j, Real.exp (s b j - M) : ℝ) : EReal),
          ((∑ b, ∑ j, Real.exp (s b j - M) * v b j : ℝ) : EReal)) := by
  obtain ⟨n, rfl⟩ : ∃ n, B = n + 1 := ⟨B - 1, by omega⟩
  obtain ⟨M, hM⟩ := run_eq hC s v n le_rfl
  refine ⟨M, ?_⟩
  rw [hM]
  simp only [Fin.castLE_refl]

/-- The running maximum and the running denominator do not depend on the values. -/
theorem run_indep {B C : ℕ} (s v v' : Fin B → Fin C → EReal) :
    ∀ (n : ℕ) (h : n ≤ B), (run s v n h).1 = (run s v' n h).1 ∧ (run s v n h).2.1 = (run s v' n h).2.1 := by
  intro n
  induction n with
  | zero => intro h; exact ⟨rfl, rfl⟩
  | succ n ih =>
    intro h
    obtain ⟨h1, h2⟩ := ih (Nat.le_of_succ_le h)
    rw [run_succ, run_succ]
    simp only [step]
    rw [h1, h2]
    exact ⟨rfl, rfl⟩

/-! ### The shift cancels, in the reals -/

theorem exp_sub_shift (M M' x : ℝ) : Real.exp (x - M) = Real.exp (M' - M) * Real.exp (x - M') := by
  rw [← Real.exp_add]; congr 1; ring

theorem sum_exp_shift {ι : Type*} [Fintype ι] (σ : ι → ℝ) (M M' : ℝ) :
    ∑ s, Real.exp (σ s - M) = Real.exp (M' - M) * ∑ s, Real.exp (σ s - M') := by
  rw [Finset.mul_sum]
  exact Finset.sum_congr rfl fun s _ => exp_sub_shift M M' _

/-- A normalised weight does not depend on the real number subtracted from the scores. -/
theorem weight_shift {ι : Type*} [Fintype ι] (σ : ι → ℝ) (M M' : ℝ) (s : ι) :
    Real.exp (σ s - M) * (1 / ∑ s', Real.exp (σ s' - M))
      = Real.exp (σ s - M') * (1 / ∑ s', Real.exp (σ s' - M')) := by
  have hne : Real.exp (M' - M) ≠ 0 := (Real.exp_pos _).ne'
  rw [exp_sub_shift M M' (σ s), sum_exp_shift σ M M', one_div, one_div, mul_inv, mul_mul_mul_comm,
    mul_inv_cancel₀ hne, one_mul]

/-- The weighted sum times the reciprocal of the denominator, both shifted by `M`, is the sum of the
    normalised weights shifted by `M'` times the values. -/
theorem quot_shift {ι : Type*} [Fintype ι] (σ τ : ι → ℝ) (M M' : ℝ) :
    (∑ s, Real.exp (σ s - M) * τ s) * (1 / ∑ s, Real.exp (σ s - M))
      = ∑ s, Real.exp (σ s - M') * (1 / ∑ s', Real.exp (σ s' - M')) * τ s := by
  have hne : Real.exp (M' - M) ≠ 0 := (Real.exp_pos _).ne'
  have hA : ∑ s, Real.exp (σ s - M) * τ s = Real.exp (M' - M) * ∑ s, Real.exp (σ s - M') * τ s := by
    rw [Finset.mul_sum]
    exact Finset.sum_congr rfl fun s _ => by rw [exp_sub_shift M M' (σ s), mul_assoc]
  have hR : ∑ s, Real.exp (σ s - M') * (1 / ∑ s', Real.exp (σ s' - M')) * τ s
      = (∑ s, Real.exp (σ s - M') * τ s) * (1 / ∑ s', Real.exp (σ s' - M')) := by
    rw [Finset.sum_mul]
    exact Finset.sum_congr rfl fun s _ => by ring
  rw [hA, sum_exp_shift σ M M', hR, one_div, one_div, mul_inv, mul_mul_mul_comm, mul_inv_cancel₀ hne, one_mul]

/-! ### The literal one -/

/-- The pattern `0x3F800000` denotes `1`. -/
theorem one_eq : one = 1 := by
  unfold one
  simp [Ideal.ofBits, Ideal.ieee, -EReal.coe_mul]; norm_num

/-! ### The two programs over real scores -/

section

variable (T A : Fin 64 → Fin 2048 → Fin 256 → EReal) (W : Fin 256 → Fin 256 → EReal) (w1 w2 : Fin 256 → EReal)

theorem sum_exp_ne_zero (σ : Fin 2048 → ℝ) (M : ℝ) : (∑ s, Real.exp (σ s - M)) ≠ 0 := by
  haveI : Nonempty (Fin 2048) := ⟨⟨0, by norm_num⟩⟩
  exact (Finset.sum_pos (fun _ _ => Real.exp_pos _) Finset.univ_nonempty).ne'

/-- The tiled program's final state, for real scores `σ` and a real column of values `τ`. -/
theorem state_eq (b : Fin 64) (h : Fin 256) (σ τ : Fin 2048 → ℝ)
    (hσ : ∀ s, score T A W w1 w2 b s = (σ s : EReal)) (hτ : ∀ s, T b s h = (τ s : EReal)) :
    ∃ M : ℝ, state T A W w1 w2 b h 4 le_rfl
      = ((M : EReal), ((∑ s, Real.exp (σ s - M) : ℝ) : EReal), ((∑ s, Real.exp (σ s - M) * τ s : ℝ) : EReal)) := by
  have eS : tileScore T A W w1 w2 b = fun n j => ((σ (row n j) : ℝ) : EReal) := by
    funext n j; exact hσ _
  have eV : tileVal T b h = fun n j => ((τ (row n j) : ℝ) : EReal) := by
    funext n j; exact hτ _
  obtain ⟨M, hM⟩ := run_all (B := 4) (C := 512) (by norm_num) (by norm_num)
    (fun n j => σ (row n j)) (fun n j => τ (row n j))
  refine ⟨M, ?_⟩
  have e1 : ∑ n : Fin 4, ∑ j : Fin 512, Real.exp (σ (row n j) - M) = ∑ s, Real.exp (σ s - M) :=
    sum_row fun s => Real.exp (σ s - M)
  have e2 : ∑ n : Fin 4, ∑ j : Fin 512, Real.exp (σ (row n j) - M) * τ (row n j) = ∑ s, Real.exp (σ s - M) * τ s :=
    sum_row fun s => Real.exp (σ s - M) * τ s
  unfold state
  rw [eS, eV, hM, e1, e2]

/-- Its maximum and its denominator, for real scores `σ`, whatever the values. -/
theorem state_max_den (b : Fin 64) (h : Fin 256) (σ : Fin 2048 → ℝ)
    (hσ : ∀ s, score T A W w1 w2 b s = (σ s : EReal)) :
    ∃ M : ℝ, (state T A W w1 w2 b h 4 le_rfl).1 = (M : EReal)
      ∧ (state T A W w1 w2 b h 4 le_rfl).2.1 = ((∑ s, Real.exp (σ s - M) : ℝ) : EReal) := by
  have eS : tileScore T A W w1 w2 b = fun n j => ((σ (row n j) : ℝ) : EReal) := by
    funext n j; exact hσ _
  obtain ⟨M, hM⟩ := run_all (B := 4) (C := 512) (by norm_num) (by norm_num)
    (fun n j => σ (row n j)) (fun _ _ => (0 : ℝ))
  obtain ⟨h1, h2⟩ := run_indep (tileScore T A W w1 w2 b) (tileVal T b h) (fun _ _ => (((0 : ℝ) : ℝ) : EReal)) 4 le_rfl
  have e1 : ∑ n : Fin 4, ∑ j : Fin 512, Real.exp (σ (row n j) - M) = ∑ s, Real.exp (σ s - M) :=
    sum_row fun s => Real.exp (σ s - M)
  refine ⟨M, ?_, ?_⟩
  · unfold state
    rw [h1, eS, hM]
  · unfold state
    rw [h2, eS, hM, e1]

/-- The one-pass program's maximum is a real number. -/
theorem gMax_eq (b : Fin 64) (σ : Fin 2048 → ℝ) (hσ : ∀ s, score T A W w1 w2 b s = (σ s : EReal)) :
    ∃ M' : ℝ, gMax T A W w1 w2 b = (M' : EReal) := by
  haveI : Nonempty (Fin 2048) := ⟨⟨0, by norm_num⟩⟩
  obtain ⟨M', hM', -⟩ := fold_max_coe_exists σ
  refine ⟨M', ?_⟩
  unfold gMax
  simp only [hσ]
  rw [hM', max_bot_left]

/-- The one-pass program's weights, for real scores `σ`. -/
theorem gWeight_eq (b : Fin 64) (σ : Fin 2048 → ℝ) (hσ : ∀ s, score T A W w1 w2 b s = (σ s : EReal)) :
    ∃ M' : ℝ, ∀ s, gWeight T A W w1 w2 b s
      = ((Real.exp (σ s - M') * (1 / ∑ s', Real.exp (σ s' - M')) : ℝ) : EReal) := by
  obtain ⟨M', hM'⟩ := gMax_eq T A W w1 w2 b σ hσ
  refine ⟨M', fun s => ?_⟩
  unfold gWeight
  rw [hM']
  simp only [hσ]
  simp_rw [← EReal.coe_sub, Ideal.exp_coe, ← coe_sum]
  rw [Ideal.div_coe (sum_exp_ne_zero σ M'), ← EReal.coe_mul]

/-- The weights of the two programs agree when every score is finite. -/
theorem kWeight_eq_gWeight
    (hs : ∀ b s, score T A W w1 w2 b s ≠ ⊥ ∧ score T A W w1 w2 b s ≠ ⊤) :
    kWeight T A W w1 w2 = gWeight T A W w1 w2 := by
  funext b s
  obtain ⟨σ, hσ⟩ : ∃ σ : Fin 2048 → ℝ, ∀ s, score T A W w1 w2 b s = (σ s : EReal) :=
    ⟨fun s => (score T A W w1 w2 b s).toReal, fun s => (EReal.coe_toReal (hs b s).2 (hs b s).1).symm⟩
  obtain ⟨M, hM1, hM2⟩ := state_max_den T A W w1 w2 b 0 σ hσ
  obtain ⟨M', hG⟩ := gWeight_eq T A W w1 w2 b σ hσ
  rw [hG s]
  unfold kWeight kMax kInv
  rw [hM1, hM2, hσ s, one_eq, Ideal.div_coe (sum_exp_ne_zero σ M), one_mul, ← EReal.coe_sub, Ideal.exp_coe,
    ← EReal.coe_mul]
  exact congrArg _ (weight_shift σ M M' s)

/-- The weighted sums of the two programs agree when every score and every value is finite. -/
theorem kOut_eq_gOut
    (hs : ∀ b s, score T A W w1 w2 b s ≠ ⊥ ∧ score T A W w1 w2 b s ≠ ⊤)
    (hT : ∀ b s h, T b s h ≠ ⊥ ∧ T b s h ≠ ⊤) :
    kOut T A W w1 w2 = gOut T A W w1 w2 := by
  funext b h
  obtain ⟨σ, hσ⟩ : ∃ σ : Fin 2048 → ℝ, ∀ s, score T A W w1 w2 b s = (σ s : EReal) :=
    ⟨fun s => (score T A W w1 w2 b s).toReal, fun s => (EReal.coe_toReal (hs b s).2 (hs b s).1).symm⟩
  obtain ⟨τ, hτ⟩ : ∃ τ : Fin 2048 → ℝ, ∀ s, T b s h = (τ s : EReal) :=
    ⟨fun s => (T b s h).toReal, fun s => (EReal.coe_toReal (hT b s h).2 (hT b s h).1).symm⟩
  obtain ⟨M, hM⟩ := state_eq T A W w1 w2 b h σ τ hσ hτ
  obtain ⟨M', hG⟩ := gWeight_eq T A W w1 w2 b σ hσ
  have hden : (state T A W w1 w2 b 0 4 le_rfl).2.1 = (state T A W w1 w2 b h 4 le_rfl).2.1 :=
    (run_indep (tileScore T A W w1 w2 b) (tileVal T b 0) (tileVal T b h) 4 le_rfl).2
  unfold kOut kInv gOut
  rw [hden, hM]
  dsimp only
  simp only [hG, hτ]
  rw [one_eq, Ideal.div_coe (sum_exp_ne_zero σ M), one_mul, ← EReal.coe_mul]
  simp_rw [← EReal.coe_mul]
  rw [← coe_sum]
  exact congrArg _ (quot_shift σ τ M M')

/-! ### The scores are finite -/

/-- The hyperbolic tangent of an extended real is a real number. -/
theorem tanh_real (x : EReal) : ∃ r : ℝ, Ideal.tanh x = (r : EReal) := by
  induction x using EReal.rec with
  | bot => exact ⟨-1, by simp⟩
  | coe r => exact ⟨Real.tanh r, rfl⟩
  | top => exact ⟨1, by simp⟩

/-- Every score is finite when the combining row is. -/
theorem score_finite_of_weights (hw1 : ∀ k, w1 k ≠ ⊥ ∧ w1 k ≠ ⊤) (hw2 : ∀ k, w2 k ≠ ⊥ ∧ w2 k ≠ ⊤) :
    ∀ b s, score T A W w1 w2 b s ≠ ⊥ ∧ score T A W w1 w2 b s ≠ ⊤ := by
  intro b s
  choose t1 ht1 using fun k => tanh_real (proj T W b s k)
  choose t2 ht2 using fun k => tanh_real (proj A W b s k)
  have e : score T A W w1 w2 b s
      = ((∑ k, t1 k * (w1 k).toReal + ∑ k, t2 k * (w2 k).toReal : ℝ) : EReal) := by
    unfold score
    rw [EReal.coe_add, coe_sum, coe_sum]
    refine congrArg₂ (· + ·) (Finset.sum_congr rfl fun k _ => ?_) (Finset.sum_congr rfl fun k _ => ?_)
    · rw [EReal.coe_mul, ← ht1 k, EReal.coe_toReal (hw1 k).2 (hw1 k).1]
    · rw [EReal.coe_mul, ← ht2 k, EReal.coe_toReal (hw2 k).2 (hw2 k).1]
  rw [e]
  exact ⟨EReal.coe_ne_bot _, EReal.coe_ne_top _⟩

/-- Every score is finite when every input is. -/
theorem score_finite (hT : ∀ b s h, T b s h ≠ ⊥ ∧ T b s h ≠ ⊤) (hA : ∀ b s h, A b s h ≠ ⊥ ∧ A b s h ≠ ⊤)
    (hW : ∀ k h, W k h ≠ ⊥ ∧ W k h ≠ ⊤) (hw1 : ∀ k, w1 k ≠ ⊥ ∧ w1 k ≠ ⊤) (hw2 : ∀ k, w2 k ≠ ⊥ ∧ w2 k ≠ ⊤) :
    ∀ b s, score T A W w1 w2 b s ≠ ⊥ ∧ score T A W w1 w2 b s ≠ ⊤ :=
  score_finite_of_weights T A W w1 w2 hw1 hw2

end

end Attn

end
-- ==== Proof.Finite.lean ====
/-
  The precondition says that every input entry is finite.

  The precondition takes the absolute value `max x (-x)` of every entry of the four input arrays, compares it
  with `+∞` (spelt by its bit pattern) by "less than", takes the conjunction of all the comparisons of each
  array, and the conjunction of the four results; it holds when the outcome is the bit `1`.  A conjunction
  that is `1` had `1` at every position; and `max x (-x) < +∞` says that `x` is neither `-∞` nor `+∞`.
-/
import proofs.«116815_j65094524338925_2_alg».proof.Pre_finite_inputs
import Idealize.ShloMosaic.Lib.ReduceAll
import Idealize.ShloMosaic.Lib.ValueIdx
import Idealize.ShloMosaic.PureOps.Ideal.Laws

noncomputable section

namespace Cert.Proof.Finite

open Idealize.ShloMosaic Cert.Pre_finite_inputs

/-- The pattern `0x7F800000` denotes `+∞`. -/
theorem ofBits_pos_inf : Ideal.ofBits .f32 0x7F800000#32 = ⊤ := by
  simp [Ideal.ofBits, Ideal.ieee]

/-- An entry whose absolute value compares below `+∞` is finite. -/
theorem finite_of_abs_lt (x : EReal)
    (h : FloatOps.cmpf (F := Ideal) (φ := .f32) .olt (FloatOps.hostAbsf (F := Ideal) (φ := .f32) x)
      (FloatOps.ofBits (F := Ideal) .f32 0x7F800000#32) = 1#1) :
    x ≠ ⊥ ∧ x ≠ ⊤ := by
  have h' : Ideal.cmp .olt (max x (-x)) (Ideal.ofBits .f32 0x7F800000#32) = 1#1 := h
  rw [ofBits_pos_inf] at h'
  unfold Ideal.cmp at h'
  induction x using EReal.rec with
  | bot => simp at h'
  | coe r => exact ⟨EReal.coe_ne_bot r, EReal.coe_ne_top r⟩
  | top => simp at h'

instance : Subsingleton S_.Idx := ⟨fun a b => funext fun d => d.elim0⟩

/-- From the precondition to the finiteness of every entry of the four arrays. -/
theorem finite_of_pre [Cert.Pre_finite_inputs.Facts]
    (a0 a1 : FVec Ideal S64x2048x256 .f32) (a2 : FVec Ideal S256x256 .f32) (a3 : FVec Ideal S1x512 .f32)
    (h : Cert.Pre_finite_inputs.fn (F := Ideal) a0 a1 a2 a3 = fun _ => 1#1) :
    (∀ i, a0 i ≠ ⊥ ∧ a0 i ≠ ⊤) ∧ (∀ i, a1 i ≠ ⊥ ∧ a1 i ≠ ⊤) ∧ (∀ i, a2 i ≠ ⊥ ∧ a2 i ≠ ⊤)
      ∧ (∀ i, a3 i ≠ ⊥ ∧ a3 i ≠ ⊤) := by
  have h0 := congrFun h ValueIdx.ix0
  dsimp only [Cert.Pre_finite_inputs.fn, Cert.Pre_finite_inputs.fn_part1, andi] at h0
  obtain ⟨h012, h3⟩ := IntOp.andi_eq_one.1 h0
  obtain ⟨h01, h2⟩ := IntOp.andi_eq_one.1 h012
  obtain ⟨h0', h1⟩ := IntOp.andi_eq_one.1 h01
  refine ⟨fun i => ?_, fun i => ?_, fun i => ?_, fun i => ?_⟩
  · exact finite_of_abs_lt _ (Host.reduce_andi_all _ _ _ _ _ h0' i)
  · exact finite_of_abs_lt _ (Host.reduce_andi_all _ _ _ _ _ h1 i)
  · exact finite_of_abs_lt _ (Host.reduce_andi_all _ _ _ _ _ h2 i)
  · exact finite_of_abs_lt _ (Host.reduce_andi_all _ _ _ _ _ h3 i)

end Cert.Proof.Finite

end
-- ==== Proof.AlgAssemble.lean ====
/-
  Under the precondition the tiled program and the one-pass program agree.

  The precondition makes every input entry finite; then every score is finite, and the online softmax of the
  tiled program ends at the one-pass softmax: the same weights and the same weighted sums.
-/
import proofs.«116815_j65094524338925_2_alg».proof.Proof.AlgOnline
import proofs.«116815_j65094524338925_2_alg».proof.Proof.Curry
import proofs.«116815_j65094524338925_2_alg».proof.Proof.Finite

noncomputable section

namespace Cert.Proof.Finite

open Idealize.ShloMosaic Cert.Pre_finite_inputs

variable [Cert.Pre_finite_inputs.Facts]
  (a0 a1 : FVec Ideal S64x2048x256 .f32) (a2 : FVec Ideal S256x256 .f32) (a3 : FVec Ideal S1x512 .f32)

/-- Under the precondition every score is finite. -/
theorem score_finite_of_pre (h : Cert.Pre_finite_inputs.fn (F := Ideal) a0 a1 a2 a3 = fun _ => 1#1) :
    ∀ b s, Attn.score (Attn.cur3 a0) (Attn.cur3 a1) (Attn.cur2 a2) (Attn.half1 a3) (Attn.half2 a3) b s ≠ ⊥ ∧ Attn.score (Attn.cur3 a0) (Attn.cur3 a1) (Attn.cur2 a2) (Attn.half1 a3) (Attn.half2 a3) b s ≠ ⊤ := by
  obtain ⟨-, -, -, h3⟩ := finite_of_pre a0 a1 a2 a3 h
  exact Attn.score_finite_of_weights _ _ _ _ _ (fun k => h3 _) (fun k => h3 _)

/-- Under the precondition every entry of the first array is finite, coordinate by coordinate. -/
theorem values_finite_of_pre (h : Cert.Pre_finite_inputs.fn (F := Ideal) a0 a1 a2 a3 = fun _ => 1#1) :
    ∀ b s k, Attn.cur3 a0 b s k ≠ ⊥ ∧ Attn.cur3 a0 b s k ≠ ⊤ :=
  fun b s k => (finite_of_pre a0 a1 a2 a3 h).1 (ValueIdx.ix3 b s k)

/-- Under the precondition the two programs have the same weights. -/
theorem kWeight_eq_gWeight_of_pre (h : Cert.Pre_finite_inputs.fn (F := Ideal) a0 a1 a2 a3 = fun _ => 1#1) :
    Attn.kWeight (Attn.cur3 a0) (Attn.cur3 a1) (Attn.cur2 a2) (Attn.half1 a3) (Attn.half2 a3) = Attn.gWeight (Attn.cur3 a0) (Attn.cur3 a1) (Attn.cur2 a2) (Attn.half1 a3) (Attn.half2 a3) :=
  Attn.kWeight_eq_gWeight _ _ _ _ _ (score_finite_of_pre a0 a1 a2 a3 h)

/-- Under the precondition the two programs have the same weighted sums. -/
theorem kOut_eq_gOut_of_pre (h : Cert.Pre_finite_inputs.fn (F := Ideal) a0 a1 a2 a3 = fun _ => 1#1) :
    Attn.kOut (Attn.cur3 a0) (Attn.cur3 a1) (Attn.cur2 a2) (Attn.half1 a3) (Attn.half2 a3) = Attn.gOut (Attn.cur3 a0) (Attn.cur3 a1) (Attn.cur2 a2) (Attn.half1 a3) (Attn.half2 a3) :=
  Attn.kOut_eq_gOut _ _ _ _ _ (score_finite_of_pre a0 a1 a2 a3 h) (values_finite_of_pre a0 a1 a2 a3 h)

end Cert.Proof.Finite

end
-- ==== Proof.lean ====
/-
  Two programs compute additive attention over 64 sequences of 2048 rows of 256 features: a score per row
  (a tanh of a projection of the row of each of two inputs, combined by a weight row), a softmax of the scores over
  the rows of a sequence, and the softmax-weighted sum of the rows of the first input.

  The reference does this in one pass per sequence: the maximum of the scores, the exponentials of the shifted
  scores, their sum, the quotients, the weighted sum.  The kernel streams the rows in four tiles of 512 per sequence
  and carries a running maximum, a running denominator and a running weighted sum, rescaled by exp (old maximum -
  new maximum) at every tile (the online softmax); at the last tile it writes the maximum, the reciprocal of the
  denominator and the weighted sum times that reciprocal, and a second region turns the raw scores into weights,
  exp (score - maximum) times the reciprocal.

  At the exact instance (floats are extended reals, every operation exact) the two agree whenever the inputs are
  finite: the scores are then real numbers (a tanh is a real in [-1, 1]), the recurrence ends at the maximum M of all
  scores of the sequence and the sums of exp (s - M) and of exp (s - M) times the row, and multiplying by the
  reciprocal of a positive real is dividing by it.  Finiteness is used exactly there: the rescaling
  exp (m - m') * exp (s - m) = exp (s - m') and the common factor cancelled in the quotient are laws of the reals.

  Each program's frame (it terminates, nothing faults, the argument arrays end unchanged) is proved from the run of
  its regions: for the kernel, at the word-level instance and at the exact one, the body of each region is run
  case by case (first tile, middle tile, last tile) and the three running numbers are carried between grid points in
  the region invariant; the reference is a list of host operations.  The idealization rewrote no operation.
-/
import proofs.«116815_j65094524338925_2_alg».proof.Defs
import proofs.«116815_j65094524338925_2_alg».proof.Proof.Gen.Kernel
import proofs.«116815_j65094524338925_2_alg».proof.Proof.Gen.KernelIdeal
import proofs.«116815_j65094524338925_2_alg».proof.Proof.Gen.ReferenceIdeal
import proofs.«116815_j65094524338925_2_alg».proof.Proof.Gen.ReferenceIdeal.Run
import proofs.«116815_j65094524338925_2_alg».proof.Proof.Gen.ReferenceIdeal.Read
import proofs.«116815_j65094524338925_2_alg».proof.Proof.Gen.Pre_finite_inputs
import proofs.«116815_j65094524338925_2_alg».proof.Proof.KB.Run
import proofs.«116815_j65094524338925_2_alg».proof.Proof.KI.Run
import proofs.«116815_j65094524338925_2_alg».proof.Proof.KI.Value
import proofs.«116815_j65094524338925_2_alg».proof.Proof.RefValue
import proofs.«116815_j65094524338925_2_alg».proof.Proof.AlgAssemble

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- At the exact instance, from memories agreeing on finite arguments, both programs end with the softmax weights
    and the softmax-weighted sums: the kernel at the online form, the reference at the one-pass form, equal for finite
    inputs. -/
theorem algebraic : Cert.algebraic_KernelIdeal_ReferenceIdeal := by
  intro m ρ m' ρ' hpre hagree
  refine ⟨fun c => (fun i => Attn.kWeight (Cert.KernelIdeal.HandValue.aT m c) (Cert.KernelIdeal.HandValue.aA m c) (Cert.KernelIdeal.HandValue.aW m c) (Cert.KernelIdeal.HandValue.aw1 m c) (Cert.KernelIdeal.HandValue.aw2 m c) (i 0) (i 2) : Cert.KernelIdeal.S64x1x2048.Idx → EReal),
    fun c => (fun i => Attn.kOut (Cert.KernelIdeal.HandValue.aT m c) (Cert.KernelIdeal.HandValue.aA m c) (Cert.KernelIdeal.HandValue.aW m c) (Cert.KernelIdeal.HandValue.aw1 m c) (Cert.KernelIdeal.HandValue.aw2 m c) (i 0) (i 2) : Cert.KernelIdeal.S64x1x256.Idx → EReal),
    Cert.KernelIdeal.HandValue.kernel_run m ρ, ?_⟩
  refine (θ_run Cert.ReferenceIdeal.defs _ _).mono (fun _ h c => ⟨?_, ?_, (h c).2.2⟩)
    (Cert.ReferenceIdeal.Value.run (F := Ideal) m' ρ')
  · refine (h c).1.trans ?_
    rw [(hagree c).1, (hagree c).2.1, (hagree c).2.2.1, (hagree c).2.2.2]
    refine (Cert.ReferenceIdeal.Read.val_main_v16_eq _ _ _ _).trans ?_
    rw [Cert.ReferenceIdeal.RefValue.result16,
      ← Cert.Proof.Finite.kWeight_eq_gWeight_of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (hpre c)]
  · refine (h c).2.1.trans ?_
    rw [(hagree c).1, (hagree c).2.1, (hagree c).2.2.1, (hagree c).2.2.2]
    refine (Cert.ReferenceIdeal.Read.val_main_v17_eq _ _ _ _).trans ?_
    rw [Cert.ReferenceIdeal.RefValue.result17,
      ← Cert.Proof.Finite.kOut_eq_gOut_of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (hpre c)]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
